-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S8x33x33x33x3 : Shape := ⟨5, ![8, 33, 33, 33, 3]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  bcast_S_S8x33x33x33x3 : S_.BroadcastsInDim S8x33x33x33x3 (![] : Fin 0 → Fin S8x33x33x33x3.rank)
  reducesTo_S8x33x33x33x3_S_d0_1_2_3_4 : S8x33x33x33x3.ReducesTo [0, 1, 2, 3, 4] S_

variable [Facts]

def fn {F : FTy → Type} [FloatOps F] (main_arg0 : FVec F S8x3x1024x1024 .f32) (main_arg1 : FVec F S8x33x33x33x3 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S8x33x33x33x3 .f32 := Host.absf main_arg1
  let main_cst_0 : FVec F S_ .f32 := constant S_ .f32 0x7F800000#32
  let main_v5 : FVec F S8x33x33x33x3 .f32 := broadcastInDim S8x33x33x33x3 ![] bcast_S_S8x33x33x33x3 main_cst_0
  let main_v6 : IVec S8x33x33x33x3 1 := cmpf .olt main_v4 main_v5
  let main_c_1 : IVec S_ 1 := constantI S_ 1 1#1
  let main_v7 : IVec S_ 1 := (fun x v => Host.reduce IntOp.andi x v reducesTo_S8x33x33x33x3_S_d0_1_2_3_4 h_S_) main_v6 main_c_1
  let main_v8 : IVec S_ 1 := andi main_v3 main_v7
  main_v8
-- ==== Kernel.lean ====
abbrev S8x3x1024x1024 : Shape := ⟨4, ![8, 3, 1024, 1024]⟩
abbrev S8x33x33x33x3 : Shape := ⟨5, ![8, 33, 33, 33, 3]⟩
abbrev S8x3x1048576 : Shape := ⟨3, ![8, 3, 1048576]⟩
abbrev S8x3x33x33x33 : Shape := ⟨5, ![8, 3, 33, 33, 33]⟩
abbrev S8x99x1089 : Shape := ⟨3, ![8, 99, 1089]⟩
abbrev S1x3x2048 : Shape := ⟨3, ![1, 3, 2048]⟩
abbrev S1x99x1089 : Shape := ⟨3, ![1, 99, 1089]⟩
abbrev S1x1x2048 : Shape := ⟨3, ![1, 1, 2048]⟩
abbrev S2048 : Shape := ⟨1, ![2048]⟩
abbrev S33x2048 : Shape := ⟨2, ![33, 2048]⟩
abbrev S1x2048 : Shape := ⟨2, ![1, 2048]⟩
abbrev S33x1x2048 : Shape := ⟨3, ![33, 1, 2048]⟩
abbrev S1x33x2048 : Shape := ⟨3, ![1, 33, 2048]⟩
abbrev S33x33x2048 : Shape := ⟨3, ![33, 33, 2048]⟩
abbrev S1089x2048 : Shape := ⟨2, ![1089, 2048]⟩
abbrev S99x1089 : Shape := ⟨2, ![99, 1089]⟩
abbrev S99x2048 : Shape := ⟨2, ![99, 2048]⟩
abbrev S3x2048 : Shape := ⟨2, ![3, 2048]⟩

abbrev nBuf : Space → Nat
  | .hbm => 8
  | .vmem => 5
  | .smem => 0
  | _ => 0

abbrev bufTy : (tb : Table) → Fin (tcTables nBuf tb) → BufTy
  | .hbm, ⟨0, _⟩ => ⟨S8x3x1024x1024, .f32⟩
  | .hbm, ⟨1, _⟩ => ⟨S8x33x33x33x3, .f32⟩
  | .hbm, ⟨2, _⟩ => ⟨S8x3x1048576, .f32⟩
  | .hbm, ⟨3, _⟩ => ⟨S8x3x33x33x33, .f32⟩
  | .hbm, ⟨4, _⟩ => ⟨S8x99x1089, .f32⟩
  | .hbm, ⟨5, _⟩ => ⟨S8x99x1089, .bf16⟩
  | .hbm, ⟨6, _⟩ => ⟨S8x3x1048576, .f32⟩
  | .hbm, ⟨7, _⟩ => ⟨S8x3x1024x1024, .f32⟩
  | .local _ .vmem, ⟨0, _⟩ => ⟨S1x3x2048, .f32⟩
  | .local _ .vmem, ⟨1, _⟩ => ⟨S1x3x2048, .f32⟩
  | .local _ .vmem, ⟨2, _⟩ => ⟨S1x99x1089, .bf16⟩
  | .local _ .vmem, ⟨3, _⟩ => ⟨S1x3x2048, .f32⟩
  | .local _ .vmem, ⟨4, _⟩ => ⟨S1x3x2048, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 512], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x99x1089 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x3x1024x1024_S8x3x1048576 : S8x3x1024x1024.ShapeCasts S8x3x1048576
  transposes_S8x33x33x33x3_S8x3x33x33x33_0_4_1_2_3 : S8x33x33x33x3.Transposes [0, 4, 1, 2, 3] S8x3x33x33x33
  shapeCasts_S8x3x33x33x33_S8x99x1089 : S8x3x33x33x33.ShapeCasts S8x99x1089
  bitsLt_bf16_f32 : FTy.bits .bf16 < FTy.bits .f32
  inb_S1x3x2048_S1x1x2048_0_0_0 : ∀ a, (![0, 0, 0] : Fin 3 → Nat) a + S1x1x2048.size a ≤ S1x3x2048.size a
  h_S1x1x2048 : 0 < S1x1x2048.numel
  shapeCasts_S1x1x2048_S2048 : S1x1x2048.ShapeCasts S2048
  inb_S1x3x2048_S1x1x2048_0_1_0 : ∀ a, (![0, 1, 0] : Fin 3 → Nat) a + S1x1x2048.size a ≤ S1x3x2048.size a
  inb_S1x3x2048_S1x1x2048_0_2_0 : ∀ a, (![0, 2, 0] : Fin 3 → Nat) a + S1x1x2048.size a ≤ S1x3x2048.size a
  iota_S33x2048_d0_w32 : S33x2048.Iotas .tc 32 [0]
  shapeCasts_S2048_S1x2048 : S2048.ShapeCasts S1x2048
  broadcasts_S1x2048_S33x2048 : S1x2048.Broadcasts S33x2048
  shapeCasts_S1x2048_S1x2048 : S1x2048.ShapeCasts S1x2048
  shapeCasts_S33x2048_S33x1x2048 : S33x2048.ShapeCasts S33x1x2048
  shapeCasts_S33x2048_S1x33x2048 : S33x2048.ShapeCasts S1x33x2048
  broadcasts_S33x1x2048_S33x33x2048 : S33x1x2048.Broadcasts S33x33x2048
  broadcasts_S1x33x2048_S33x33x2048 : S1x33x2048.Broadcasts S33x33x2048
  shapeCasts_S33x33x2048_S1089x2048 : S33x33x2048.ShapeCasts S1089x2048
  inb_S1x99x1089_S1x99x1089_0_0_0 : ∀ a, (![0, 0, 0] : Fin 3 → Nat) a + S1x99x1089.size a ≤ S1x99x1089.size a
  h_S1x99x1089 : 0 < S1x99x1089.numel
  shapeCasts_S1x99x1089_S99x1089 : S1x99x1089.ShapeCasts S99x1089
  slices_S99x2048_o0_0_S33x2048 : S99x2048.Slices ![0, 0] S33x2048
  reduces_S33x2048_S2048 : S33x2048.Reduces [0] S2048
  slices_S99x2048_o33_0_S33x2048 : S99x2048.Slices ![33, 0] S33x2048
  slices_S99x2048_o66_0_S33x2048 : S99x2048.Slices ![66, 0] S33x2048
  concatenates_S1x2048_S1x2048_S1x2048_S3x2048_d0 : Shape.Concatenates [S1x2048, S1x2048, S1x2048] S3x2048 0
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  shapeCasts_S3x2048_S1x3x2048 : S3x2048.ShapeCasts S1x3x2048
  shapeCasts_S8x3x1048576_S8x3x1024x1024 : S8x3x1048576.ShapeCasts S8x3x1024x1024
  dot_S99x1089_S1089x2048_S99x2048_1_0_0_1_n_n_wf : DotDims.WF S99x1089 S1089x2048 S99x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S8x3x1048576.size a
  hwx0_0 : ∀ i : grid0.Coords, EltTy.bits .f32 = 32 ∨ (Rect.block (s := S8x3x1048576) S1x3x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x99x1089.size a ≤ S8x99x1089.size a
  hwx0_1 : ∀ i : grid0.Coords, EltTy.bits .bf16 = 32 ∨ (Rect.block (s := S8x99x1089) S1x99x1089.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x2048.size a ≤ S8x3x1048576.size a
  hwx0_2 : ∀ i : grid0.Coords, EltTy.bits .f32 = 32 ∨ (Rect.block (s := S8x3x1048576) S1x3x2048.size (cc0_transform_2 i) (hinb0_2 i)).WholeWords (EltTy.packing .f32)

variable [Facts₀]

def dot_S99x1089_S1089x2048_S99x2048_1_0_0_1_n_n : DotDims S99x1089 S1089x2048 S99x2048 where
  lhsContracting := [1]
  rhsContracting := [0]
  lhsNonContracting := [0]
  rhsNonContracting := [1]
  lhsBatch := []
  rhsBatch := []
  wf := dot_S99x1089_S1089x2048_S99x2048_1_0_0_1_n_n_wf

abbrev win0_0 : Pipeline.Window sig grid0 :=
  Pipeline.Window.ofSpec (Memref.whole main_v0) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x99x1089.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x1024x1024 : Shape := ⟨4, ![8, 3, 1024, 1024]⟩
abbrev S8x33x33x33x3 : Shape := ⟨5, ![8, 33, 33, 33, 3]⟩
abbrev S8x1024x1024x3 : Shape := ⟨4, ![8, 1024, 1024, 3]⟩
abbrev S_ : Shape := ⟨0, ![]⟩
abbrev S8x1024x1024x1 : Shape := ⟨4, ![8, 1024, 1024, 1]⟩
abbrev S8x35937x3 : Shape := ⟨3, ![8, 35937, 3]⟩
abbrev S8x1024x1024 : Shape := ⟨3, ![8, 1024, 1024]⟩
abbrev S8x1048576x1 : Shape := ⟨3, ![8, 1048576, 1]⟩
abbrev S1 : Shape := ⟨1, ![1]⟩
abbrev S1x1x1 : Shape := ⟨3, ![1, 1, 1]⟩
abbrev S8x1048576 : Shape := ⟨2, ![8, 1048576]⟩
abbrev S8x1048576x3 : Shape := ⟨3, ![8, 1048576, 3]⟩

abbrev nBuf : Space → Nat
  | .hbm => 353
  | .vmem => 0
  | .smem => 0
  | _ => 0

abbrev hbmTy0_0 (i : Nat) : BufTy := match i % 128 with
  | 0 => ⟨S8x3x1024x1024, .f32⟩
  | 1 => ⟨S8x33x33x33x3, .f32⟩
  | 2 => ⟨S8x1024x1024x3, .f32⟩
  | 3 => ⟨S_, .f32⟩
  | 4 => ⟨S8x1024x1024x3, .f32⟩
  | 5 => ⟨S8x1024x1024x3, .f32⟩
  | 6 => ⟨S_, .f32⟩
  | 7 => ⟨S_, .f32⟩
  | 8 => ⟨S_, .f32⟩
  | 9 => ⟨S8x1024x1024x3, .f32⟩
  | 10 => ⟨S8x1024x1024x3, .f32⟩
  | 11 => ⟨S_, .f32⟩
  | 12 => ⟨S8x1024x1024x3, .f32⟩
  | 13 => ⟨S8x1024x1024x3, .f32⟩
  | 14 => ⟨S8x1024x1024x3, .f32⟩
  | 15 => ⟨S8x1024x1024x3, .i32⟩
  | 16 => ⟨S_, .i32⟩
  | 17 => ⟨S8x1024x1024x3, .i32⟩
  | 18 => ⟨S8x1024x1024x3, .i32⟩
  | 19 => ⟨S_, .i32⟩
  | 20 => ⟨S8x1024x1024x3, .i32⟩
  | 21 => ⟨S8x1024x1024x3, .i32⟩
  | 22 => ⟨S8x1024x1024x3, .f32⟩
  | 23 => ⟨S8x1024x1024x3, .f32⟩
  | 24 => ⟨S8x1024x1024x1, .f32⟩
  | 25 => ⟨S8x1024x1024x1, .f32⟩
  | 26 => ⟨S8x1024x1024x1, .f32⟩
  | 27 => ⟨S8x35937x3, .f32⟩
  | 28 => ⟨S8x1024x1024x1, .i32⟩
  | 29 => ⟨S8x1024x1024, .i32⟩
  | 30 => ⟨S8x1024x1024x1, .i32⟩
  | 31 => ⟨S8x1024x1024, .i32⟩
  | 32 => ⟨S8x1024x1024x1, .i32⟩
  | 33 => ⟨S8x1024x1024, .i32⟩
  | 34 => ⟨S8x1024x1024x1, .i32⟩
  | 35 => ⟨S8x1024x1024, .i32⟩
  | 36 => ⟨S8x1024x1024x1, .i32⟩
  | 37 => ⟨S8x1024x1024, .i32⟩
  | 38 => ⟨S8x1024x1024x1, .i32⟩
  | 39 => ⟨S8x1024x1024, .i32⟩
  | 40 => ⟨S_, .i32⟩
  | 41 => ⟨S8x1024x1024, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i32⟩
  | 47 => ⟨S8x1024x1024, .i32⟩
  | 48 => ⟨S8x1048576x1, .i32⟩
  | 49 => ⟨S_, .i32⟩
  | 50 => ⟨S8x1048576x1, .i32⟩
  | 51 => ⟨S8x1048576x1, .i1⟩
  | 52 => ⟨S_, .i32⟩
  | 53 => ⟨S8x1048576x1, .i32⟩
  | 54 => ⟨S8x1048576x1, .i32⟩
  | 55 => ⟨S8x1048576x1, .i32⟩
  | 56 => ⟨S1, .i32⟩
  | 57 => ⟨S_, .i32⟩
  | 58 => ⟨S8x1048576x1, .i32⟩
  | 59 => ⟨S8x1048576x1, .i1⟩
  | 60 => ⟨S1x1x1, .i32⟩
  | 61 => ⟨S8x1048576x1, .i32⟩
  | 62 => ⟨S8x1048576x1, .i1⟩
  | 63 => ⟨S8x1048576x1, .i1⟩
  | 64 => ⟨S_, .i1⟩
  | 65 => ⟨S8x1048576, .i1⟩
  | 66 => ⟨S8x1048576x3, .f32⟩
  | 67 => ⟨S8x1048576x3, .i1⟩
  | 68 => ⟨S_, .f32⟩
  | 69 => ⟨S8x1048576x3, .f32⟩
  | 70 => ⟨S8x1048576x3, .f32⟩
  | 71 => ⟨S8x1024x1024x3, .f32⟩
  | 72 => ⟨S_, .i32⟩
  | 73 => ⟨S8x1024x1024, .i32⟩
  | 74 => ⟨S8x1024x1024, .i32⟩
  | 75 => ⟨S8x1024x1024, .i32⟩
  | 76 => ⟨S_, .i32⟩
  | 77 => ⟨S8x1024x1024, .i32⟩
  | 78 => ⟨S8x1024x1024, .i32⟩
  | 79 => ⟨S8x1024x1024, .i32⟩
  | 80 => ⟨S8x1048576x1, .i32⟩
  | 81 => ⟨S_, .i32⟩
  | 82 => ⟨S8x1048576x1, .i32⟩
  | 83 => ⟨S8x1048576x1, .i1⟩
  | 84 => ⟨S_, .i32⟩
  | 85 => ⟨S8x1048576x1, .i32⟩
  | 86 => ⟨S8x1048576x1, .i32⟩
  | 87 => ⟨S8x1048576x1, .i32⟩
  | 88 => ⟨S1, .i32⟩
  | 89 => ⟨S_, .i32⟩
  | 90 => ⟨S8x1048576x1, .i32⟩
  | 91 => ⟨S8x1048576x1, .i1⟩
  | 92 => ⟨S1x1x1, .i32⟩
  | 93 => ⟨S8x1048576x1, .i32⟩
  | 94 => ⟨S8x1048576x1, .i1⟩
  | 95 => ⟨S8x1048576x1, .i1⟩
  | 96 => ⟨S_, .i1⟩
  | 97 => ⟨S8x1048576, .i1⟩
  | 98 => ⟨S8x1048576x3, .f32⟩
  | 99 => ⟨S8x1048576x3, .i1⟩
  | 100 => ⟨S_, .f32⟩
  | 101 => ⟨S8x1048576x3, .f32⟩
  | 102 => ⟨S8x1048576x3, .f32⟩
  | 103 => ⟨S8x1024x1024x3, .f32⟩
  | 104 => ⟨S_, .i32⟩
  | 105 => ⟨S8x1024x1024, .i32⟩
  | 106 => ⟨S8x1024x1024, .i32⟩
  | 107 => ⟨S8x1024x1024, .i32⟩
  | 108 => ⟨S_, .i32⟩
  | 109 => ⟨S8x1024x1024, .i32⟩
  | 110 => ⟨S8x1024x1024, .i32⟩
  | 111 => ⟨S8x1024x1024, .i32⟩
  | 112 => ⟨S8x1048576x1, .i32⟩
  | 113 => ⟨S_, .i32⟩
  | 114 => ⟨S8x1048576x1, .i32⟩
  | 115 => ⟨S8x1048576x1, .i1⟩
  | 116 => ⟨S_, .i32⟩
  | 117 => ⟨S8x1048576x1, .i32⟩
  | 118 => ⟨S8x1048576x1, .i32⟩
  | 119 => ⟨S8x1048576x1, .i32⟩
  | 120 => ⟨S1, .i32⟩
  | 121 => ⟨S_, .i32⟩
  | 122 => ⟨S8x1048576x1, .i32⟩
  | 123 => ⟨S8x1048576x1, .i1⟩
  | 124 => ⟨S1x1x1, .i32⟩
  | 125 => ⟨S8x1048576x1, .i32⟩
  | 126 => ⟨S8x1048576x1, .i1⟩
  | 127 => ⟨S8x1048576x1, .i1⟩
  | _ => ⟨S8x3x1024x1024, .f32⟩

abbrev hbmTy0_1 (i : Nat) : BufTy := match i % 128 with
  | 0 => ⟨S_, .i1⟩
  | 1 => ⟨S8x1048576, .i1⟩
  | 2 => ⟨S8x1048576x3, .f32⟩
  | 3 => ⟨S8x1048576x3, .i1⟩
  | 4 => ⟨S_, .f32⟩
  | 5 => ⟨S8x1048576x3, .f32⟩
  | 6 => ⟨S8x1048576x3, .f32⟩
  | 7 => ⟨S8x1024x1024x3, .f32⟩
  | 8 => ⟨S_, .i32⟩
  | 9 => ⟨S8x1024x1024, .i32⟩
  | 10 => ⟨S8x1024x1024, .i32⟩
  | 11 => ⟨S8x1024x1024, .i32⟩
  | 12 => ⟨S_, .i32⟩
  | 13 => ⟨S8x1024x1024, .i32⟩
  | 14 => ⟨S8x1024x1024, .i32⟩
  | 15 => ⟨S8x1024x1024, .i32⟩
  | 16 => ⟨S8x1048576x1, .i32⟩
  | 17 => ⟨S_, .i32⟩
  | 18 => ⟨S8x1048576x1, .i32⟩
  | 19 => ⟨S8x1048576x1, .i1⟩
  | 20 => ⟨S_, .i32⟩
  | 21 => ⟨S8x1048576x1, .i32⟩
  | 22 => ⟨S8x1048576x1, .i32⟩
  | 23 => ⟨S8x1048576x1, .i32⟩
  | 24 => ⟨S1, .i32⟩
  | 25 => ⟨S_, .i32⟩
  | 26 => ⟨S8x1048576x1, .i32⟩
  | 27 => ⟨S8x1048576x1, .i1⟩
  | 28 => ⟨S1x1x1, .i32⟩
  | 29 => ⟨S8x1048576x1, .i32⟩
  | 30 => ⟨S8x1048576x1, .i1⟩
  | 31 => ⟨S8x1048576x1, .i1⟩
  | 32 => ⟨S_, .i1⟩
  | 33 => ⟨S8x1048576, .i1⟩
  | 34 => ⟨S8x1048576x3, .f32⟩
  | 35 => ⟨S8x1048576x3, .i1⟩
  | 36 => ⟨S_, .f32⟩
  | 37 => ⟨S8x1048576x3, .f32⟩
  | 38 => ⟨S8x1048576x3, .f32⟩
  | 39 => ⟨S8x1024x1024x3, .f32⟩
  | 40 => ⟨S_, .i32⟩
  | 41 => ⟨S8x1024x1024, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i32⟩
  | 47 => ⟨S8x1024x1024, .i32⟩
  | 48 => ⟨S8x1048576x1, .i32⟩
  | 49 => ⟨S_, .i32⟩
  | 50 => ⟨S8x1048576x1, .i32⟩
  | 51 => ⟨S8x1048576x1, .i1⟩
  | 52 => ⟨S_, .i32⟩
  | 53 => ⟨S8x1048576x1, .i32⟩
  | 54 => ⟨S8x1048576x1, .i32⟩
  | 55 => ⟨S8x1048576x1, .i32⟩
  | 56 => ⟨S1, .i32⟩
  | 57 => ⟨S_, .i32⟩
  | 58 => ⟨S8x1048576x1, .i32⟩
  | 59 => ⟨S8x1048576x1, .i1⟩
  | 60 => ⟨S1x1x1, .i32⟩
  | 61 => ⟨S8x1048576x1, .i32⟩
  | 62 => ⟨S8x1048576x1, .i1⟩
  | 63 => ⟨S8x1048576x1, .i1⟩
  | 64 => ⟨S_, .i1⟩
  | 65 => ⟨S8x1048576, .i1⟩
  | 66 => ⟨S8x1048576x3, .f32⟩
  | 67 => ⟨S8x1048576x3, .i1⟩
  | 68 => ⟨S_, .f32⟩
  | 69 => ⟨S8x1048576x3, .f32⟩
  | 70 => ⟨S8x1048576x3, .f32⟩
  | 71 => ⟨S8x1024x1024x3, .f32⟩
  | 72 => ⟨S_, .i32⟩
  | 73 => ⟨S8x1024x1024, .i32⟩
  | 74 => ⟨S8x1024x1024, .i32⟩
  | 75 => ⟨S8x1024x1024, .i32⟩
  | 76 => ⟨S_, .i32⟩
  | 77 => ⟨S8x1024x1024, .i32⟩
  | 78 => ⟨S8x1024x1024, .i32⟩
  | 79 => ⟨S8x1024x1024, .i32⟩
  | 80 => ⟨S8x1048576x1, .i32⟩
  | 81 => ⟨S_, .i32⟩
  | 82 => ⟨S8x1048576x1, .i32⟩
  | 83 => ⟨S8x1048576x1, .i1⟩
  | 84 => ⟨S_, .i32⟩
  | 85 => ⟨S8x1048576x1, .i32⟩
  | 86 => ⟨S8x1048576x1, .i32⟩
  | 87 => ⟨S8x1048576x1, .i32⟩
  | 88 => ⟨S1, .i32⟩
  | 89 => ⟨S_, .i32⟩
  | 90 => ⟨S8x1048576x1, .i32⟩
  | 91 => ⟨S8x1048576x1, .i1⟩
  | 92 => ⟨S1x1x1, .i32⟩
  | 93 => ⟨S8x1048576x1, .i32⟩
  | 94 => ⟨S8x1048576x1, .i1⟩
  | 95 => ⟨S8x1048576x1, .i1⟩
  | 96 => ⟨S_, .i1⟩
  | 97 => ⟨S8x1048576, .i1⟩
  | 98 => ⟨S8x1048576x3, .f32⟩
  | 99 => ⟨S8x1048576x3, .i1⟩
  | 100 => ⟨S_, .f32⟩
  | 101 => ⟨S8x1048576x3, .f32⟩
  | 102 => ⟨S8x1048576x3, .f32⟩
  | 103 => ⟨S8x1024x1024x3, .f32⟩
  | 104 => ⟨S_, .i32⟩
  | 105 => ⟨S8x1024x1024, .i32⟩
  | 106 => ⟨S8x1024x1024, .i32⟩
  | 107 => ⟨S8x1024x1024, .i32⟩
  | 108 => ⟨S_, .i32⟩
  | 109 => ⟨S8x1024x1024, .i32⟩
  | 110 => ⟨S8x1024x1024, .i32⟩
  | 111 => ⟨S8x1024x1024, .i32⟩
  | 112 => ⟨S8x1048576x1, .i32⟩
  | 113 => ⟨S_, .i32⟩
  | 114 => ⟨S8x1048576x1, .i32⟩
  | 115 => ⟨S8x1048576x1, .i1⟩
  | 116 => ⟨S_, .i32⟩
  | 117 => ⟨S8x1048576x1, .i32⟩
  | 118 => ⟨S8x1048576x1, .i32⟩
  | 119 => ⟨S8x1048576x1, .i32⟩
  | 120 => ⟨S1, .i32⟩
  | 121 => ⟨S_, .i32⟩
  | 122 => ⟨S8x1048576x1, .i32⟩
  | 123 => ⟨S8x1048576x1, .i1⟩
  | 124 => ⟨S1x1x1, .i32⟩
  | 125 => ⟨S8x1048576x1, .i32⟩
  | 126 => ⟨S8x1048576x1, .i1⟩
  | 127 => ⟨S8x1048576x1, .i1⟩
  | _ => ⟨S8x3x1024x1024, .f32⟩

abbrev hbmTy0_2 (i : Nat) : BufTy := match i % 128 with
  | 0 => ⟨S_, .i1⟩
  | 1 => ⟨S8x1048576, .i1⟩
  | 2 => ⟨S8x1048576x3, .f32⟩
  | 3 => ⟨S8x1048576x3, .i1⟩
  | 4 => ⟨S_, .f32⟩
  | 5 => ⟨S8x1048576x3, .f32⟩
  | 6 => ⟨S8x1048576x3, .f32⟩
  | 7 => ⟨S8x1024x1024x3, .f32⟩
  | 8 => ⟨S_, .i32⟩
  | 9 => ⟨S8x1024x1024, .i32⟩
  | 10 => ⟨S8x1024x1024, .i32⟩
  | 11 => ⟨S8x1024x1024, .i32⟩
  | 12 => ⟨S_, .i32⟩
  | 13 => ⟨S8x1024x1024, .i32⟩
  | 14 => ⟨S8x1024x1024, .i32⟩
  | 15 => ⟨S8x1024x1024, .i32⟩
  | 16 => ⟨S8x1048576x1, .i32⟩
  | 17 => ⟨S_, .i32⟩
  | 18 => ⟨S8x1048576x1, .i32⟩
  | 19 => ⟨S8x1048576x1, .i1⟩
  | 20 => ⟨S_, .i32⟩
  | 21 => ⟨S8x1048576x1, .i32⟩
  | 22 => ⟨S8x1048576x1, .i32⟩
  | 23 => ⟨S8x1048576x1, .i32⟩
  | 24 => ⟨S1, .i32⟩
  | 25 => ⟨S_, .i32⟩
  | 26 => ⟨S8x1048576x1, .i32⟩
  | 27 => ⟨S8x1048576x1, .i1⟩
  | 28 => ⟨S1x1x1, .i32⟩
  | 29 => ⟨S8x1048576x1, .i32⟩
  | 30 => ⟨S8x1048576x1, .i1⟩
  | 31 => ⟨S8x1048576x1, .i1⟩
  | 32 => ⟨S_, .i1⟩
  | 33 => ⟨S8x1048576, .i1⟩
  | 34 => ⟨S8x1048576x3, .f32⟩
  | 35 => ⟨S8x1048576x3, .i1⟩
  | 36 => ⟨S_, .f32⟩
  | 37 => ⟨S8x1048576x3, .f32⟩
  | 38 => ⟨S8x1048576x3, .f32⟩
  | 39 => ⟨S8x1024x1024x3, .f32⟩
  | 40 => ⟨S_, .f32⟩
  | 41 => ⟨S8x1024x1024x1, .f32⟩
  | 42 => ⟨S8x1024x1024x1, .f32⟩
  | 43 => ⟨S8x1024x1024x3, .f32⟩
  | 44 => ⟨S8x1024x1024x3, .f32⟩
  | 45 => ⟨S8x1024x1024x3, .f32⟩
  | 46 => ⟨S8x1024x1024x3, .f32⟩
  | 47 => ⟨S8x1024x1024x3, .f32⟩
  | 48 => ⟨S_, .f32⟩
  | 49 => ⟨S8x1024x1024x1, .f32⟩
  | 50 => ⟨S8x1024x1024x1, .f32⟩
  | 51 => ⟨S8x1024x1024x3, .f32⟩
  | 52 => ⟨S8x1024x1024x3, .f32⟩
  | 53 => ⟨S8x1024x1024x3, .f32⟩
  | 54 => ⟨S8x1024x1024x3, .f32⟩
  | 55 => ⟨S8x1024x1024x3, .f32⟩
  | 56 => ⟨S_, .f32⟩
  | 57 => ⟨S8x1024x1024x1, .f32⟩
  | 58 => ⟨S8x1024x1024x1, .f32⟩
  | 59 => ⟨S8x1024x1024x3, .f32⟩
  | 60 => ⟨S8x1024x1024x3, .f32⟩
  | 61 => ⟨S8x1024x1024x3, .f32⟩
  | 62 => ⟨S8x1024x1024x3, .f32⟩
  | 63 => ⟨S8x1024x1024x3, .f32⟩
  | 64 => ⟨S_, .f32⟩
  | 65 => ⟨S8x1024x1024x1, .f32⟩
  | 66 => ⟨S8x1024x1024x1, .f32⟩
  | 67 => ⟨S8x1024x1024x3, .f32⟩
  | 68 => ⟨S8x1024x1024x3, .f32⟩
  | 69 => ⟨S8x1024x1024x3, .f32⟩
  | 70 => ⟨S8x1024x1024x3, .f32⟩
  | 71 => ⟨S8x1024x1024x3, .f32⟩
  | 72 => ⟨S_, .f32⟩
  | 73 => ⟨S8x1024x1024x1, .f32⟩
  | 74 => ⟨S8x1024x1024x1, .f32⟩
  | 75 => ⟨S8x1024x1024x3, .f32⟩
  | 76 => ⟨S8x1024x1024x3, .f32⟩
  | 77 => ⟨S8x1024x1024x3, .f32⟩
  | 78 => ⟨S8x1024x1024x3, .f32⟩
  | 79 => ⟨S8x1024x1024x3, .f32⟩
  | 80 => ⟨S_, .f32⟩
  | 81 => ⟨S8x1024x1024x1, .f32⟩
  | 82 => ⟨S8x1024x1024x1, .f32⟩
  | 83 => ⟨S8x1024x1024x3, .f32⟩
  | 84 => ⟨S8x1024x1024x3, .f32⟩
  | 85 => ⟨S8x1024x1024x3, .f32⟩
  | 86 => ⟨S8x1024x1024x3, .f32⟩
  | 87 => ⟨S8x1024x1024x3, .f32⟩
  | 88 => ⟨S_, .f32⟩
  | 89 => ⟨S8x1024x1024x1, .f32⟩
  | 90 => ⟨S8x1024x1024x1, .f32⟩
  | 91 => ⟨S8x1024x1024x3, .f32⟩
  | 92 => ⟨S8x1024x1024x3, .f32⟩
  | 93 => ⟨S8x1024x1024x3, .f32⟩
  | 94 => ⟨S8x1024x1024x3, .f32⟩
  | 95 => ⟨S8x1024x1024x3, .f32⟩
  | 96 => ⟨S8x3x1024x1024, .f32⟩
  | _ => ⟨S8x3x1024x1024, .f32⟩

abbrev hbmTy (i : Nat) : BufTy := match i / 128 with
  | 0 => hbmTy0_0 i
  | 1 => hbmTy0_1 i
  | 2 => hbmTy0_2 i
  | _ => ⟨S8x3x1024x1024, .f32⟩

abbrev bufTy : (tb : Table) → Fin (tcTables nBuf tb) → BufTy
  | .hbm, ⟨i, _⟩ => hbmTy i
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_c_2 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_c_3 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v35 : Ref sig .tc := ⟨.hbm, 70, rfl⟩
abbrev main_v36 : Ref sig .tc := ⟨.hbm, 71, rfl⟩
abbrev main_c_5 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_6 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_c_1 : Ref sig .tc := ⟨.hbm, 88, rfl⟩
abbrev main_call2_c_2 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_c_3 : Ref sig .tc := ⟨.hbm, 96, rfl⟩
abbrev main_call2_v11 : Ref sig .tc := ⟨.hbm, 97, rfl⟩
abbrev main_call2_v12 : Ref sig .tc := ⟨.hbm, 98, rfl⟩
abbrev main_call2_v13 : Ref sig .tc := ⟨.hbm, 99, rfl⟩
abbrev main_call2_cst : Ref sig .tc := ⟨.hbm, 100, rfl⟩
abbrev main_call2_v14 : Ref sig .tc := ⟨.hbm, 101, rfl⟩
abbrev main_v44 : Ref sig .tc := ⟨.hbm, 102, rfl⟩
abbrev main_v45 : Ref sig .tc := ⟨.hbm, 103, rfl⟩
abbrev main_c_7 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_c_8 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_call3_c : Ref sig .tc := ⟨.hbm, 113, rfl⟩
abbrev main_call3_v0 : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_c_1 : Ref sig .tc := ⟨.hbm, 120, rfl⟩
abbrev main_call3_c_2 : Ref sig .tc := ⟨.hbm, 121, rfl⟩
abbrev main_call3_v5 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_c_3 : Ref sig .tc := ⟨.hbm, 128, rfl⟩
abbrev main_call3_v11 : Ref sig .tc := ⟨.hbm, 129, rfl⟩
abbrev main_call3_v12 : Ref sig .tc := ⟨.hbm, 130, rfl⟩
abbrev main_call3_v13 : Ref sig .tc := ⟨.hbm, 131, rfl⟩
abbrev main_call3_cst : Ref sig .tc := ⟨.hbm, 132, rfl⟩
abbrev main_call3_v14 : Ref sig .tc := ⟨.hbm, 133, rfl⟩
abbrev main_v53 : Ref sig .tc := ⟨.hbm, 134, rfl⟩
abbrev main_v54 : Ref sig .tc := ⟨.hbm, 135, rfl⟩
abbrev main_c_9 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_c_10 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_call4_c : Ref sig .tc := ⟨.hbm, 145, rfl⟩
abbrev main_call4_v0 : Ref sig .tc := ⟨.hbm, 146, rfl⟩
abbrev main_call4_v1 : Ref sig .tc := ⟨.hbm, 147, rfl⟩
abbrev main_call4_c_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_c_1 : Ref sig .tc := ⟨.hbm, 152, rfl⟩
abbrev main_call4_c_2 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_v9 : Ref sig .tc := ⟨.hbm, 158, rfl⟩
abbrev main_call4_v10 : Ref sig .tc := ⟨.hbm, 159, rfl⟩
abbrev main_call4_c_3 : Ref sig .tc := ⟨.hbm, 160, rfl⟩
abbrev main_call4_v11 : Ref sig .tc := ⟨.hbm, 161, rfl⟩
abbrev main_call4_v12 : Ref sig .tc := ⟨.hbm, 162, rfl⟩
abbrev main_call4_v13 : Ref sig .tc := ⟨.hbm, 163, rfl⟩
abbrev main_call4_cst : Ref sig .tc := ⟨.hbm, 164, rfl⟩
abbrev main_call4_v14 : Ref sig .tc := ⟨.hbm, 165, rfl⟩
abbrev main_v62 : Ref sig .tc := ⟨.hbm, 166, rfl⟩
abbrev main_v63 : Ref sig .tc := ⟨.hbm, 167, rfl⟩
abbrev main_c_11 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_c_12 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_call5_c : Ref sig .tc := ⟨.hbm, 177, rfl⟩
abbrev main_call5_v0 : Ref sig .tc := ⟨.hbm, 178, rfl⟩
abbrev main_call5_v1 : Ref sig .tc := ⟨.hbm, 179, rfl⟩
abbrev main_call5_c_0 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_call5_c_1 : Ref sig .tc := ⟨.hbm, 184, rfl⟩
abbrev main_call5_c_2 : Ref sig .tc := ⟨.hbm, 185, rfl⟩
abbrev main_call5_v5 : Ref sig .tc := ⟨.hbm, 186, rfl⟩
abbrev main_call5_v6 : Ref sig .tc := ⟨.hbm, 187, rfl⟩
abbrev main_call5_v7 : Ref sig .tc := ⟨.hbm, 188, rfl⟩
abbrev main_call5_v8 : Ref sig .tc := ⟨.hbm, 189, rfl⟩
abbrev main_call5_v9 : Ref sig .tc := ⟨.hbm, 190, rfl⟩
abbrev main_call5_v10 : Ref sig .tc := ⟨.hbm, 191, rfl⟩
abbrev main_call5_c_3 : Ref sig .tc := ⟨.hbm, 192, rfl⟩
abbrev main_call5_v11 : Ref sig .tc := ⟨.hbm, 193, rfl⟩
abbrev main_call5_v12 : Ref sig .tc := ⟨.hbm, 194, rfl⟩
abbrev main_call5_v13 : Ref sig .tc := ⟨.hbm, 195, rfl⟩
abbrev main_call5_cst : Ref sig .tc := ⟨.hbm, 196, rfl⟩
abbrev main_call5_v14 : Ref sig .tc := ⟨.hbm, 197, rfl⟩
abbrev main_v71 : Ref sig .tc := ⟨.hbm, 198, rfl⟩
abbrev main_v72 : Ref sig .tc := ⟨.hbm, 199, rfl⟩
abbrev main_c_13 : Ref sig .tc := ⟨.hbm, 200, rfl⟩
abbrev main_v73 : Ref sig .tc := ⟨.hbm, 201, rfl⟩
abbrev main_v74 : Ref sig .tc := ⟨.hbm, 202, rfl⟩
abbrev main_v75 : Ref sig .tc := ⟨.hbm, 203, rfl⟩
abbrev main_c_14 : Ref sig .tc := ⟨.hbm, 204, rfl⟩
abbrev main_v76 : Ref sig .tc := ⟨.hbm, 205, rfl⟩
abbrev main_v77 : Ref sig .tc := ⟨.hbm, 206, rfl⟩
abbrev main_v78 : Ref sig .tc := ⟨.hbm, 207, rfl⟩
abbrev main_v79 : Ref sig .tc := ⟨.hbm, 208, rfl⟩
abbrev main_call6_c : Ref sig .tc := ⟨.hbm, 209, rfl⟩
abbrev main_call6_v0 : Ref sig .tc := ⟨.hbm, 210, rfl⟩
abbrev main_call6_v1 : Ref sig .tc := ⟨.hbm, 211, rfl⟩
abbrev main_call6_c_0 : Ref sig .tc := ⟨.hbm, 212, rfl⟩
abbrev main_call6_v2 : Ref sig .tc := ⟨.hbm, 213, rfl⟩
abbrev main_call6_v3 : Ref sig .tc := ⟨.hbm, 214, rfl⟩
abbrev main_call6_v4 : Ref sig .tc := ⟨.hbm, 215, rfl⟩
abbrev main_call6_c_1 : Ref sig .tc := ⟨.hbm, 216, rfl⟩
abbrev main_call6_c_2 : Ref sig .tc := ⟨.hbm, 217, rfl⟩
abbrev main_call6_v5 : Ref sig .tc := ⟨.hbm, 218, rfl⟩
abbrev main_call6_v6 : Ref sig .tc := ⟨.hbm, 219, rfl⟩
abbrev main_call6_v7 : Ref sig .tc := ⟨.hbm, 220, rfl⟩
abbrev main_call6_v8 : Ref sig .tc := ⟨.hbm, 221, rfl⟩
abbrev main_call6_v9 : Ref sig .tc := ⟨.hbm, 222, rfl⟩
abbrev main_call6_v10 : Ref sig .tc := ⟨.hbm, 223, rfl⟩
abbrev main_call6_c_3 : Ref sig .tc := ⟨.hbm, 224, rfl⟩
abbrev main_call6_v11 : Ref sig .tc := ⟨.hbm, 225, rfl⟩
abbrev main_call6_v12 : Ref sig .tc := ⟨.hbm, 226, rfl⟩
abbrev main_call6_v13 : Ref sig .tc := ⟨.hbm, 227, rfl⟩
abbrev main_call6_cst : Ref sig .tc := ⟨.hbm, 228, rfl⟩
abbrev main_call6_v14 : Ref sig .tc := ⟨.hbm, 229, rfl⟩
abbrev main_v80 : Ref sig .tc := ⟨.hbm, 230, rfl⟩
abbrev main_v81 : Ref sig .tc := ⟨.hbm, 231, rfl⟩
abbrev main_c_15 : Ref sig .tc := ⟨.hbm, 232, rfl⟩
abbrev main_v82 : Ref sig .tc := ⟨.hbm, 233, rfl⟩
abbrev main_v83 : Ref sig .tc := ⟨.hbm, 234, rfl⟩
abbrev main_v84 : Ref sig .tc := ⟨.hbm, 235, rfl⟩
abbrev main_c_16 : Ref sig .tc := ⟨.hbm, 236, rfl⟩
abbrev main_v85 : Ref sig .tc := ⟨.hbm, 237, rfl⟩
abbrev main_v86 : Ref sig .tc := ⟨.hbm, 238, rfl⟩
abbrev main_v87 : Ref sig .tc := ⟨.hbm, 239, rfl⟩
abbrev main_v88 : Ref sig .tc := ⟨.hbm, 240, rfl⟩
abbrev main_call7_c : Ref sig .tc := ⟨.hbm, 241, rfl⟩
abbrev main_call7_v0 : Ref sig .tc := ⟨.hbm, 242, rfl⟩
abbrev main_call7_v1 : Ref sig .tc := ⟨.hbm, 243, rfl⟩
abbrev main_call7_c_0 : Ref sig .tc := ⟨.hbm, 244, rfl⟩
abbrev main_call7_v2 : Ref sig .tc := ⟨.hbm, 245, rfl⟩
abbrev main_call7_v3 : Ref sig .tc := ⟨.hbm, 246, rfl⟩
abbrev main_call7_v4 : Ref sig .tc := ⟨.hbm, 247, rfl⟩
abbrev main_call7_c_1 : Ref sig .tc := ⟨.hbm, 248, rfl⟩
abbrev main_call7_c_2 : Ref sig .tc := ⟨.hbm, 249, rfl⟩
abbrev main_call7_v5 : Ref sig .tc := ⟨.hbm, 250, rfl⟩
abbrev main_call7_v6 : Ref sig .tc := ⟨.hbm, 251, rfl⟩
abbrev main_call7_v7 : Ref sig .tc := ⟨.hbm, 252, rfl⟩
abbrev main_call7_v8 : Ref sig .tc := ⟨.hbm, 253, rfl⟩
abbrev main_call7_v9 : Ref sig .tc := ⟨.hbm, 254, rfl⟩
abbrev main_call7_v10 : Ref sig .tc := ⟨.hbm, 255, rfl⟩
abbrev main_call7_c_3 : Ref sig .tc := ⟨.hbm, 256, rfl⟩
abbrev main_call7_v11 : Ref sig .tc := ⟨.hbm, 257, rfl⟩
abbrev main_call7_v12 : Ref sig .tc := ⟨.hbm, 258, rfl⟩
abbrev main_call7_v13 : Ref sig .tc := ⟨.hbm, 259, rfl⟩
abbrev main_call7_cst : Ref sig .tc := ⟨.hbm, 260, rfl⟩
abbrev main_call7_v14 : Ref sig .tc := ⟨.hbm, 261, rfl⟩
abbrev main_v89 : Ref sig .tc := ⟨.hbm, 262, rfl⟩
abbrev main_v90 : Ref sig .tc := ⟨.hbm, 263, rfl⟩
abbrev main_c_17 : Ref sig .tc := ⟨.hbm, 264, rfl⟩
abbrev main_v91 : Ref sig .tc := ⟨.hbm, 265, rfl⟩
abbrev main_v92 : Ref sig .tc := ⟨.hbm, 266, rfl⟩
abbrev main_v93 : Ref sig .tc := ⟨.hbm, 267, rfl⟩
abbrev main_c_18 : Ref sig .tc := ⟨.hbm, 268, rfl⟩
abbrev main_v94 : Ref sig .tc := ⟨.hbm, 269, rfl⟩
abbrev main_v95 : Ref sig .tc := ⟨.hbm, 270, rfl⟩
abbrev main_v96 : Ref sig .tc := ⟨.hbm, 271, rfl⟩
abbrev main_v97 : Ref sig .tc := ⟨.hbm, 272, rfl⟩
abbrev main_call8_c : Ref sig .tc := ⟨.hbm, 273, rfl⟩
abbrev main_call8_v0 : Ref sig .tc := ⟨.hbm, 274, rfl⟩
abbrev main_call8_v1 : Ref sig .tc := ⟨.hbm, 275, rfl⟩
abbrev main_call8_c_0 : Ref sig .tc := ⟨.hbm, 276, rfl⟩
abbrev main_call8_v2 : Ref sig .tc := ⟨.hbm, 277, rfl⟩
abbrev main_call8_v3 : Ref sig .tc := ⟨.hbm, 278, rfl⟩
abbrev main_call8_v4 : Ref sig .tc := ⟨.hbm, 279, rfl⟩
abbrev main_call8_c_1 : Ref sig .tc := ⟨.hbm, 280, rfl⟩
abbrev main_call8_c_2 : Ref sig .tc := ⟨.hbm, 281, rfl⟩
abbrev main_call8_v5 : Ref sig .tc := ⟨.hbm, 282, rfl⟩
abbrev main_call8_v6 : Ref sig .tc := ⟨.hbm, 283, rfl⟩
abbrev main_call8_v7 : Ref sig .tc := ⟨.hbm, 284, rfl⟩
abbrev main_call8_v8 : Ref sig .tc := ⟨.hbm, 285, rfl⟩
abbrev main_call8_v9 : Ref sig .tc := ⟨.hbm, 286, rfl⟩
abbrev main_call8_v10 : Ref sig .tc := ⟨.hbm, 287, rfl⟩
abbrev main_call8_c_3 : Ref sig .tc := ⟨.hbm, 288, rfl⟩
abbrev main_call8_v11 : Ref sig .tc := ⟨.hbm, 289, rfl⟩
abbrev main_call8_v12 : Ref sig .tc := ⟨.hbm, 290, rfl⟩
abbrev main_call8_v13 : Ref sig .tc := ⟨.hbm, 291, rfl⟩
abbrev main_call8_cst : Ref sig .tc := ⟨.hbm, 292, rfl⟩
abbrev main_call8_v14 : Ref sig .tc := ⟨.hbm, 293, rfl⟩
abbrev main_v98 : Ref sig .tc := ⟨.hbm, 294, rfl⟩
abbrev main_v99 : Ref sig .tc := ⟨.hbm, 295, rfl⟩
abbrev main_cst_19 : Ref sig .tc := ⟨.hbm, 296, rfl⟩
abbrev main_v100 : Ref sig .tc := ⟨.hbm, 297, rfl⟩
abbrev main_v101 : Ref sig .tc := ⟨.hbm, 298, rfl⟩
abbrev main_v102 : Ref sig .tc := ⟨.hbm, 299, rfl⟩
abbrev main_v103 : Ref sig .tc := ⟨.hbm, 300, rfl⟩
abbrev main_v104 : Ref sig .tc := ⟨.hbm, 301, rfl⟩
abbrev main_v105 : Ref sig .tc := ⟨.hbm, 302, rfl⟩
abbrev main_v106 : Ref sig .tc := ⟨.hbm, 303, rfl⟩
abbrev main_cst_20 : Ref sig .tc := ⟨.hbm, 304, rfl⟩
abbrev main_v107 : Ref sig .tc := ⟨.hbm, 305, rfl⟩
abbrev main_v108 : Ref sig .tc := ⟨.hbm, 306, rfl⟩
abbrev main_v109 : Ref sig .tc := ⟨.hbm, 307, rfl⟩
abbrev main_v110 : Ref sig .tc := ⟨.hbm, 308, rfl⟩
abbrev main_v111 : Ref sig .tc := ⟨.hbm, 309, rfl⟩
abbrev main_v112 : Ref sig .tc := ⟨.hbm, 310, rfl⟩
abbrev main_v113 : Ref sig .tc := ⟨.hbm, 311, rfl⟩
abbrev main_cst_21 : Ref sig .tc := ⟨.hbm, 312, rfl⟩
abbrev main_v114 : Ref sig .tc := ⟨.hbm, 313, rfl⟩
abbrev main_v115 : Ref sig .tc := ⟨.hbm, 314, rfl⟩
abbrev main_v116 : Ref sig .tc := ⟨.hbm, 315, rfl⟩
abbrev main_v117 : Ref sig .tc := ⟨.hbm, 316, rfl⟩
abbrev main_v118 : Ref sig .tc := ⟨.hbm, 317, rfl⟩
abbrev main_v119 : Ref sig .tc := ⟨.hbm, 318, rfl⟩
abbrev main_v120 : Ref sig .tc := ⟨.hbm, 319, rfl⟩
abbrev main_cst_22 : Ref sig .tc := ⟨.hbm, 320, rfl⟩
abbrev main_v121 : Ref sig .tc := ⟨.hbm, 321, rfl⟩
abbrev main_v122 : Ref sig .tc := ⟨.hbm, 322, rfl⟩
abbrev main_v123 : Ref sig .tc := ⟨.hbm, 323, rfl⟩
abbrev main_v124 : Ref sig .tc := ⟨.hbm, 324, rfl⟩
abbrev main_v125 : Ref sig .tc := ⟨.hbm, 325, rfl⟩
abbrev main_v126 : Ref sig .tc := ⟨.hbm, 326, rfl⟩
abbrev main_v127 : Ref sig .tc := ⟨.hbm, 327, rfl⟩
abbrev main_cst_23 : Ref sig .tc := ⟨.hbm, 328, rfl⟩
abbrev main_v128 : Ref sig .tc := ⟨.hbm, 329, rfl⟩
abbrev main_v129 : Ref sig .tc := ⟨.hbm, 330, rfl⟩
abbrev main_v130 : Ref sig .tc := ⟨.hbm, 331, rfl⟩
abbrev main_v131 : Ref sig .tc := ⟨.hbm, 332, rfl⟩
abbrev main_v132 : Ref sig .tc := ⟨.hbm, 333, rfl⟩
abbrev main_v133 : Ref sig .tc := ⟨.hbm, 334, rfl⟩
abbrev main_v134 : Ref sig .tc := ⟨.hbm, 335, rfl⟩
abbrev main_cst_24 : Ref sig .tc := ⟨.hbm, 336, rfl⟩
abbrev main_v135 : Ref sig .tc := ⟨.hbm, 337, rfl⟩
abbrev main_v136 : Ref sig .tc := ⟨.hbm, 338, rfl⟩
abbrev main_v137 : Ref sig .tc := ⟨.hbm, 339, rfl⟩
abbrev main_v138 : Ref sig .tc := ⟨.hbm, 340, rfl⟩
abbrev main_v139 : Ref sig .tc := ⟨.hbm, 341, rfl⟩
abbrev main_v140 : Ref sig .tc := ⟨.hbm, 342, rfl⟩
abbrev main_v141 : Ref sig .tc := ⟨.hbm, 343, rfl⟩
abbrev main_cst_25 : Ref sig .tc := ⟨.hbm, 344, rfl⟩
abbrev main_v142 : Ref sig .tc := ⟨.hbm, 345, rfl⟩
abbrev main_v143 : Ref sig .tc := ⟨.hbm, 346, rfl⟩
abbrev main_v144 : Ref sig .tc := ⟨.hbm, 347, rfl⟩
abbrev main_v145 : Ref sig .tc := ⟨.hbm, 348, rfl⟩
abbrev main_v146 : Ref sig .tc := ⟨.hbm, 349, rfl⟩
abbrev main_v147 : Ref sig .tc := ⟨.hbm, 350, rfl⟩
abbrev main_v148 : Ref sig .tc := ⟨.hbm, 351, rfl⟩
abbrev main_v149 : Ref sig .tc := ⟨.hbm, 352, rfl⟩

abbrev nD : Nat := 1
abbrev τ : Topo := Topo.v7x

variable {F : FTy → Type} [FloatOps F]

class Facts₀ : Prop where
  transposes_S8x3x1024x1024_S8x1024x1024x3_0_2_3_1 : S8x3x1024x1024.Transposes [0, 2, 3, 1] S8x1024x1024x3
  bcast_S_S8x1024x1024x3 : S_.BroadcastsInDim S8x1024x1024x3 (![] : Fin 0 → Fin S8x1024x1024x3.rank)
  slices_S8x1024x1024x3_S8x1024x1024x1_0_0_0_0 : S8x1024x1024x3.Slices ![0, 0, 0, 0] S8x1024x1024x1
  slices_S8x1024x1024x3_S8x1024x1024x1_0_0_0_1 : S8x1024x1024x3.Slices ![0, 0, 0, 1] S8x1024x1024x1
  slices_S8x1024x1024x3_S8x1024x1024x1_0_0_0_2 : S8x1024x1024x3.Slices ![0, 0, 0, 2] S8x1024x1024x1
  shapeCasts_S8x33x33x33x3_S8x35937x3 : S8x33x33x33x3.ShapeCasts S8x35937x3
  shapeCasts_S8x1024x1024x1_S8x1024x1024 : S8x1024x1024x1.ShapeCasts S8x1024x1024
  bcast_S_S8x1024x1024 : S_.BroadcastsInDim S8x1024x1024 (![] : Fin 0 → Fin S8x1024x1024.rank)
  shapeCasts_S8x1024x1024_S8x1048576x1 : S8x1024x1024.ShapeCasts S8x1048576x1
  bcast_S_S8x1048576x1 : S_.BroadcastsInDim S8x1048576x1 (![] : Fin 0 → Fin S8x1048576x1.rank)
  bcast_S1_S1x1x1_2 : S1.BroadcastsInDim S1x1x1 (![2] : Fin 1 → Fin S1x1x1.rank)
  bcast_S1x1x1_S8x1048576x1_0_1_2 : S1x1x1.BroadcastsInDim S8x1048576x1 (![0, 1, 2] : Fin 3 → Fin S8x1048576x1.rank)
  reducesTo_S8x1048576x1_S8x1048576_d2 : S8x1048576x1.ReducesTo [2] S8x1048576
  h_S_ : 0 < S_.numel
  bcast_S8x1048576_S8x1048576x3_0_1 : S8x1048576.BroadcastsInDim S8x1048576x3 (![0, 1] : Fin 2 → Fin S8x1048576x3.rank)
  bcast_S_S8x1048576x3 : S_.BroadcastsInDim S8x1048576x3 (![] : Fin 0 → Fin S8x1048576x3.rank)
  shapeCasts_S8x1048576x3_S8x1024x1024x3 : S8x1048576x3.ShapeCasts S8x1024x1024x3
  bcast_S_S8x1024x1024x1 : S_.BroadcastsInDim S8x1024x1024x1 (![] : Fin 0 → Fin S8x1024x1024x1.rank)
  bcast_S8x1024x1024x1_S8x1024x1024x3_0_1_2_3 : S8x1024x1024x1.BroadcastsInDim S8x1024x1024x3 (![0, 1, 2, 3] : Fin 4 → Fin S8x1024x1024x3.rank)
  transposes_S8x1024x1024x3_S8x3x1024x1024_0_3_1_2 : S8x1024x1024x3.Transposes [0, 3, 1, 2] S8x3x1024x1024
  gather_S8x35937x3_S8x1048576x1_S8x1048576x3_2_1_0_0_1_2_113_wf : GatherDims.WF S8x35937x3 S8x1048576x1 S8x1048576x3 [2] [1] [0] [1] [0] 2 ![1, 1, 3]

variable [Facts₀]

def gather_S8x35937x3_S8x1048576x1_S8x1048576x3_2_1_0_0_1_2_113 : GatherDims S8x35937x3 S8x1048576x1 S8x1048576x3 where
  offsetDims := [2]
  collapsedSliceDims := [1]
  operandBatchingDims := [0]
  startIndicesBatchingDims := [0]
  startIndexMap := [1]
  indexVectorDim := 2
  sliceSizes := ![1, 1, 3]
  wf := gather_S8x35937x3_S8x1048576x1_S8x1048576x3_2_1_0_0_1_2_113_wf

class Facts : Prop extends Facts₀ where

variable [Facts]
-- ==== Proof.RefBridge.lean ====
/-
  The reference's run, read. Its 351 host operations are cut into ten consecutive windows: the coordinates (the cells, upper
  cells and fractional parts of the three colour values, and the table flattened), the eight corner look-ups (a flat index, the
  bounds-checked gather, a reshape), and the seven interpolations with the final transpose. After each window, every buffer that a
  later window still reads holds the stage the read-at-an-index module names for it (val_<buffer> of the two arguments): a buffer the
  window writes by evaluating the window's operations on the stages it reads, a buffer it does not write because it keeps its contents.
  The last window leaves the result at its stage; the arguments are written by no window. -/
import proofs.«156492_j2448131359063_2_alg».proof.Proof.RefRun
import proofs.«156492_j2448131359063_2_alg».proof.Proof.RefRead

noncomputable section

namespace Cert.ReferenceIdeal.Bridge

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- The contents after two lists of operations in a row. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The windows: wK the K-th, rK what follows it -/

abbrev w1 : List (HloOp τ sig (Elt F)) := (ops (F := F)).take 38
abbrev r1 : List (HloOp τ sig (Elt F)) := (ops (F := F)).drop 38
abbrev w2 : List (HloOp τ sig (Elt F)) := (r1 (F := F)).take 32
abbrev r2 : List (HloOp τ sig (Elt F)) := (r1 (F := F)).drop 32
abbrev w3 : List (HloOp τ sig (Elt F)) := (r2 (F := F)).take 32
abbrev r3 : List (HloOp τ sig (Elt F)) := (r2 (F := F)).drop 32
abbrev w4 : List (HloOp τ sig (Elt F)) := (r3 (F := F)).take 32
abbrev r4 : List (HloOp τ sig (Elt F)) := (r3 (F := F)).drop 32
abbrev w5 : List (HloOp τ sig (Elt F)) := (r4 (F := F)).take 32
abbrev r5 : List (HloOp τ sig (Elt F)) := (r4 (F := F)).drop 32
abbrev w6 : List (HloOp τ sig (Elt F)) := (r5 (F := F)).take 32
abbrev r6 : List (HloOp τ sig (Elt F)) := (r5 (F := F)).drop 32
abbrev w7 : List (HloOp τ sig (Elt F)) := (r6 (F := F)).take 32
abbrev r7 : List (HloOp τ sig (Elt F)) := (r6 (F := F)).drop 32
abbrev w8 : List (HloOp τ sig (Elt F)) := (r7 (F := F)).take 32
abbrev r8 : List (HloOp τ sig (Elt F)) := (r7 (F := F)).drop 32
abbrev w9 : List (HloOp τ sig (Elt F)) := (r8 (F := F)).take 32
abbrev r9 : List (HloOp τ sig (Elt F)) := (r8 (F := F)).drop 32
abbrev w10 : List (HloOp τ sig (Elt F)) := r9 (F := F)

/-- The contents after the first K windows. -/
def val1 (V0 : Valuation τ sig (Elt F)) : Valuation τ sig (Elt F) := after w1 V0
def val2 (V0 : Valuation τ sig (Elt F)) : Valuation τ sig (Elt F) := after w2 (val1 V0)
def val3 (V0 : Valuation τ sig (Elt F)) : Valuation τ sig (Elt F) := after w3 (val2 V0)
def val4 (V0 : Valuation τ sig (Elt F)) : Valuation τ sig (Elt F) := after w4 (val3 V0)
def val5 (V0 : Valuation τ sig (Elt F)) : Valuation τ sig (Elt F) := after w5 (val4 V0)
def val6 (V0 : Valuation τ sig (Elt F)) : Valuation τ sig (Elt F) := after w6 (val5 V0)
def val7 (V0 : Valuation τ sig (Elt F)) : Valuation τ sig (Elt F) := after w7 (val6 V0)
def val8 (V0 : Valuation τ sig (Elt F)) : Valuation τ sig (Elt F) := after w8 (val7 V0)
def val9 (V0 : Valuation τ sig (Elt F)) : Valuation τ sig (Elt F) := after w9 (val8 V0)
def val10 (V0 : Valuation τ sig (Elt F)) : Valuation τ sig (Elt F) := after w10 (val9 V0)

/-- The whole list is the windows in a row. -/
theorem ops_chain (V0 : Valuation τ sig (Elt F)) : after (ops (F := F)) V0 = val10 V0 := by
  have e1 : (ops (F := F)) = w1 ++ r1 := (List.take_append_drop 38 _).symm
  have e2 : (r1 (F := F)) = w2 ++ r2 := (List.take_append_drop 32 _).symm
  have e3 : (r2 (F := F)) = w3 ++ r3 := (List.take_append_drop 32 _).symm
  have e4 : (r3 (F := F)) = w4 ++ r4 := (List.take_append_drop 32 _).symm
  have e5 : (r4 (F := F)) = w5 ++ r5 := (List.take_append_drop 32 _).symm
  have e6 : (r5 (F := F)) = w6 ++ r6 := (List.take_append_drop 32 _).symm
  have e7 : (r6 (F := F)) = w7 ++ r7 := (List.take_append_drop 32 _).symm
  have e8 : (r7 (F := F)) = w8 ++ r8 := (List.take_append_drop 32 _).symm
  have e9 : (r8 (F := F)) = w9 ++ r9 := (List.take_append_drop 32 _).symm
  show after (ops (F := F)) V0 = after r9 (after w9 (after w8 (after w7 (after w6 (after w5 (after w4 (after w3 (after w2 (after w1 (V0))))))))))
  rw [e1, after_append, e2, after_append, e3, after_append, e4, after_append, e5, after_append, e6, after_append, e7, after_append, e8, after_append, e9, after_append]

/-! ## Window 1: operations 1 … 38 -/

/-- The buffers window 1 writes. -/
abbrev w1_W : List (Ref sig .tc) := [main_v0, main_cst, main_v1, main_v2, main_cst_0, main_cst_1, main_call0_v0, main_call0_v1, main_call0_v2, main_call0_v3, main_call0_v4, main_v3, main_v4, main_v5, main_c, main_v6, main_v7, main_c_2, main_v8, main_v9, main_v10, main_v11, main_v12, main_v13, main_v14, main_v15, main_v16, main_v17, main_v18, main_v19, main_v20, main_v21, main_v22, main_v23, main_v24, main_v25, main_v26, main_v27]
set_option maxHeartbeats 4000000 in
theorem w1_writes : (w1 : List (HloOp τ sig (Elt F))).Forall fun op => op.writes ⊆ (w1_W.map (Proc.devRef (τ := τ) .tc)).toFinset := by
  simp only [w1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 1 does not write keeps its contents through it. -/
theorem val1_keep (V0 : Valuation τ sig (Elt F)) (r : Ref sig .tc) (h : r ∉ w1_W) :
    val1 V0 (Proc.devRef .tc r) = V0 (Proc.devRef .tc r) :=
  after_of_writes_sub w1 _ w1_writes h

set_option maxHeartbeats 4000000 in
theorem val1_main_v12 (V0 : Valuation τ sig (Elt F)) : val1 V0 (no_index (Proc.devRef .tc main_v12)) = val_main_v12 (F := F) (V0 (Proc.devRef .tc main_arg0)) := by
  unfold val1
  simp only [w1, ops, List.drop_succ_cons, List.drop_zero, List.take_succ_cons, List.take_zero]
  after_results_simp
  try simp only [TRef.ofBuf, TRef.toBuf, cast_cast, cast_eq]
  try rfl
set_option maxHeartbeats 4000000 in
theorem val1_main_v13 (V0 : Valuation τ sig (Elt F)) : val1 V0 (no_index (Proc.devRef .tc main_v13)) = val_main_v13 (F := F) (V0 (Proc.devRef .tc main_arg0)) := by
  unfold val1
  simp only [w1, ops, List.drop_succ_cons, List.drop_zero, List.take_succ_cons, List.take_zero]
  after_results_simp
  try simp only [TRef.ofBuf, TRef.toBuf, cast_cast, cast_eq]
  try rfl
set_option maxHeartbeats 4000000 in
theorem val1_main_v14 (V0 : Valuation τ sig (Elt F)) : val1 V0 (no_index (Proc.devRef .tc main_v14)) = val_main_v14 (F := F) (V0 (Proc.devRef .tc main_arg0)) := by
  unfold val1
  simp only [w1, ops, List.drop_succ_cons, List.drop_zero, List.take_succ_cons, List.take_zero]
  after_results_simp
  try simp only [TRef.ofBuf, TRef.toBuf, cast_cast, cast_eq]
  try rfl
set_option maxHeartbeats 4000000 in
theorem val1_main_v15 (V0 : Valuation τ sig (Elt F)) : val1 V0 (no_index (Proc.devRef .tc main_v15)) = val_main_v15 (F := F) (V0 (Proc.devRef .tc main_arg1)) := by
  unfold val1
  simp only [w1, ops, List.drop_succ_cons, List.drop_zero, List.take_succ_cons, List.take_zero]
  after_results_simp
  try simp only [TRef.ofBuf, TRef.toBuf, cast_cast, cast_eq]
  try rfl
set_option maxHeartbeats 4000000 in
theorem val1_main_v17 (V0 : Valuation τ sig (Elt F)) : val1 V0 (no_index (Proc.devRef .tc main_v17)) = val_main_v17 (F := F) (V0 (Proc.devRef .tc main_arg0)) := by
  unfold val1
  simp only [w1, ops, List.drop_succ_cons, List.drop_zero, List.take_succ_cons, List.take_zero]
  after_results_simp
  try simp only [TRef.ofBuf, TRef.toBuf, cast_cast, cast_eq]
  try rfl
set_option maxHeartbeats 4000000 in
theorem val1_main_v19 (V0 : Valuation τ sig (Elt F)) : val1 V0 (no_index (Proc.devRef .tc main_v19)) = val_main_v19 (F := F) (V0 (Proc.devRef .tc main_arg0)) := by
  unfold val1
  simp only [w1, ops, List.drop_succ_cons, List.drop_zero, List.take_succ_cons, List.take_zero]
  after_results_simp
  try simp only [TRef.ofBuf, TRef.toBuf, cast_cast, cast_eq]
  try rfl
set_option maxHeartbeats 4000000 in
theorem val1_main_v21 (V0 : Valuation τ sig (Elt F)) : val1 V0 (no_index (Proc.devRef .tc main_v21)) = val_main_v21 (F := F) (V0 (Proc.devRef .tc main_arg0)) := by
  unfold val1
  simp only [w1, ops, List.drop_succ_cons, List.drop_zero, List.take_succ_cons, List.take_zero]
  after_results_simp
  try simp only [TRef.ofBuf, TRef.toBuf, cast_cast, cast_eq]
  try rfl
set_option maxHeartbeats 4000000 in
theorem val1_main_v23 (V0 : Valuation τ sig (Elt F)) : val1 V0 (no_index (Proc.devRef .tc main_v23)) = val_main_v23 (F := F) (V0 (Proc.devRef .tc main_arg0)) := by
  unfold val1
  simp only [w1, ops, List.drop_succ_cons, List.drop_zero, List.take_succ_cons, List.take_zero]
  after_results_simp
  try simp only [TRef.ofBuf, TRef.toBuf, cast_cast, cast_eq]
  try rfl
set_option maxHeartbeats 4000000 in
theorem val1_main_v25 (V0 : Valuation τ sig (Elt F)) : val1 V0 (no_index (Proc.devRef .tc main_v25)) = val_main_v25 (F := F) (V0 (Proc.devRef .tc main_arg0)) := by
  unfold val1
  simp only [w1, ops, List.drop_succ_cons, List.drop_zero, List.take_succ_cons, List.take_zero]
  after_results_simp
  try simp only [TRef.ofBuf, TRef.toBuf, cast_cast, cast_eq]
  try rfl
set_option maxHeartbeats 4000000 in
theorem val1_main_v27 (V0 : Valuation τ sig (Elt F)) : val1 V0 (no_index (Proc.devRef .tc main_v27)) = val_main_v27 (F := F) (V0 (Proc.devRef .tc main_arg0)) := by
  unfold val1
  simp only [w1, ops, List.drop_succ_cons, List.drop_zero, List.take_succ_cons, List.take_zero]
  after_results_simp
  try simp only [TRef.ofBuf, TRef.toBuf, cast_cast, cast_eq]
  try rfl

/-! ## Window 2: operations 39 … 70 -/

/-- The buffers window 2 writes. -/
abbrev w2_W : List (Ref sig .tc) := [main_c_3, main_v28, main_v29, main_v30, main_c_4, main_v31, main_v32, main_v33, main_v34, main_call1_c, main_call1_v0, main_call1_v1, main_call1_c_0, main_call1_v2, main_call1_v3, main_call1_v4, main_call1_c_1, main_call1_c_2, main_call1_v5, main_call1_v6, main_call1_v7, main_call1_v8, main_call1_v9, main_call1_v10, main_call1_c_3, main_call1_v11, main_call1_v12, main_call1_v13, main_call1_cst, main_call1_v14, main_v35, main_v36]
set_option maxHeartbeats 4000000 in
theorem w2_writes : (w2 : List (HloOp τ sig (Elt F))).Forall fun op => op.writes ⊆ (w2_W.map (Proc.devRef (τ := τ) .tc)).toFinset := by
  simp only [w2, r1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 2 does not write keeps its contents through it. -/
theorem val2_keep (V0 : Valuation τ sig (Elt F)) (r : Ref sig .tc) (h : r ∉ w2_W) :
    val2 V0 (Proc.devRef .tc r) = val1 V0 (Proc.devRef .tc r) :=
  after_of_writes_sub w2 _ w2_writes h

theorem val2_main_v12 (V0 : Valuation τ sig (Elt F)) : val2 V0 (no_index (Proc.devRef .tc main_v12)) = val_main_v12 (F := F) (V0 (Proc.devRef .tc main_arg0)) :=
  (val2_keep V0 main_v12 (by decide)).trans (val1_main_v12 V0)
theorem val2_main_v13 (V0 : Valuation τ sig (Elt F)) : val2 V0 (no_index (Proc.devRef .tc main_v13)) = val_main_v13 (F := F) (V0 (Proc.devRef .tc main_arg0)) :=
  (val2_keep V0 main_v13 (by decide)).trans (val1_main_v13 V0)
theorem val2_main_v14 (V0 : Valuation τ sig (Elt F)) : val2 V0 (no_index (Proc.devRef .tc main_v14)) = val_main_v14 (F := F) (V0 (Proc.devRef .tc main_arg0)) :=
  (val2_keep V0 main_v14 (by decide)).trans (val1_main_v14 V0)
theorem val2_main_v15 (V0 : Valuation τ sig (Elt F)) : val2 V0 (no_index (Proc.devRef .tc main_v15)) = val_main_v15 (F := F) (V0 (Proc.devRef .tc main_arg1)) :=
  (val2_keep V0 main_v15 (by decide)).trans (val1_main_v15 V0)
theorem val2_main_v17 (V0 : Valuation τ sig (Elt F)) : val2 V0 (no_index (Proc.devRef .tc main_v17)) = val_main_v17 (F := F) (V0 (Proc.devRef .tc main_arg0)) :=
  (val2_keep V0 main_v17 (by decide)).trans (val1_main_v17 V0)
theorem val2_main_v19 (V0 : Valuation τ sig (Elt F)) : val2 V0 (no_index (Proc.devRef .tc main_v19)) = val_main_v19 (F := F) (V0 (Proc.devRef .tc main_arg0)) :=
  (val2_keep V0 main_v19 (by decide)).trans (val1_main_v19 V0)
theorem val2_main_v21 (V0 : Valuation τ sig (Elt F)) : val2 V0 (no_index (Proc.devRef .tc main_v21)) = val_main_v21 (F := F) (V0 (Proc.devRef .tc main_arg0)) :=
  (val2_keep V0 main_v21 (by decide)).trans (val1_main_v21 V0)
theorem val2_main_v23 (V0 : Valuation τ sig (Elt F)) : val2 V0 (no_index (Proc.devRef .tc main_v23)) = val_main_v23 (F := F) (V0 (Proc.devRef .tc main_arg0)) :=
  (val2_keep V0 main_v23 (by decide)).trans (val1_main_v23 V0)
theorem val2_main_v25 (V0 : Valuation τ sig (Elt F)) : val2 V0 (no_index (Proc.devRef .tc main_v25)) = val_main_v25 (F := F) (V0 (Proc.devRef .tc main_arg0)) :=
  (val2_keep V0 main_v25 (by decide)).trans (val1_main_v25 V0)
theorem val2_main_v27 (V0 : Valuation τ sig (Elt F)) : val2 V0 (no_index (Proc.devRef .tc main_v27)) = val_main_v27 (F := F) (V0 (Proc.devRef .tc main_arg0)) :=
  (val2_keep V0 main_v27 (by decide)).trans (val1_main_v27 V0)
set_option maxHeartbeats 4000000 in
theorem val2_main_v36 (V0 : Valuation τ sig (Elt F)) : val2 V0 (no_index (Proc.devRef .tc main_v36)) = val_main_v36 (F := F) (V0 (Proc.devRef .tc main_arg0)) (V0 (Proc.devRef .tc main_arg1)) := by
  unfold val2
  simp only [w2, r1, ops, List.drop_succ_cons, List.drop_zero, List.take_succ_cons, List.take_zero]
  after_results_simp
  try simp only [val1_main_v12, val1_main_v13, val1_main_v14, val1_main_v15, val1_main_v17, val1_main_v19, val1_main_v21, val1_main_v23, val1_main_v25, val1_main_v27, TRef.ofBuf, TRef.toBuf, cast_cast, cast_eq]
  try rfl

/-! ## Window 3: operations 71 … 102 -/

/-- The buffers window 3 writes. -/
abbrev w3_W : List (Ref sig .tc) := [main_c_5, main_v37, main_v38, main_v39, main_c_6, main_v40, main_v41, main_v42, main_v43, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v44, main_v45]
set_option maxHeartbeats 4000000 in
theorem w3_writes : (w3 : List (HloOp τ sig (Elt F))).Forall fun op => op.writes ⊆ (w3_W.map (Proc.devRef (τ := τ) .tc)).toFinset := by
  simp only [w3, r2, r1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 3 does not write keeps its contents through it. -/
theorem val3_keep (V0 : Valuation τ sig (Elt F)) (r : Ref sig .tc) (h : r ∉ w3_W) :
    val3 V0 (Proc.devRef .tc r) = val2 V0 (Proc.devRef .tc r) :=
  after_of_writes_sub w3 _ w3_writes h

theorem val3_main_v12 (V0 : Valuation τ sig (Elt F)) : val3 V0 (no_index (Proc.devRef .tc main_v12)) = val_main_v12 (F := F) (V0 (Proc.devRef .tc main_arg0)) :=
  (val3_keep V0 main_v12 (by decide)).trans (val2_main_v12 V0)
theorem val3_main_v13 (V0 : Valuation τ sig (Elt F)) : val3 V0 (no_index (Proc.devRef .tc main_v13)) = val_main_v13 (F := F) (V0 (Proc.devRef .tc main_arg0)) :=
  (val3_keep V0 main_v13 (by decide)).trans (val2_main_v13 V0)
theorem val3_main_v14 (V0 : Valuation τ sig (Elt F)) : val3 V0 (no_index (Proc.devRef .tc main_v14)) = val_main_v14 (F := F) (V0 (Proc.devRef .tc main_arg0)) :=
  (val3_keep V0 main_v14 (by decide)).trans (val2_main_v14 V0)
theorem val3_main_v15 (V0 : Valuation τ sig (Elt F)) : val3 V0 (no_index (Proc.devRef .tc main_v15)) = val_main_v15 (F := F) (V0 (Proc.devRef .tc main_arg1)) :=
  (val3_keep V0 main_v15 (by decide)).trans (val2_main_v15 V0)
theorem val3_main_v17 (V0 : Valuation τ sig (Elt F)) : val3 V0 (no_index (Proc.devRef .tc main_v17)) = val_main_v17 (F := F) (V0 (Proc.devRef .tc main_arg0)) :=
  (val3_keep V0 main_v17 (by decide)).trans (val2_main_v17 V0)
theorem val3_main_v19 (V0 : Valuation τ sig (Elt F)) : val3 V0 (no_index (Proc.devRef .tc main_v19)) = val_main_v19 (F := F) (V0 (Proc.devRef .tc main_arg0)) :=
  (val3_keep V0 main_v19 (by decide)).trans (val2_main_v19 V0)
theorem val3_main_v21 (V0 : Valuation τ sig (Elt F)) : val3 V0 (no_index (Proc.devRef .tc main_v21)) = val_main_v21 (F := F) (V0 (Proc.devRef .tc main_arg0)) :=
  (val3_keep V0 main_v21 (by decide)).trans (val2_main_v21 V0)
theorem val3_main_v23 (V0 : Valuation τ sig (Elt F)) : val3 V0 (no_index (Proc.devRef .tc main_v23)) = val_main_v23 (F := F) (V0 (Proc.devRef .tc main_arg0)) :=
  (val3_keep V0 main_v23 (by decide)).trans (val2_main_v23 V0)
theorem val3_main_v25 (V0 : Valuation τ sig (Elt F)) : val3 V0 (no_index (Proc.devRef .tc main_v25)) = val_main_v25 (F := F) (V0 (Proc.devRef .tc main_arg0)) :=
  (val3_keep V0 main_v25 (by decide)).trans (val2_main_v25 V0)
theorem val3_main_v27 (V0 : Valuation τ sig (Elt F)) : val3 V0 (no_index (Proc.devRef .tc main_v27)) = val_main_v27 (F := F) (V0 (Proc.devRef .tc main_arg0)) :=
  (val3_keep V0 main_v27 (by decide)).trans (val2_main_v27 V0)
theorem val3_main_v36 (V0 : Valuation τ sig (Elt F)) : val3 V0 (no_index (Proc.devRef .tc main_v36)) = val_main_v36 (F := F) (V0 (Proc.devRef .tc main_arg0)) (V0 (Proc.devRef .tc main_arg1)) :=
  (val3_keep V0 main_v36 (by decide)).trans (val2_main_v36 V0)
set_option maxHeartbeats 4000000 in
theorem val3_main_v45 (V0 : Valuation τ sig (Elt F)) : val3 V0 (no_index (Proc.devRef .tc main_v45)) = val_main_v45 (F := F) (V0 (Proc.devRef .tc main_arg0)) (V0 (Proc.devRef .tc main_arg1)) := by
  unfold val3
  simp only [w3, r2, r1, ops, List.drop_succ_cons, List.drop_zero, List.take_succ_cons, List.take_zero]
  after_results_simp
  try simp only [val2_main_v12, val2_main_v13, val2_main_v14, val2_main_v15, val2_main_v17, val2_main_v19, val2_main_v21, val2_main_v23, val2_main_v25, val2_main_v27, val2_main_v36, TRef.ofBuf, TRef.toBuf, cast_cast, cast_eq]
  try rfl

/-! ## Window 4: operations 103 … 134 -/

/-- The buffers window 4 writes. -/
abbrev w4_W : List (Ref sig .tc) := [main_c_7, main_v46, main_v47, main_v48, main_c_8, main_v49, main_v50, main_v51, main_v52, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v53, main_v54]
set_option maxHeartbeats 4000000 in
theorem w4_writes : (w4 : List (HloOp τ sig (Elt F))).Forall fun op => op.writes ⊆ (w4_W.map (Proc.devRef (τ := τ) .tc)).toFinset := by
  simp only [w4, r3, r2, r1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 4 does not write keeps its contents through it. -/
theorem val4_keep (V0 : Valuation τ sig (Elt F)) (r : Ref sig .tc) (h : r ∉ w4_W) :
    val4 V0 (Proc.devRef .tc r) = val3 V0 (Proc.devRef .tc r) :=
  after_of_writes_sub w4 _ w4_writes h

theorem val4_main_v12 (V0 : Valuation τ sig (Elt F)) : val4 V0 (no_index (Proc.devRef .tc main_v12)) = val_main_v12 (F := F) (V0 (Proc.devRef .tc main_arg0)) :=
  (val4_keep V0 main_v12 (by decide)).trans (val3_main_v12 V0)
theorem val4_main_v13 (V0 : Valuation τ sig (Elt F)) : val4 V0 (no_index (Proc.devRef .tc main_v13)) = val_main_v13 (F := F) (V0 (Proc.devRef .tc main_arg0)) :=
  (val4_keep V0 main_v13 (by decide)).trans (val3_main_v13 V0)
theorem val4_main_v14 (V0 : Valuation τ sig (Elt F)) : val4 V0 (no_index (Proc.devRef .tc main_v14)) = val_main_v14 (F := F) (V0 (Proc.devRef .tc main_arg0)) :=
  (val4_keep V0 main_v14 (by decide)).trans (val3_main_v14 V0)
theorem val4_main_v15 (V0 : Valuation τ sig (Elt F)) : val4 V0 (no_index (Proc.devRef .tc main_v15)) = val_main_v15 (F := F) (V0 (Proc.devRef .tc main_arg1)) :=
  (val4_keep V0 main_v15 (by decide)).trans (val3_main_v15 V0)
theorem val4_main_v17 (V0 : Valuation τ sig (Elt F)) : val4 V0 (no_index (Proc.devRef .tc main_v17)) = val_main_v17 (F := F) (V0 (Proc.devRef .tc main_arg0)) :=
  (val4_keep V0 main_v17 (by decide)).trans (val3_main_v17 V0)
theorem val4_main_v19 (V0 : Valuation τ sig (Elt F)) : val4 V0 (no_index (Proc.devRef .tc main_v19)) = val_main_v19 (F := F) (V0 (Proc.devRef .tc main_arg0)) :=
  (val4_keep V0 main_v19 (by decide)).trans (val3_main_v19 V0)
theorem val4_main_v21 (V0 : Valuation τ sig (Elt F)) : val4 V0 (no_index (Proc.devRef .tc main_v21)) = val_main_v21 (F := F) (V0 (Proc.devRef .tc main_arg0)) :=
  (val4_keep V0 main_v21 (by decide)).trans (val3_main_v21 V0)
theorem val4_main_v23 (V0 : Valuation τ sig (Elt F)) : val4 V0 (no_index (Proc.devRef .tc main_v23)) = val_main_v23 (F := F) (V0 (Proc.devRef .tc main_arg0)) :=
  (val4_keep V0 main_v23 (by decide)).trans (val3_main_v23 V0)
theorem val4_main_v25 (V0 : Valuation τ sig (Elt F)) : val4 V0 (no_index (Proc.devRef .tc main_v25)) = val_main_v25 (F := F) (V0 (Proc.devRef .tc main_arg0)) :=
  (val4_keep V0 main_v25 (by decide)).trans (val3_main_v25 V0)
theorem val4_main_v27 (V0 : Valuation τ sig (Elt F)) : val4 V0 (no_index (Proc.devRef .tc main_v27)) = val_main_v27 (F := F) (V0 (Proc.devRef .tc main_arg0)) :=
  (val4_keep V0 main_v27 (by decide)).trans (val3_main_v27 V0)
theorem val4_main_v36 (V0 : Valuation τ sig (Elt F)) : val4 V0 (no_index (Proc.devRef .tc main_v36)) = val_main_v36 (F := F) (V0 (Proc.devRef .tc main_arg0)) (V0 (Proc.devRef .tc main_arg1)) :=
  (val4_keep V0 main_v36 (by decide)).trans (val3_main_v36 V0)
theorem val4_main_v45 (V0 : Valuation τ sig (Elt F)) : val4 V0 (no_index (Proc.devRef .tc main_v45)) = val_main_v45 (F := F) (V0 (Proc.devRef .tc main_arg0)) (V0 (Proc.devRef .tc main_arg1)) :=
  (val4_keep V0 main_v45 (by decide)).trans (val3_main_v45 V0)
set_option maxHeartbeats 4000000 in
theorem val4_main_v54 (V0 : Valuation τ sig (Elt F)) : val4 V0 (no_index (Proc.devRef .tc main_v54)) = val_main_v54 (F := F) (V0 (Proc.devRef .tc main_arg0)) (V0 (Proc.devRef .tc main_arg1)) := by
  unfold val4
  simp only [w4, r3, r2, r1, ops, List.drop_succ_cons, List.drop_zero, List.take_succ_cons, List.take_zero]
  after_results_simp
  try simp only [val3_main_v12, val3_main_v13, val3_main_v14, val3_main_v15, val3_main_v17, val3_main_v19, val3_main_v21, val3_main_v23, val3_main_v25, val3_main_v27, val3_main_v36, val3_main_v45, TRef.ofBuf, TRef.toBuf, cast_cast, cast_eq]
  try rfl

/-! ## Window 5: operations 135 … 166 -/

/-- The buffers window 5 writes. -/
abbrev w5_W : List (Ref sig .tc) := [main_c_9, main_v55, main_v56, main_v57, main_c_10, main_v58, main_v59, main_v60, main_v61, main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_cst, main_call4_v14, main_v62, main_v63]
set_option maxHeartbeats 4000000 in
theorem w5_writes : (w5 : List (HloOp τ sig (Elt F))).Forall fun op => op.writes ⊆ (w5_W.map (Proc.devRef (τ := τ) .tc)).toFinset := by
  simp only [w5, r4, r3, r2, r1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 5 does not write keeps its contents through it. -/
theorem val5_keep (V0 : Valuation τ sig (Elt F)) (r : Ref sig .tc) (h : r ∉ w5_W) :
    val5 V0 (Proc.devRef .tc r) = val4 V0 (Proc.devRef .tc r) :=
  after_of_writes_sub w5 _ w5_writes h

theorem val5_main_v12 (V0 : Valuation τ sig (Elt F)) : val5 V0 (no_index (Proc.devRef .tc main_v12)) = val_main_v12 (F := F) (V0 (Proc.devRef .tc main_arg0)) :=
  (val5_keep V0 main_v12 (by decide)).trans (val4_main_v12 V0)
theorem val5_main_v13 (V0 : Valuation τ sig (Elt F)) : val5 V0 (no_index (Proc.devRef .tc main_v13)) = val_main_v13 (F := F) (V0 (Proc.devRef .tc main_arg0)) :=
  (val5_keep V0 main_v13 (by decide)).trans (val4_main_v13 V0)
theorem val5_main_v14 (V0 : Valuation τ sig (Elt F)) : val5 V0 (no_index (Proc.devRef .tc main_v14)) = val_main_v14 (F := F) (V0 (Proc.devRef .tc main_arg0)) :=
  (val5_keep V0 main_v14 (by decide)).trans (val4_main_v14 V0)
theorem val5_main_v15 (V0 : Valuation τ sig (Elt F)) : val5 V0 (no_index (Proc.devRef .tc main_v15)) = val_main_v15 (F := F) (V0 (Proc.devRef .tc main_arg1)) :=
  (val5_keep V0 main_v15 (by decide)).trans (val4_main_v15 V0)
theorem val5_main_v17 (V0 : Valuation τ sig (Elt F)) : val5 V0 (no_index (Proc.devRef .tc main_v17)) = val_main_v17 (F := F) (V0 (Proc.devRef .tc main_arg0)) :=
  (val5_keep V0 main_v17 (by decide)).trans (val4_main_v17 V0)
theorem val5_main_v19 (V0 : Valuation τ sig (Elt F)) : val5 V0 (no_index (Proc.devRef .tc main_v19)) = val_main_v19 (F := F) (V0 (Proc.devRef .tc main_arg0)) :=
  (val5_keep V0 main_v19 (by decide)).trans (val4_main_v19 V0)
theorem val5_main_v23 (V0 : Valuation τ sig (Elt F)) : val5 V0 (no_index (Proc.devRef .tc main_v23)) = val_main_v23 (F := F) (V0 (Proc.devRef .tc main_arg0)) :=
  (val5_keep V0 main_v23 (by decide)).trans (val4_main_v23 V0)
theorem val5_main_v25 (V0 : Valuation τ sig (Elt F)) : val5 V0 (no_index (Proc.devRef .tc main_v25)) = val_main_v25 (F := F) (V0 (Proc.devRef .tc main_arg0)) :=
  (val5_keep V0 main_v25 (by decide)).trans (val4_main_v25 V0)
theorem val5_main_v27 (V0 : Valuation τ sig (Elt F)) : val5 V0 (no_index (Proc.devRef .tc main_v27)) = val_main_v27 (F := F) (V0 (Proc.devRef .tc main_arg0)) :=
  (val5_keep V0 main_v27 (by decide)).trans (val4_main_v27 V0)
theorem val5_main_v36 (V0 : Valuation τ sig (Elt F)) : val5 V0 (no_index (Proc.devRef .tc main_v36)) = val_main_v36 (F := F) (V0 (Proc.devRef .tc main_arg0)) (V0 (Proc.devRef .tc main_arg1)) :=
  (val5_keep V0 main_v36 (by decide)).trans (val4_main_v36 V0)
theorem val5_main_v45 (V0 : Valuation τ sig (Elt F)) : val5 V0 (no_index (Proc.devRef .tc main_v45)) = val_main_v45 (F := F) (V0 (Proc.devRef .tc main_arg0)) (V0 (Proc.devRef .tc main_arg1)) :=
  (val5_keep V0 main_v45 (by decide)).trans (val4_main_v45 V0)
theorem val5_main_v54 (V0 : Valuation τ sig (Elt F)) : val5 V0 (no_index (Proc.devRef .tc main_v54)) = val_main_v54 (F := F) (V0 (Proc.devRef .tc main_arg0)) (V0 (Proc.devRef .tc main_arg1)) :=
  (val5_keep V0 main_v54 (by decide)).trans (val4_main_v54 V0)
set_option maxHeartbeats 4000000 in
theorem val5_main_v63 (V0 : Valuation τ sig (Elt F)) : val5 V0 (no_index (Proc.devRef .tc main_v63)) = val_main_v63 (F := F) (V0 (Proc.devRef .tc main_arg0)) (V0 (Proc.devRef .tc main_arg1)) := by
  unfold val5
  simp only [w5, r4, r3, r2, r1, ops, List.drop_succ_cons, List.drop_zero, List.take_succ_cons, List.take_zero]
  after_results_simp
  try simp only [val4_main_v12, val4_main_v13, val4_main_v14, val4_main_v15, val4_main_v17, val4_main_v19, val4_main_v21, val4_main_v23, val4_main_v25, val4_main_v27, val4_main_v36, val4_main_v45, val4_main_v54, TRef.ofBuf, TRef.toBuf, cast_cast, cast_eq]
  try rfl

/-! ## Window 6: operations 167 … 198 -/

/-- The buffers window 6 writes. -/
abbrev w6_W : List (Ref sig .tc) := [main_c_11, main_v64, main_v65, main_v66, main_c_12, main_v67, main_v68, main_v69, main_v70, main_call5_c, main_call5_v0, main_call5_v1, main_call5_c_0, main_call5_v2, main_call5_v3, main_call5_v4, main_call5_c_1, main_call5_c_2, main_call5_v5, main_call5_v6, main_call5_v7, main_call5_v8, main_call5_v9, main_call5_v10, main_call5_c_3, main_call5_v11, main_call5_v12, main_call5_v13, main_call5_cst, main_call5_v14, main_v71, main_v72]
set_option maxHeartbeats 4000000 in
theorem w6_writes : (w6 : List (HloOp τ sig (Elt F))).Forall fun op => op.writes ⊆ (w6_W.map (Proc.devRef (τ := τ) .tc)).toFinset := by
  simp only [w6, r5, r4, r3, r2, r1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 6 does not write keeps its contents through it. -/
theorem val6_keep (V0 : Valuation τ sig (Elt F)) (r : Ref sig .tc) (h : r ∉ w6_W) :
    val6 V0 (Proc.devRef .tc r) = val5 V0 (Proc.devRef .tc r) :=
  after_of_writes_sub w6 _ w6_writes h

theorem val6_main_v12 (V0 : Valuation τ sig (Elt F)) : val6 V0 (no_index (Proc.devRef .tc main_v12)) = val_main_v12 (F := F) (V0 (Proc.devRef .tc main_arg0)) :=
  (val6_keep V0 main_v12 (by decide)).trans (val5_main_v12 V0)
theorem val6_main_v13 (V0 : Valuation τ sig (Elt F)) : val6 V0 (no_index (Proc.devRef .tc main_v13)) = val_main_v13 (F := F) (V0 (Proc.devRef .tc main_arg0)) :=
  (val6_keep V0 main_v13 (by decide)).trans (val5_main_v13 V0)
theorem val6_main_v14 (V0 : Valuation τ sig (Elt F)) : val6 V0 (no_index (Proc.devRef .tc main_v14)) = val_main_v14 (F := F) (V0 (Proc.devRef .tc main_arg0)) :=
  (val6_keep V0 main_v14 (by decide)).trans (val5_main_v14 V0)
theorem val6_main_v15 (V0 : Valuation τ sig (Elt F)) : val6 V0 (no_index (Proc.devRef .tc main_v15)) = val_main_v15 (F := F) (V0 (Proc.devRef .tc main_arg1)) :=
  (val6_keep V0 main_v15 (by decide)).trans (val5_main_v15 V0)
theorem val6_main_v17 (V0 : Valuation τ sig (Elt F)) : val6 V0 (no_index (Proc.devRef .tc main_v17)) = val_main_v17 (F := F) (V0 (Proc.devRef .tc main_arg0)) :=
  (val6_keep V0 main_v17 (by decide)).trans (val5_main_v17 V0)
theorem val6_main_v19 (V0 : Valuation τ sig (Elt F)) : val6 V0 (no_index (Proc.devRef .tc main_v19)) = val_main_v19 (F := F) (V0 (Proc.devRef .tc main_arg0)) :=
  (val6_keep V0 main_v19 (by decide)).trans (val5_main_v19 V0)
theorem val6_main_v23 (V0 : Valuation τ sig (Elt F)) : val6 V0 (no_index (Proc.devRef .tc main_v23)) = val_main_v23 (F := F) (V0 (Proc.devRef .tc main_arg0)) :=
  (val6_keep V0 main_v23 (by decide)).trans (val5_main_v23 V0)
theorem val6_main_v25 (V0 : Valuation τ sig (Elt F)) : val6 V0 (no_index (Proc.devRef .tc main_v25)) = val_main_v25 (F := F) (V0 (Proc.devRef .tc main_arg0)) :=
  (val6_keep V0 main_v25 (by decide)).trans (val5_main_v25 V0)
theorem val6_main_v27 (V0 : Valuation τ sig (Elt F)) : val6 V0 (no_index (Proc.devRef .tc main_v27)) = val_main_v27 (F := F) (V0 (Proc.devRef .tc main_arg0)) :=
  (val6_keep V0 main_v27 (by decide)).trans (val5_main_v27 V0)
theorem val6_main_v36 (V0 : Valuation τ sig (Elt F)) : val6 V0 (no_index (Proc.devRef .tc main_v36)) = val_main_v36 (F := F) (V0 (Proc.devRef .tc main_arg0)) (V0 (Proc.devRef .tc main_arg1)) :=
  (val6_keep V0 main_v36 (by decide)).trans (val5_main_v36 V0)
theorem val6_main_v45 (V0 : Valuation τ sig (Elt F)) : val6 V0 (no_index (Proc.devRef .tc main_v45)) = val_main_v45 (F := F) (V0 (Proc.devRef .tc main_arg0)) (V0 (Proc.devRef .tc main_arg1)) :=
  (val6_keep V0 main_v45 (by decide)).trans (val5_main_v45 V0)
theorem val6_main_v54 (V0 : Valuation τ sig (Elt F)) : val6 V0 (no_index (Proc.devRef .tc main_v54)) = val_main_v54 (F := F) (V0 (Proc.devRef .tc main_arg0)) (V0 (Proc.devRef .tc main_arg1)) :=
  (val6_keep V0 main_v54 (by decide)).trans (val5_main_v54 V0)
theorem val6_main_v63 (V0 : Valuation τ sig (Elt F)) : val6 V0 (no_index (Proc.devRef .tc main_v63)) = val_main_v63 (F := F) (V0 (Proc.devRef .tc main_arg0)) (V0 (Proc.devRef .tc main_arg1)) :=
  (val6_keep V0 main_v63 (by decide)).trans (val5_main_v63 V0)
set_option maxHeartbeats 4000000 in
theorem val6_main_v72 (V0 : Valuation τ sig (Elt F)) : val6 V0 (no_index (Proc.devRef .tc main_v72)) = val_main_v72 (F := F) (V0 (Proc.devRef .tc main_arg0)) (V0 (Proc.devRef .tc main_arg1)) := by
  unfold val6
  simp only [w6, r5, r4, r3, r2, r1, ops, List.drop_succ_cons, List.drop_zero, List.take_succ_cons, List.take_zero]
  after_results_simp
  try simp only [val5_main_v12, val5_main_v13, val5_main_v14, val5_main_v15, val5_main_v17, val5_main_v19, val5_main_v23, val5_main_v25, val5_main_v27, val5_main_v36, val5_main_v45, val5_main_v54, val5_main_v63, TRef.ofBuf, TRef.toBuf, cast_cast, cast_eq]
  try rfl

/-! ## Window 7: operations 199 … 230 -/

/-- The buffers window 7 writes. -/
abbrev w7_W : List (Ref sig .tc) := [main_c_13, main_v73, main_v74, main_v75, main_c_14, main_v76, main_v77, main_v78, main_v79, main_call6_c, main_call6_v0, main_call6_v1, main_call6_c_0, main_call6_v2, main_call6_v3, main_call6_v4, main_call6_c_1, main_call6_c_2, main_call6_v5, main_call6_v6, main_call6_v7, main_call6_v8, main_call6_v9, main_call6_v10, main_call6_c_3, main_call6_v11, main_call6_v12, main_call6_v13, main_call6_cst, main_call6_v14, main_v80, main_v81]
set_option maxHeartbeats 4000000 in
theorem w7_writes : (w7 : List (HloOp τ sig (Elt F))).Forall fun op => op.writes ⊆ (w7_W.map (Proc.devRef (τ := τ) .tc)).toFinset := by
  simp only [w7, r6, r5, r4, r3, r2, r1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 7 does not write keeps its contents through it. -/
theorem val7_keep (V0 : Valuation τ sig (Elt F)) (r : Ref sig .tc) (h : r ∉ w7_W) :
    val7 V0 (Proc.devRef .tc r) = val6 V0 (Proc.devRef .tc r) :=
  after_of_writes_sub w7 _ w7_writes h

theorem val7_main_v12 (V0 : Valuation τ sig (Elt F)) : val7 V0 (no_index (Proc.devRef .tc main_v12)) = val_main_v12 (F := F) (V0 (Proc.devRef .tc main_arg0)) :=
  (val7_keep V0 main_v12 (by decide)).trans (val6_main_v12 V0)
theorem val7_main_v13 (V0 : Valuation τ sig (Elt F)) : val7 V0 (no_index (Proc.devRef .tc main_v13)) = val_main_v13 (F := F) (V0 (Proc.devRef .tc main_arg0)) :=
  (val7_keep V0 main_v13 (by decide)).trans (val6_main_v13 V0)
theorem val7_main_v14 (V0 : Valuation τ sig (Elt F)) : val7 V0 (no_index (Proc.devRef .tc main_v14)) = val_main_v14 (F := F) (V0 (Proc.devRef .tc main_arg0)) :=
  (val7_keep V0 main_v14 (by decide)).trans (val6_main_v14 V0)
theorem val7_main_v15 (V0 : Valuation τ sig (Elt F)) : val7 V0 (no_index (Proc.devRef .tc main_v15)) = val_main_v15 (F := F) (V0 (Proc.devRef .tc main_arg1)) :=
  (val7_keep V0 main_v15 (by decide)).trans (val6_main_v15 V0)
theorem val7_main_v17 (V0 : Valuation τ sig (Elt F)) : val7 V0 (no_index (Proc.devRef .tc main_v17)) = val_main_v17 (F := F) (V0 (Proc.devRef .tc main_arg0)) :=
  (val7_keep V0 main_v17 (by decide)).trans (val6_main_v17 V0)
theorem val7_main_v23 (V0 : Valuation τ sig (Elt F)) : val7 V0 (no_index (Proc.devRef .tc main_v23)) = val_main_v23 (F := F) (V0 (Proc.devRef .tc main_arg0)) :=
  (val7_keep V0 main_v23 (by decide)).trans (val6_main_v23 V0)
theorem val7_main_v25 (V0 : Valuation τ sig (Elt F)) : val7 V0 (no_index (Proc.devRef .tc main_v25)) = val_main_v25 (F := F) (V0 (Proc.devRef .tc main_arg0)) :=
  (val7_keep V0 main_v25 (by decide)).trans (val6_main_v25 V0)
theorem val7_main_v27 (V0 : Valuation τ sig (Elt F)) : val7 V0 (no_index (Proc.devRef .tc main_v27)) = val_main_v27 (F := F) (V0 (Proc.devRef .tc main_arg0)) :=
  (val7_keep V0 main_v27 (by decide)).trans (val6_main_v27 V0)
theorem val7_main_v36 (V0 : Valuation τ sig (Elt F)) : val7 V0 (no_index (Proc.devRef .tc main_v36)) = val_main_v36 (F := F) (V0 (Proc.devRef .tc main_arg0)) (V0 (Proc.devRef .tc main_arg1)) :=
  (val7_keep V0 main_v36 (by decide)).trans (val6_main_v36 V0)
theorem val7_main_v45 (V0 : Valuation τ sig (Elt F)) : val7 V0 (no_index (Proc.devRef .tc main_v45)) = val_main_v45 (F := F) (V0 (Proc.devRef .tc main_arg0)) (V0 (Proc.devRef .tc main_arg1)) :=
  (val7_keep V0 main_v45 (by decide)).trans (val6_main_v45 V0)
theorem val7_main_v54 (V0 : Valuation τ sig (Elt F)) : val7 V0 (no_index (Proc.devRef .tc main_v54)) = val_main_v54 (F := F) (V0 (Proc.devRef .tc main_arg0)) (V0 (Proc.devRef .tc main_arg1)) :=
  (val7_keep V0 main_v54 (by decide)).trans (val6_main_v54 V0)
theorem val7_main_v63 (V0 : Valuation τ sig (Elt F)) : val7 V0 (no_index (Proc.devRef .tc main_v63)) = val_main_v63 (F := F) (V0 (Proc.devRef .tc main_arg0)) (V0 (Proc.devRef .tc main_arg1)) :=
  (val7_keep V0 main_v63 (by decide)).trans (val6_main_v63 V0)
theorem val7_main_v72 (V0 : Valuation τ sig (Elt F)) : val7 V0 (no_index (Proc.devRef .tc main_v72)) = val_main_v72 (F := F) (V0 (Proc.devRef .tc main_arg0)) (V0 (Proc.devRef .tc main_arg1)) :=
  (val7_keep V0 main_v72 (by decide)).trans (val6_main_v72 V0)
set_option maxHeartbeats 4000000 in
theorem val7_main_v81 (V0 : Valuation τ sig (Elt F)) : val7 V0 (no_index (Proc.devRef .tc main_v81)) = val_main_v81 (F := F) (V0 (Proc.devRef .tc main_arg0)) (V0 (Proc.devRef .tc main_arg1)) := by
  unfold val7
  simp only [w7, r6, r5, r4, r3, r2, r1, ops, List.drop_succ_cons, List.drop_zero, List.take_succ_cons, List.take_zero]
  after_results_simp
  try simp only [val6_main_v12, val6_main_v13, val6_main_v14, val6_main_v15, val6_main_v17, val6_main_v19, val6_main_v23, val6_main_v25, val6_main_v27, val6_main_v36, val6_main_v45, val6_main_v54, val6_main_v63, val6_main_v72, TRef.ofBuf, TRef.toBuf, cast_cast, cast_eq]
  try rfl

/-! ## Window 8: operations 231 … 262 -/

/-- The buffers window 8 writes. -/
abbrev w8_W : List (Ref sig .tc) := [main_c_15, main_v82, main_v83, main_v84, main_c_16, main_v85, main_v86, main_v87, main_v88, main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v89, main_v90]
set_option maxHeartbeats 4000000 in
theorem w8_writes : (w8 : List (HloOp τ sig (Elt F))).Forall fun op => op.writes ⊆ (w8_W.map (Proc.devRef (τ := τ) .tc)).toFinset := by
  simp only [w8, r7, r6, r5, r4, r3, r2, r1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 8 does not write keeps its contents through it. -/
theorem val8_keep (V0 : Valuation τ sig (Elt F)) (r : Ref sig .tc) (h : r ∉ w8_W) :
    val8 V0 (Proc.devRef .tc r) = val7 V0 (Proc.devRef .tc r) :=
  after_of_writes_sub w8 _ w8_writes h

theorem val8_main_v12 (V0 : Valuation τ sig (Elt F)) : val8 V0 (no_index (Proc.devRef .tc main_v12)) = val_main_v12 (F := F) (V0 (Proc.devRef .tc main_arg0)) :=
  (val8_keep V0 main_v12 (by decide)).trans (val7_main_v12 V0)
theorem val8_main_v13 (V0 : Valuation τ sig (Elt F)) : val8 V0 (no_index (Proc.devRef .tc main_v13)) = val_main_v13 (F := F) (V0 (Proc.devRef .tc main_arg0)) :=
  (val8_keep V0 main_v13 (by decide)).trans (val7_main_v13 V0)
theorem val8_main_v14 (V0 : Valuation τ sig (Elt F)) : val8 V0 (no_index (Proc.devRef .tc main_v14)) = val_main_v14 (F := F) (V0 (Proc.devRef .tc main_arg0)) :=
  (val8_keep V0 main_v14 (by decide)).trans (val7_main_v14 V0)
theorem val8_main_v15 (V0 : Valuation τ sig (Elt F)) : val8 V0 (no_index (Proc.devRef .tc main_v15)) = val_main_v15 (F := F) (V0 (Proc.devRef .tc main_arg1)) :=
  (val8_keep V0 main_v15 (by decide)).trans (val7_main_v15 V0)
theorem val8_main_v23 (V0 : Valuation τ sig (Elt F)) : val8 V0 (no_index (Proc.devRef .tc main_v23)) = val_main_v23 (F := F) (V0 (Proc.devRef .tc main_arg0)) :=
  (val8_keep V0 main_v23 (by decide)).trans (val7_main_v23 V0)
theorem val8_main_v25 (V0 : Valuation τ sig (Elt F)) : val8 V0 (no_index (Proc.devRef .tc main_v25)) = val_main_v25 (F := F) (V0 (Proc.devRef .tc main_arg0)) :=
  (val8_keep V0 main_v25 (by decide)).trans (val7_main_v25 V0)
theorem val8_main_v27 (V0 : Valuation τ sig (Elt F)) : val8 V0 (no_index (Proc.devRef .tc main_v27)) = val_main_v27 (F := F) (V0 (Proc.devRef .tc main_arg0)) :=
  (val8_keep V0 main_v27 (by decide)).trans (val7_main_v27 V0)
theorem val8_main_v36 (V0 : Valuation τ sig (Elt F)) : val8 V0 (no_index (Proc.devRef .tc main_v36)) = val_main_v36 (F := F) (V0 (Proc.devRef .tc main_arg0)) (V0 (Proc.devRef .tc main_arg1)) :=
  (val8_keep V0 main_v36 (by decide)).trans (val7_main_v36 V0)
theorem val8_main_v45 (V0 : Valuation τ sig (Elt F)) : val8 V0 (no_index (Proc.devRef .tc main_v45)) = val_main_v45 (F := F) (V0 (Proc.devRef .tc main_arg0)) (V0 (Proc.devRef .tc main_arg1)) :=
  (val8_keep V0 main_v45 (by decide)).trans (val7_main_v45 V0)
theorem val8_main_v54 (V0 : Valuation τ sig (Elt F)) : val8 V0 (no_index (Proc.devRef .tc main_v54)) = val_main_v54 (F := F) (V0 (Proc.devRef .tc main_arg0)) (V0 (Proc.devRef .tc main_arg1)) :=
  (val8_keep V0 main_v54 (by decide)).trans (val7_main_v54 V0)
theorem val8_main_v63 (V0 : Valuation τ sig (Elt F)) : val8 V0 (no_index (Proc.devRef .tc main_v63)) = val_main_v63 (F := F) (V0 (Proc.devRef .tc main_arg0)) (V0 (Proc.devRef .tc main_arg1)) :=
  (val8_keep V0 main_v63 (by decide)).trans (val7_main_v63 V0)
theorem val8_main_v72 (V0 : Valuation τ sig (Elt F)) : val8 V0 (no_index (Proc.devRef .tc main_v72)) = val_main_v72 (F := F) (V0 (Proc.devRef .tc main_arg0)) (V0 (Proc.devRef .tc main_arg1)) :=
  (val8_keep V0 main_v72 (by decide)).trans (val7_main_v72 V0)
theorem val8_main_v81 (V0 : Valuation τ sig (Elt F)) : val8 V0 (no_index (Proc.devRef .tc main_v81)) = val_main_v81 (F := F) (V0 (Proc.devRef .tc main_arg0)) (V0 (Proc.devRef .tc main_arg1)) :=
  (val8_keep V0 main_v81 (by decide)).trans (val7_main_v81 V0)
set_option maxHeartbeats 4000000 in
theorem val8_main_v90 (V0 : Valuation τ sig (Elt F)) : val8 V0 (no_index (Proc.devRef .tc main_v90)) = val_main_v90 (F := F) (V0 (Proc.devRef .tc main_arg0)) (V0 (Proc.devRef .tc main_arg1)) := by
  unfold val8
  simp only [w8, r7, r6, r5, r4, r3, r2, r1, ops, List.drop_succ_cons, List.drop_zero, List.take_succ_cons, List.take_zero]
  after_results_simp
  try simp only [val7_main_v12, val7_main_v13, val7_main_v14, val7_main_v15, val7_main_v17, val7_main_v23, val7_main_v25, val7_main_v27, val7_main_v36, val7_main_v45, val7_main_v54, val7_main_v63, val7_main_v72, val7_main_v81, TRef.ofBuf, TRef.toBuf, cast_cast, cast_eq]
  try rfl

/-! ## Window 9: operations 263 … 294 -/

/-- The buffers window 9 writes. -/
abbrev w9_W : List (Ref sig .tc) := [main_c_17, main_v91, main_v92, main_v93, main_c_18, main_v94, main_v95, main_v96, main_v97, main_call8_c, main_call8_v0, main_call8_v1, main_call8_c_0, main_call8_v2, main_call8_v3, main_call8_v4, main_call8_c_1, main_call8_c_2, main_call8_v5, main_call8_v6, main_call8_v7, main_call8_v8, main_call8_v9, main_call8_v10, main_call8_c_3, main_call8_v11, main_call8_v12, main_call8_v13, main_call8_cst, main_call8_v14, main_v98, main_v99]
set_option maxHeartbeats 4000000 in
theorem w9_writes : (w9 : List (HloOp τ sig (Elt F))).Forall fun op => op.writes ⊆ (w9_W.map (Proc.devRef (τ := τ) .tc)).toFinset := by
  simp only [w9, r8, r7, r6, r5, r4, r3, r2, r1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 9 does not write keeps its contents through it. -/
theorem val9_keep (V0 : Valuation τ sig (Elt F)) (r : Ref sig .tc) (h : r ∉ w9_W) :
    val9 V0 (Proc.devRef .tc r) = val8 V0 (Proc.devRef .tc r) :=
  after_of_writes_sub w9 _ w9_writes h

theorem val9_main_v12 (V0 : Valuation τ sig (Elt F)) : val9 V0 (no_index (Proc.devRef .tc main_v12)) = val_main_v12 (F := F) (V0 (Proc.devRef .tc main_arg0)) :=
  (val9_keep V0 main_v12 (by decide)).trans (val8_main_v12 V0)
theorem val9_main_v13 (V0 : Valuation τ sig (Elt F)) : val9 V0 (no_index (Proc.devRef .tc main_v13)) = val_main_v13 (F := F) (V0 (Proc.devRef .tc main_arg0)) :=
  (val9_keep V0 main_v13 (by decide)).trans (val8_main_v13 V0)
theorem val9_main_v14 (V0 : Valuation τ sig (Elt F)) : val9 V0 (no_index (Proc.devRef .tc main_v14)) = val_main_v14 (F := F) (V0 (Proc.devRef .tc main_arg0)) :=
  (val9_keep V0 main_v14 (by decide)).trans (val8_main_v14 V0)
theorem val9_main_v36 (V0 : Valuation τ sig (Elt F)) : val9 V0 (no_index (Proc.devRef .tc main_v36)) = val_main_v36 (F := F) (V0 (Proc.devRef .tc main_arg0)) (V0 (Proc.devRef .tc main_arg1)) :=
  (val9_keep V0 main_v36 (by decide)).trans (val8_main_v36 V0)
theorem val9_main_v45 (V0 : Valuation τ sig (Elt F)) : val9 V0 (no_index (Proc.devRef .tc main_v45)) = val_main_v45 (F := F) (V0 (Proc.devRef .tc main_arg0)) (V0 (Proc.devRef .tc main_arg1)) :=
  (val9_keep V0 main_v45 (by decide)).trans (val8_main_v45 V0)
theorem val9_main_v54 (V0 : Valuation τ sig (Elt F)) : val9 V0 (no_index (Proc.devRef .tc main_v54)) = val_main_v54 (F := F) (V0 (Proc.devRef .tc main_arg0)) (V0 (Proc.devRef .tc main_arg1)) :=
  (val9_keep V0 main_v54 (by decide)).trans (val8_main_v54 V0)
theorem val9_main_v63 (V0 : Valuation τ sig (Elt F)) : val9 V0 (no_index (Proc.devRef .tc main_v63)) = val_main_v63 (F := F) (V0 (Proc.devRef .tc main_arg0)) (V0 (Proc.devRef .tc main_arg1)) :=
  (val9_keep V0 main_v63 (by decide)).trans (val8_main_v63 V0)
theorem val9_main_v72 (V0 : Valuation τ sig (Elt F)) : val9 V0 (no_index (Proc.devRef .tc main_v72)) = val_main_v72 (F := F) (V0 (Proc.devRef .tc main_arg0)) (V0 (Proc.devRef .tc main_arg1)) :=
  (val9_keep V0 main_v72 (by decide)).trans (val8_main_v72 V0)
theorem val9_main_v81 (V0 : Valuation τ sig (Elt F)) : val9 V0 (no_index (Proc.devRef .tc main_v81)) = val_main_v81 (F := F) (V0 (Proc.devRef .tc main_arg0)) (V0 (Proc.devRef .tc main_arg1)) :=
  (val9_keep V0 main_v81 (by decide)).trans (val8_main_v81 V0)
theorem val9_main_v90 (V0 : Valuation τ sig (Elt F)) : val9 V0 (no_index (Proc.devRef .tc main_v90)) = val_main_v90 (F := F) (V0 (Proc.devRef .tc main_arg0)) (V0 (Proc.devRef .tc main_arg1)) :=
  (val9_keep V0 main_v90 (by decide)).trans (val8_main_v90 V0)
set_option maxHeartbeats 4000000 in
theorem val9_main_v99 (V0 : Valuation τ sig (Elt F)) : val9 V0 (no_index (Proc.devRef .tc main_v99)) = val_main_v99 (F := F) (V0 (Proc.devRef .tc main_arg0)) (V0 (Proc.devRef .tc main_arg1)) := by
  unfold val9
  simp only [w9, r8, r7, r6, r5, r4, r3, r2, r1, ops, List.drop_succ_cons, List.drop_zero, List.take_succ_cons, List.take_zero]
  after_results_simp
  try simp only [val8_main_v12, val8_main_v13, val8_main_v14, val8_main_v15, val8_main_v23, val8_main_v25, val8_main_v27, val8_main_v36, val8_main_v45, val8_main_v54, val8_main_v63, val8_main_v72, val8_main_v81, val8_main_v90, TRef.ofBuf, TRef.toBuf, cast_cast, cast_eq]
  try rfl

/-! ## Window 10: operations 295 … 351 -/

/-- The buffers window 10 writes. -/
abbrev w10_W : List (Ref sig .tc) := [main_cst_19, main_v100, main_v101, main_v102, main_v103, main_v104, main_v105, main_v106, main_cst_20, main_v107, main_v108, main_v109, main_v110, main_v111, main_v112, main_v113, main_cst_21, main_v114, main_v115, main_v116, main_v117, main_v118, main_v119, main_v120, main_cst_22, main_v121, main_v122, main_v123, main_v124, main_v125, main_v126, main_v127, main_cst_23, main_v128, main_v129, main_v130, main_v131, main_v132, main_v133, main_v134, main_cst_24, main_v135, main_v136, main_v137, main_v138, main_v139, main_v140, main_v141, main_cst_25, main_v142, main_v143, main_v144, main_v145, main_v146, main_v147, main_v148, main_v149]
set_option maxHeartbeats 4000000 in
theorem w10_writes : (w10 : List (HloOp τ sig (Elt F))).Forall fun op => op.writes ⊆ (w10_W.map (Proc.devRef (τ := τ) .tc)).toFinset := by
  simp only [w10, r9, r8, r7, r6, r5, r4, r3, r2, r1, ops, List.drop_succ_cons, List.drop_zero, List.take_succ_cons, List.take_zero, List.Forall]
  repeat' apply And.intro
  all_goals exact Finset.singleton_subset_iff.mpr (List.mem_toFinset.mpr (List.mem_map_of_mem (by decide)))
/-- A buffer window 10 does not write keeps its contents through it. -/
theorem val10_keep (V0 : Valuation τ sig (Elt F)) (r : Ref sig .tc) (h : r ∉ w10_W) :
    val10 V0 (Proc.devRef .tc r) = val9 V0 (Proc.devRef .tc r) :=
  after_of_writes_sub w10 _ w10_writes h

set_option maxHeartbeats 4000000 in
theorem val10_main_v149 (V0 : Valuation τ sig (Elt F)) : val10 V0 (no_index (Proc.devRef .tc main_v149)) = val_main_v149 (F := F) (V0 (Proc.devRef .tc main_arg0)) (V0 (Proc.devRef .tc main_arg1)) := by
  unfold val10
  simp only [w10, r9, r8, r7, r6, r5, r4, r3, r2, r1, ops, List.drop_succ_cons, List.drop_zero, List.take_succ_cons, List.take_zero]
  after_results_simp
  try simp only [val9_main_v12, val9_main_v13, val9_main_v14, val9_main_v36, val9_main_v45, val9_main_v54, val9_main_v63, val9_main_v72, val9_main_v81, val9_main_v90, val9_main_v99, TRef.ofBuf, TRef.toBuf, cast_cast, cast_eq]
  try rfl

/-! ## The whole run -/

/-- The result buffer after all the operations is the last stage of the two arguments. -/
theorem res_eq (V0 : Valuation τ sig (Elt F)) : after (ops (F := F)) V0 (Proc.devRef .tc main_v149) = val_main_v149 (F := F) (V0 (Proc.devRef .tc main_arg0)) (V0 (Proc.devRef .tc main_arg1)) := by
  rw [ops_chain]; exact val10_main_v149 V0
/-- No operation writes an argument. -/
theorem arg0_kept (V0 : Valuation τ sig (Elt F)) : after (ops (F := F)) V0 (Proc.devRef .tc main_arg0) = V0 (Proc.devRef .tc main_arg0) := by
  rw [ops_chain]; exact (val10_keep V0 main_arg0 (by decide)).trans ((val9_keep V0 main_arg0 (by decide)).trans ((val8_keep V0 main_arg0 (by decide)).trans ((val7_keep V0 main_arg0 (by decide)).trans ((val6_keep V0 main_arg0 (by decide)).trans ((val5_keep V0 main_arg0 (by decide)).trans ((val4_keep V0 main_arg0 (by decide)).trans ((val3_keep V0 main_arg0 (by decide)).trans ((val2_keep V0 main_arg0 (by decide)).trans ((val1_keep V0 main_arg0 (by decide)))))))))))
theorem arg1_kept (V0 : Valuation τ sig (Elt F)) : after (ops (F := F)) V0 (Proc.devRef .tc main_arg1) = V0 (Proc.devRef .tc main_arg1) := by
  rw [ops_chain]; exact (val10_keep V0 main_arg1 (by decide)).trans ((val9_keep V0 main_arg1 (by decide)).trans ((val8_keep V0 main_arg1 (by decide)).trans ((val7_keep V0 main_arg1 (by decide)).trans ((val6_keep V0 main_arg1 (by decide)).trans ((val5_keep V0 main_arg1 (by decide)).trans ((val4_keep V0 main_arg1 (by decide)).trans ((val3_keep V0 main_arg1 (by decide)).trans ((val2_keep V0 main_arg1 (by decide)).trans ((val1_keep V0 main_arg1 (by decide)))))))))))

/-- On every device, for any float values, from any memory with zero counters: every weakly fair execution of @main terminates
    with the result at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149) = val_main_v149 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v149).trans (res_eq _), (h c main_arg0).trans (arg0_kept _), (h c main_arg1).trans (arg1_kept _)⟩)
    (run_raw m ρ)

end Cert.ReferenceIdeal.Bridge

end
-- ==== Proof.Spec.lean ====
/-
  The specification both programs are read against, over the extended reals.

  A pixel's three colour values x, y, z are scaled to LUT grid space and clipped: g(u) = min(hi, max(0, u * 32)) with
  hi the largest f32 below 32. The cell of u is the integer part of g(u) (as a 32-bit word), the upper cell is
  min(cell + 1, 32), and the fractional part is g(u) minus the cell. A colour value's "hat" weight at grid line i
  is (1 - frac) if i is the cell, plus frac if i is the upper cell: a length-33 vector with two non-zero entries.

  The kernel contracts the table against the three hat vectors (`kernelVal`: the x-axis as a sum of 33 products
  with one row of a [99, 1089] matrix product whose right factor is the outer product of the y and z hats); the
  reference gathers the eight corners of the cell and interpolates linearly along x, then y, then z (`refVal`).
-/
import Idealize.ShloMosaic.PureOps.Ideal
import Idealize.ShloMosaic.Lib.ValueIdx

noncomputable section

namespace Cert.Lut

open Idealize.ShloMosaic Idealize.ShloMosaic.ValueIdx

/-- The three float words the coordinate computation spells, and the unit. -/
abbrev w32 : EReal := Ideal.ofBits .f32 0x42000000#32
abbrev wHi : EReal := Ideal.ofBits .f32 0x41FFFFFF#32
abbrev wZero : EReal := Ideal.ofBits .f32 0x00000000#32
abbrev wOne : EReal := Ideal.ofBits .f32 0x3F800000#32

/-- A colour value in grid space: scaled by 32 and clipped to [0, hi]. -/
def gridc (u : EReal) : EReal := min wHi (max wZero (u * w32))

/-- The grid cell of a colour value: the integer part of its grid coordinate, as a 32-bit word. -/
def cell (u : EReal) : BitVec 32 := Ideal.fptosi 32 (Ideal.liftRound Int.floor (gridc u))

/-- The next grid line, capped at the last one. -/
def cellUp (u : EReal) : BitVec 32 := IntOp.minsi (IntOp.addi (cell u) 1#32) 32#32

/-- The position inside the cell. -/
def frac (u : EReal) : EReal := gridc u - ((((cell u).toInt : ℝ)) : EReal)

/-- The linear-interpolation weight of grid line `i` for the colour value `u`. -/
def hat (i : BitVec 32) (u : EReal) : EReal :=
  Scalar.select (IntOp.cmpi .eq i (cell u)) (wOne - frac u) wZero
    + Scalar.select (IntOp.cmpi .eq i (cellUp u)) (frac u) wZero

/-- The kernel's value for one pixel and one output channel `ch`: `T` is the pixel's batch's table as the
    [99, 1089] matrix whose row `ch * 33 + i` and column `j * 33 + k` holds the table entry (i, j, k) of channel `ch`. -/
def kernelVal (x y z : EReal) (T : Fin 99 → Fin 1089 → EReal) (ch : Fin 3) : EReal :=
  ∑ i : Fin 33, hat (BitVec.ofNat 32 i.val) x *
    (∑ kk : Fin 1089, T ⟨ch.val * 33 + i.val, by omega⟩ kk *
      (hat (BitVec.ofNat 32 (kk.val / 33)) y * hat (BitVec.ofNat 32 (kk.val % 33)) z))

/-- A table entry at three grid lines given as words; zero off the grid (never read: the lines are at most 32). -/
def lutAt (L : Fin 33 → Fin 33 → Fin 33 → EReal) (a b c : BitVec 32) : EReal :=
  if h : a.toNat < 33 ∧ b.toNat < 33 ∧ c.toNat < 33 then L ⟨a.toNat, h.1⟩ ⟨b.toNat, h.2.1⟩ ⟨c.toNat, h.2.2⟩ else 0

/-- The reference's value for one pixel: the eight corners of the cell, interpolated along x, then y, then z.
    `L i j k` is the table entry (i, j, k) of the pixel's batch and the output channel. -/
def refVal (x y z : EReal) (L : Fin 33 → Fin 33 → Fin 33 → EReal) : EReal :=
  ((lutAt L (cell x) (cell y) (cell z) * (wOne - frac x) + lutAt L (cellUp x) (cell y) (cell z) * frac x) * (wOne - frac y)
    + (lutAt L (cell x) (cellUp y) (cell z) * (wOne - frac x) + lutAt L (cellUp x) (cellUp y) (cell z) * frac x) * frac y)
      * (wOne - frac z)
  + ((lutAt L (cell x) (cell y) (cellUp z) * (wOne - frac x) + lutAt L (cellUp x) (cell y) (cellUp z) * frac x) * (wOne - frac y)
    + (lutAt L (cell x) (cellUp y) (cellUp z) * (wOne - frac x) + lutAt L (cellUp x) (cellUp y) (cellUp z) * frac x) * frac y)
      * frac z

/-- The whole result at (batch, channel, row, column) from the image [8, 3, 1024, 1024] and the table [8, 33, 33, 33, 3]. -/
def specAt (img : (⟨4, ![8, 3, 1024, 1024]⟩ : Shape).Idx → EReal) (lut : (⟨5, ![8, 33, 33, 33, 3]⟩ : Shape).Idx → EReal)
    (b : Fin 8) (ch : Fin 3) (h w : Fin 1024) : EReal :=
  refVal (img (ix4 b (0 : Fin 3) h w)) (img (ix4 b (1 : Fin 3) h w)) (img (ix4 b (2 : Fin 3) h w))
    (fun i j k => lut (ix5 b i j k ch))

/-- The same as one array. -/
def specOut (img : (⟨4, ![8, 3, 1024, 1024]⟩ : Shape).Idx → EReal) (lut : (⟨5, ![8, 33, 33, 33, 3]⟩ : Shape).Idx → EReal) :
    (⟨4, ![8, 3, 1024, 1024]⟩ : Shape).Idx → EReal :=
  fun j => specAt img lut ⟨(j 0).val, (j 0).isLt⟩ ⟨(j 1).val, (j 1).isLt⟩ ⟨(j 2).val, (j 2).isLt⟩ ⟨(j 3).val, (j 3).isLt⟩

theorem specOut_ix4 (img : (⟨4, ![8, 3, 1024, 1024]⟩ : Shape).Idx → EReal) (lut : (⟨5, ![8, 33, 33, 33, 3]⟩ : Shape).Idx → EReal)
    (b : Fin 8) (ch : Fin 3) (h w : Fin 1024) : specOut img lut (ix4 b ch h w) = specAt img lut b ch h w := rfl

end Cert.Lut

end
-- ==== Proof.CoordWords.lean ====
/-
  The four float words of the coordinate computation, as the real numbers they denote: 32, the largest
  single-precision value below 32 (which is 16777215 / 2^19), zero and one.
-/
import proofs.«156492_j2448131359063_2_alg».proof.Proof.Spec

noncomputable section

namespace Cert.Lut

open Idealize.ShloMosaic

theorem w32_coe : w32 = ((32 : ℝ) : EReal) := by
  show Ideal.ofBits .f32 0x42000000#32 = ((32 : ℝ) : EReal)
  simp [Ideal.ofBits, Ideal.ieee, -EReal.coe_mul]; norm_num

theorem wHi_coe : wHi = ((16777215 / 524288 : ℝ) : EReal) := by
  show Ideal.ofBits .f32 0x41FFFFFF#32 = ((16777215 / 524288 : ℝ) : EReal)
  simp [Ideal.ofBits, Ideal.ieee, -EReal.coe_mul]; norm_num

theorem wZero_coe : wZero = ((0 : ℝ) : EReal) := by
  show Ideal.ofBits .f32 0x00000000#32 = ((0 : ℝ) : EReal)
  simp [Ideal.ofBits, Ideal.ieee]

theorem wOne_coe : wOne = ((1 : ℝ) : EReal) := by
  show Ideal.ofBits .f32 0x3F800000#32 = ((1 : ℝ) : EReal)
  simp [Ideal.ofBits, Ideal.ieee, -EReal.coe_mul]; norm_num

end Cert.Lut

end
-- ==== Proof.CoordCell.lean ====
/-
  The grid coordinate and the cell of a colour value, in numbers.

  For every extended real u the grid coordinate g(u) = min(hi, max(0, u * 32)) is a real number r in [0, 32): at
  minus infinity the product is minus infinity and the maximum with zero is zero; at plus infinity the product is
  plus infinity and the minimum with hi is hi; at a real number all three operations stay in the reals. The cell is
  then the natural number n = floor r < 32 as a 32-bit word, with n ≤ r < n + 1, and adding one to it never
  reaches past 32, so the signed minimum with 32 returns the sum.
-/
import proofs.«156492_j2448131359063_2_alg».proof.Proof.CoordWords

noncomputable section

namespace Cert.Lut

open Idealize.ShloMosaic

theorem gridc_bounds (u : EReal) : ∃ r : ℝ, gridc u = (r : EReal) ∧ 0 ≤ r ∧ r < 32 := by
  unfold gridc
  rw [wHi_coe, wZero_coe, w32_coe]
  induction u using EReal.rec with
  | bot =>
    refine ⟨0, ?_, le_refl _, by norm_num⟩
    rw [EReal.bot_mul_coe_of_pos (by norm_num : (0:ℝ) < 32), max_eq_left bot_le, min_eq_right]
    exact EReal.coe_le_coe_iff.2 (by norm_num)
  | top =>
    refine ⟨16777215 / 524288, ?_, by norm_num, by norm_num⟩
    rw [EReal.top_mul_coe_of_pos (by norm_num : (0:ℝ) < 32), max_eq_right le_top, min_eq_left le_top]
  | coe r =>
    refine ⟨min (16777215 / 524288) (max 0 (r * 32)), ?_, ?_, ?_⟩
    · rw [EReal.coe_strictMono.monotone.map_min, EReal.coe_strictMono.monotone.map_max, EReal.coe_mul]
    · exact le_min (by norm_num) (le_max_left _ _)
    · exact lt_of_le_of_lt (min_le_left _ _) (by norm_num)

/-- The cell as a natural number below 32, with the grid coordinate between it and its successor. -/
theorem cell_spec (u : EReal) : ∃ (r : ℝ) (n : ℕ), gridc u = (r : EReal) ∧ n < 32 ∧ cell u = BitVec.ofNat 32 n
    ∧ (n : ℝ) ≤ r ∧ r < (n : ℝ) + 1 := by
  obtain ⟨r, hr, h0, h32⟩ := gridc_bounds u
  have hz0 : 0 ≤ ⌊r⌋ := Int.floor_nonneg.2 h0
  have hz32 : ⌊r⌋ < 32 := Int.floor_lt.2 (by exact_mod_cast h32)
  obtain ⟨n, hn⟩ := Int.eq_ofNat_of_zero_le hz0
  refine ⟨r, n, hr, by omega, ?_, ?_, ?_⟩
  · unfold cell
    rw [hr]
    simp only [Ideal.liftRound_coe, Ideal.fptosi, Ideal.toIntClamped_coe]
    have hc : (0 : ℝ) ≤ ((⌊r⌋ : ℤ) : ℝ) := by exact_mod_cast hz0
    rw [if_pos hc, Int.floor_intCast, hn]
    have : max (-((2 ^ (32 - 1) : ℕ) : ℤ)) (min (((2 ^ (32 - 1) : ℕ) : ℤ) - 1) (n : ℤ)) = (n : ℤ) := by
      rw [min_eq_right (by norm_num <;> omega), max_eq_right (by norm_num <;> omega)]
    rw [this, BitVec.ofInt_natCast]
  · have := Int.floor_le r
    rw [hn] at this
    exact_mod_cast this
  · have := Int.lt_floor_add_one r
    rw [hn] at this
    exact_mod_cast this

/-- A selection on an equality test of two words is an if-then-else on their equality. -/
theorem select_cmpi_eq (a b : BitVec 32) (p q : EReal) :
    Scalar.select (IntOp.cmpi .eq a b) p q = if a = b then p else q := by
  unfold Scalar.select IntOp.cmpi
  by_cases h : a = b
  · subst h; simp
  · have hb : (a == b) = false := by simpa using h
    simp [h, hb]

/-- Small natural numbers are told apart by their 32-bit words. -/
theorem ofNat32_inj {i n : ℕ} (hi : i < 4294967296) (hn : n < 4294967296) :
    BitVec.ofNat 32 i = BitVec.ofNat 32 n ↔ i = n := by
  constructor
  · intro h
    have := congrArg BitVec.toNat h
    rw [BitVec.toNat_ofNat, BitVec.toNat_ofNat, Nat.mod_eq_of_lt (by norm_num; omega),
      Nat.mod_eq_of_lt (by norm_num; omega)] at this
    exact this
  · rintro rfl; rfl

/-- Below 32 the signed minimum of n + 1 and 32 is n + 1 (at n = 31 both are 32). -/
theorem minsi_succ (n : ℕ) (hn : n < 32) :
    IntOp.minsi (IntOp.addi (BitVec.ofNat 32 n) 1#32) 32#32 = BitVec.ofNat 32 n + 1#32 := by
  unfold IntOp.minsi IntOp.addi
  split_ifs with h
  · rfl
  · have h31 : n = 31 := by
      by_contra hne
      apply h
      rw [BitVec.slt_iff_toInt_lt, BitVec.ofNat_add_ofNat, BitVec.toInt_eq_toNat_of_lt, BitVec.toInt_eq_toNat_of_lt]
      · simp [BitVec.toNat_ofNat]; omega
      · simp
      · simp [BitVec.toNat_ofNat]; omega
    subst h31; decide

end Cert.Lut

end
-- ==== Proof.LawReal.lean ====
/-
  The algebra of the law, over the real numbers.

  A "two-point weight" on the 33 grid lines is a vector with the value p at the line a plus the value p' at the line
  a'. A sum against a two-point weight has two terms; contracting a table F against three such weights therefore
  gives eight terms, which distributivity arranges as linear interpolation along the first, then the second, then
  the third axis. The flat index kk < 1089 of the kernel's matrix columns is the pair (kk / 33, kk % 33).
-/
import proofs.«156492_j2448131359063_2_alg».proof.Proof.Spec

noncomputable section

namespace Cert.Lut

/-- The value p at the line a plus the value p' at the line a'. -/
def hatR (a a' : Fin 33) (p p' : ℝ) (i : Fin 33) : ℝ := (if i = a then p else 0) + (if i = a' then p' else 0)

/-- A sum over the flat index kk < 33 * 33 of a function of (kk / 33, kk % 33) is the double sum. -/
theorem sum_fin1089 {M : Type*} [AddCommMonoid M] (G : Fin 33 → Fin 33 → M) :
    ∑ kk : Fin 1089, G ⟨kk.val / 33, by omega⟩ ⟨kk.val % 33, by omega⟩ = ∑ j : Fin 33, ∑ k : Fin 33, G j k := by
  rw [← Fintype.sum_prod_type']
  exact Fintype.sum_equiv (finProdFinEquiv (m := 33) (n := 33)).symm _ _ (fun kk => rfl)

/-- A sum against a two-point weight has two terms. -/
theorem sum_two_point (a a' : Fin 33) (p p' : ℝ) (G : Fin 33 → ℝ) :
    ∑ i : Fin 33, hatR a a' p p' i * G i = p * G a + p' * G a' := by
  simp only [hatR, add_mul, ite_mul, zero_mul, Finset.sum_add_distrib, Finset.sum_ite_eq', Finset.mem_univ, if_true]

/-- The contraction of a table against three two-point weights is the three-fold linear interpolation. -/
theorem law_real (F : Fin 33 → Fin 33 → Fin 33 → ℝ) (a a' b b' c c' : Fin 33) (p p' q q' s s' : ℝ) :
    ∑ i : Fin 33, hatR a a' p p' i * ∑ j : Fin 33, ∑ k : Fin 33, F i j k * (hatR b b' q q' j * hatR c c' s s' k)
      = ((F a b c * p + F a' b c * p') * q + (F a b' c * p + F a' b' c * p') * q') * s
        + ((F a b c' * p + F a' b c' * p') * q + (F a b' c' * p + F a' b' c' * p') * q') * s' := by
  have h2 : ∀ i j, ∑ k : Fin 33, F i j k * (hatR b b' q q' j * hatR c c' s s' k)
      = hatR b b' q q' j * (s * F i j c + s' * F i j c') := by
    intro i j
    rw [← sum_two_point c c' s s' (fun k => F i j k), Finset.mul_sum]
    exact Finset.sum_congr rfl (fun k _ => by ring)
  simp only [h2, sum_two_point]
  ring

end Cert.Lut

end
-- ==== Proof.LawCoe.lean ====
/-
  The hat weights and the table reads of the specification, as coercions of real numbers.

  With the cell of u the word of n < 32, the upper cell the word of n + 1 and the fractional part a real f, the hat
  weight of grid line i is the real two-point weight (1 - f at n, f at n + 1); a table read at three such words is
  the table entry at the three numbers.
-/
import proofs.«156492_j2448131359063_2_alg».proof.Proof.CoordCell
import proofs.«156492_j2448131359063_2_alg».proof.Proof.LawReal

noncomputable section

namespace Cert.Lut

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One colour value's coordinate data: its two grid lines, its real fractional part, and its hat weights. -/
theorem hat_coe (u : EReal) : ∃ (a a' : Fin 33) (f : ℝ), a.val = (cell u).toNat ∧ a'.val = (cellUp u).toNat
    ∧ frac u = (f : EReal)
    ∧ ∀ i : Fin 33, hat (BitVec.ofNat 32 i.val) u = ((hatR a a' (1 - f) f i : ℝ) : EReal) := by
  obtain ⟨r, n, hr, hn, hc, -, -⟩ := cell_spec u
  have hup : cellUp u = BitVec.ofNat 32 (n + 1) := by
    unfold cellUp
    rw [hc, minsi_succ n hn, BitVec.ofNat_add_ofNat]
  have hf : frac u = ((r - (((cell u).toInt : ℤ) : ℝ) : ℝ) : EReal) := by unfold frac; rw [hr, EReal.coe_sub]
  refine ⟨⟨n, by omega⟩, ⟨n + 1, by omega⟩, _, ?_, ?_, hf, ?_⟩
  · rw [hc, BitVec.toNat_ofNat, Nat.mod_eq_of_lt (by norm_num; omega)]
  · rw [hup, BitVec.toNat_ofNat, Nat.mod_eq_of_lt (by norm_num; omega)]
  · intro i
    have h1 : (BitVec.ofNat 32 i.val = BitVec.ofNat 32 n) ↔ i = ⟨n, by omega⟩ := by
      rw [ofNat32_inj (by omega) (by omega), Fin.ext_iff]
    have h2 : (BitVec.ofNat 32 i.val = BitVec.ofNat 32 (n + 1)) ↔ i = ⟨n + 1, by omega⟩ := by
      rw [ofNat32_inj (by omega) (by omega), Fin.ext_iff]
    unfold hat hatR
    rw [select_cmpi_eq, select_cmpi_eq, hf, hc, hup, wOne_coe, wZero_coe, ← EReal.coe_sub, EReal.coe_add]
    simp only [h1, h2]
    split_ifs <;> rfl

/-- A table read at three words that are grid lines is the table entry. -/
theorem lutAt_eq (L : Fin 33 → Fin 33 → Fin 33 → EReal) (A B C : BitVec 32) (a b c : Fin 33)
    (ha : a.val = A.toNat) (hb : b.val = B.toNat) (hc : c.val = C.toNat) : lutAt L A B C = L a b c := by
  obtain ⟨a, ha'⟩ := a
  obtain ⟨b, hb'⟩ := b
  obtain ⟨c, hc'⟩ := c
  simp only at ha hb hc
  subst ha hb hc
  unfold lutAt
  rw [dif_pos ⟨ha', hb', hc'⟩]

end Cert.Lut

end
-- ==== Proof.Coord.lean ====
/-
  Facts about the grid coordinate of a colour value, and the law that joins the two programs.

  For EVERY extended real u (infinite ones included) the grid coordinate g(u) = min(hi, max(0, u * 32)) is a real
  number in [0, 32): so the cell is one of 0..31, the upper cell is the cell plus one (the cap at 32 never binds),
  and the fractional part is a real number. With a finite table the kernel's contraction against the three hat
  vectors then collapses, by distributivity in the reals, to the reference's eight-corner interpolation.
-/
import proofs.«156492_j2448131359063_2_alg».proof.Proof.LawCoe

noncomputable section

namespace Cert.Lut

open Idealize.ShloMosaic

theorem wOne_eq : wOne = 1 := by
  rw [wOne_coe]; rfl

theorem wZero_eq : wZero = 0 := by
  rw [wZero_coe]; rfl

/-- The grid coordinate is a real number in [0, 32), whatever the colour value. -/
theorem gridc_real (u : EReal) : ∃ r : ℝ, gridc u = (r : EReal) ∧ 0 ≤ r ∧ r < 32 := by
  exact gridc_bounds u

/-- The cell is one of 0 … 31. -/
theorem cell_toNat_lt (u : EReal) : (cell u).toNat < 32 := by
  obtain ⟨r, n, -, hn, hc, -, -⟩ := cell_spec u
  rw [hc, BitVec.toNat_ofNat, Nat.mod_eq_of_lt (by norm_num; omega)]
  exact hn

/-- The cap at the last grid line never binds. -/
theorem cellUp_eq (u : EReal) : cellUp u = cell u + 1#32 := by
  obtain ⟨r, n, -, hn, hc, -, -⟩ := cell_spec u
  unfold cellUp
  rw [hc]
  exact minsi_succ n hn

theorem cellUp_toNat (u : EReal) : (cellUp u).toNat = (cell u).toNat + 1 := by
  obtain ⟨r, n, -, hn, hc, -, -⟩ := cell_spec u
  rw [cellUp_eq, hc, BitVec.ofNat_add_ofNat, BitVec.toNat_ofNat, BitVec.toNat_ofNat,
    Nat.mod_eq_of_lt (by norm_num; omega), Nat.mod_eq_of_lt (by norm_num; omega)]

/-- The position inside the cell is a real number. -/
theorem frac_real (u : EReal) : ∃ r : ℝ, frac u = (r : EReal) := by
  obtain ⟨r, hr, -, -⟩ := gridc_bounds u
  exact ⟨r - (((cell u).toInt : ℤ) : ℝ), by unfold frac; rw [hr, EReal.coe_sub]⟩

/-- THE LAW: for a finite table, the contraction against the hat vectors is the eight-corner interpolation. `T` is
    the table of channel `ch` laid out as the kernel's matrix: row `ch * 33 + i`, column `j * 33 + k`. -/
theorem kernelVal_eq_refVal (x y z : EReal) (L : Fin 33 → Fin 33 → Fin 33 → EReal)
    (hL : ∀ i j k, ∃ r : ℝ, L i j k = (r : EReal)) (T : Fin 99 → Fin 1089 → EReal) (ch : Fin 3)
    (hT : ∀ (i : Fin 33) (kk : Fin 1089),
      T ⟨ch.val * 33 + i.val, by omega⟩ kk = L i ⟨kk.val / 33, by omega⟩ ⟨kk.val % 33, by omega⟩) :
    kernelVal x y z T ch = refVal x y z L := by
  obtain ⟨a, a', f, ha, ha', hf, hhx⟩ := hat_coe x
  obtain ⟨b, b', g, hb, hb', hg, hhy⟩ := hat_coe y
  obtain ⟨c, c', e, hc, hc', he, hhz⟩ := hat_coe z
  choose Lr hLr using hL
  -- the kernel's side: the flat column index becomes a pair, and every factor is a real number
  have hin : ∀ i : Fin 33, (∑ kk : Fin 1089, T ⟨ch.val * 33 + i.val, by omega⟩ kk *
      (hat (BitVec.ofNat 32 (kk.val / 33)) y * hat (BitVec.ofNat 32 (kk.val % 33)) z))
      = ∑ j : Fin 33, ∑ k : Fin 33, L i j k * (hat (BitVec.ofNat 32 j.val) y * hat (BitVec.ofNat 32 k.val) z) := by
    intro i
    simp only [hT]
    exact sum_fin1089 (fun j k => L i j k * (hat (BitVec.ofNat 32 j.val) y * hat (BitVec.ofNat 32 k.val) z))
  have hk : kernelVal x y z T ch
      = ((∑ i : Fin 33, hatR a a' (1 - f) f i * ∑ j : Fin 33, ∑ k : Fin 33,
          Lr i j k * (hatR b b' (1 - g) g j * hatR c c' (1 - e) e k) : ℝ) : EReal) := by
    unfold kernelVal
    simp only [hin, hhx, hhy, hhz, hLr, ← EReal.coe_mul, ← coe_sum]
  -- the reference's side: the eight reads are table entries, and every factor is a real number
  rw [hk]
  unfold refVal
  rw [lutAt_eq L _ _ _ a b c ha hb hc, lutAt_eq L _ _ _ a' b c ha' hb hc,
    lutAt_eq L _ _ _ a b' c ha hb' hc, lutAt_eq L _ _ _ a' b' c ha' hb' hc,
    lutAt_eq L _ _ _ a b c' ha hb hc', lutAt_eq L _ _ _ a' b c' ha' hb hc',
    lutAt_eq L _ _ _ a b' c' ha hb' hc', lutAt_eq L _ _ _ a' b' c' ha' hb' hc']
  rw [hf, hg, he, wOne_coe]
  simp only [hLr, ← EReal.coe_sub, ← EReal.coe_mul, ← EReal.coe_add]
  rw [law_real]

end Cert.Lut

end
-- ==== Proof.RefValueCoord.lean ====
/-
  The reference's coordinate stage, read at an index.

  At every index of the [8, 1024, 1024, 3] coordinate arrays the clipped grid coordinate, its integer part, the
  capped next grid line and the fractional part are the specification's `gridc`, `cell`, `cellUp`, `frac` of the
  image value at the transposed index. Hence every entry of the six per-pixel grid-line arrays [8, 1024, 1024] is at
  most 32, and at pixel (b, h, w) they are the cells and upper cells of the pixel's three colour values; the
  fractional parts' slices, kept as [8, 1024, 1024, 1], are the three `frac`s.
-/
import proofs.«156492_j2448131359063_2_alg».proof.Proof.RefRead
import proofs.«156492_j2448131359063_2_alg».proof.Proof.Spec
import proofs.«156492_j2448131359063_2_alg».proof.Proof.Coord

noncomputable section

namespace Cert.Lut.Ref

open Cert.ReferenceIdeal Cert.ReferenceIdeal.Gen Cert.ReferenceIdeal.Read Idealize.ShloMosaic Idealize.ShloMosaic.ValueIdx

variable (img : (⟨S8x3x1024x1024, .f32⟩ : BufTy).Contents (Elt Ideal))

/-! ## The four coordinate arrays at any index -/

/-- The clipped grid coordinate. -/
theorem v3_eq (k : S8x1024x1024x3.Idx) : val_main_v3 (F := Ideal) img k = gridc (img (idx_main_v0 k)) := by
  rw [val_main_v3_apply, val_main_call0_v4_apply, val_main_call0_v3_apply, val_main_cst_1_apply,
    val_main_call0_v2_apply, val_main_call0_v1_apply, val_main_call0_v0_apply, val_main_cst_0_apply,
    val_main_v2_apply, val_main_v0_apply, val_main_v1_apply, val_main_cst_apply]
  rfl

/-- Its integer part, as a word. -/
theorem v5_eq (k : S8x1024x1024x3.Idx) : val_main_v5 (F := Ideal) img k = cell (img (idx_main_v0 k)) := by
  rw [val_main_v5_apply, val_main_v4_apply, v3_eq]
  rfl

/-- The next grid line, capped at 32. -/
theorem v9_eq (k : S8x1024x1024x3.Idx) : val_main_v9 (F := Ideal) img k = cellUp (img (idx_main_v0 k)) := by
  rw [val_main_v9_apply, val_main_v7_apply, v5_eq, val_main_v6_apply, val_main_c_apply, val_main_v8_apply,
    val_main_c_2_apply]
  rfl

/-- The fractional part. -/
theorem v11_eq (k : S8x1024x1024x3.Idx) : val_main_v11 (F := Ideal) img k = frac (img (idx_main_v0 k)) := by
  rw [val_main_v11_apply, v3_eq, val_main_v10_apply, v5_eq]
  rfl

/-- Every cell is at most 32 (in fact at most 31) … -/
theorem v5_le (k : S8x1024x1024x3.Idx) : (val_main_v5 (F := Ideal) img k).toNat ≤ 32 := by
  rw [v5_eq]
  have := cell_toNat_lt (img (idx_main_v0 k))
  omega

/-- … and so is every upper cell. -/
theorem v9_le (k : S8x1024x1024x3.Idx) : (val_main_v9 (F := Ideal) img k).toNat ≤ 32 := by
  rw [v9_eq, cellUp_toNat]
  have := cell_toNat_lt (img (idx_main_v0 k))
  omega

/-! ## The six per-pixel grid-line arrays -/

/-- The x cells are at most 32 everywhere. -/
theorem v17_le (j : S8x1024x1024.Idx) : (val_main_v17 (F := Ideal) img j).toNat ≤ 32 := by
  rw [val_main_v17_apply, val_main_v16_apply]
  exact v5_le img _

/-- Pixel (b, h, w) of that array reads the image at (b, 0, h, w). -/
theorem pix17 (b : Fin 8) (h w : Fin 1024) :
    idx_main_v0 (idx_main_v16 (idx_main_v17 (ix3 b h w))) = ix4 b (0 : Fin 3) h w := by
  have hb := b.isLt; have hh := h.isLt; have hw := w.isLt
  funext a; refine Fin.ext ?_
  match a with
  | ⟨0, _⟩ => show ((b.val * 1024 + h.val) * 1024 + w.val) / 1048576 = b.val; omega
  | ⟨1, _⟩ => rfl
  | ⟨2, _⟩ => show ((b.val * 1024 + h.val) * 1024 + w.val) / 1024 % 1024 = h.val; omega
  | ⟨3, _⟩ => show ((b.val * 1024 + h.val) * 1024 + w.val) / 1 % 1024 = w.val; omega

theorem v17_at (b : Fin 8) (h w : Fin 1024) :
    val_main_v17 (F := Ideal) img (ix3 b h w) = cell (img (ix4 b (0 : Fin 3) h w)) := by
  rw [val_main_v17_apply, val_main_v16_apply, v5_eq, pix17]

/-- The y cells are at most 32 everywhere. -/
theorem v19_le (j : S8x1024x1024.Idx) : (val_main_v19 (F := Ideal) img j).toNat ≤ 32 := by
  rw [val_main_v19_apply, val_main_v18_apply]
  exact v5_le img _

/-- Pixel (b, h, w) of that array reads the image at (b, 1, h, w). -/
theorem pix19 (b : Fin 8) (h w : Fin 1024) :
    idx_main_v0 (idx_main_v18 (idx_main_v19 (ix3 b h w))) = ix4 b (1 : Fin 3) h w := by
  have hb := b.isLt; have hh := h.isLt; have hw := w.isLt
  funext a; refine Fin.ext ?_
  match a with
  | ⟨0, _⟩ => show ((b.val * 1024 + h.val) * 1024 + w.val) / 1048576 = b.val; omega
  | ⟨1, _⟩ => rfl
  | ⟨2, _⟩ => show ((b.val * 1024 + h.val) * 1024 + w.val) / 1024 % 1024 = h.val; omega
  | ⟨3, _⟩ => show ((b.val * 1024 + h.val) * 1024 + w.val) / 1 % 1024 = w.val; omega

theorem v19_at (b : Fin 8) (h w : Fin 1024) :
    val_main_v19 (F := Ideal) img (ix3 b h w) = cell (img (ix4 b (1 : Fin 3) h w)) := by
  rw [val_main_v19_apply, val_main_v18_apply, v5_eq, pix19]

/-- The z cells are at most 32 everywhere. -/
theorem v21_le (j : S8x1024x1024.Idx) : (val_main_v21 (F := Ideal) img j).toNat ≤ 32 := by
  rw [val_main_v21_apply, val_main_v20_apply]
  exact v5_le img _

/-- Pixel (b, h, w) of that array reads the image at (b, 2, h, w). -/
theorem pix21 (b : Fin 8) (h w : Fin 1024) :
    idx_main_v0 (idx_main_v20 (idx_main_v21 (ix3 b h w))) = ix4 b (2 : Fin 3) h w := by
  have hb := b.isLt; have hh := h.isLt; have hw := w.isLt
  funext a; refine Fin.ext ?_
  match a with
  | ⟨0, _⟩ => show ((b.val * 1024 + h.val) * 1024 + w.val) / 1048576 = b.val; omega
  | ⟨1, _⟩ => rfl
  | ⟨2, _⟩ => show ((b.val * 1024 + h.val) * 1024 + w.val) / 1024 % 1024 = h.val; omega
  | ⟨3, _⟩ => show ((b.val * 1024 + h.val) * 1024 + w.val) / 1 % 1024 = w.val; omega

theorem v21_at (b : Fin 8) (h w : Fin 1024) :
    val_main_v21 (F := Ideal) img (ix3 b h w) = cell (img (ix4 b (2 : Fin 3) h w)) := by
  rw [val_main_v21_apply, val_main_v20_apply, v5_eq, pix21]

/-- The x upper cells are at most 32 everywhere. -/
theorem v23_le (j : S8x1024x1024.Idx) : (val_main_v23 (F := Ideal) img j).toNat ≤ 32 := by
  rw [val_main_v23_apply, val_main_v22_apply]
  exact v9_le img _

/-- Pixel (b, h, w) of that array reads the image at (b, 0, h, w). -/
theorem pix23 (b : Fin 8) (h w : Fin 1024) :
    idx_main_v0 (idx_main_v22 (idx_main_v23 (ix3 b h w))) = ix4 b (0 : Fin 3) h w := by
  have hb := b.isLt; have hh := h.isLt; have hw := w.isLt
  funext a; refine Fin.ext ?_
  match a with
  | ⟨0, _⟩ => show ((b.val * 1024 + h.val) * 1024 + w.val) / 1048576 = b.val; omega
  | ⟨1, _⟩ => rfl
  | ⟨2, _⟩ => show ((b.val * 1024 + h.val) * 1024 + w.val) / 1024 % 1024 = h.val; omega
  | ⟨3, _⟩ => show ((b.val * 1024 + h.val) * 1024 + w.val) / 1 % 1024 = w.val; omega

theorem v23_at (b : Fin 8) (h w : Fin 1024) :
    val_main_v23 (F := Ideal) img (ix3 b h w) = cellUp (img (ix4 b (0 : Fin 3) h w)) := by
  rw [val_main_v23_apply, val_main_v22_apply, v9_eq, pix23]

/-- The y upper cells are at most 32 everywhere. -/
theorem v25_le (j : S8x1024x1024.Idx) : (val_main_v25 (F := Ideal) img j).toNat ≤ 32 := by
  rw [val_main_v25_apply, val_main_v24_apply]
  exact v9_le img _

/-- Pixel (b, h, w) of that array reads the image at (b, 1, h, w). -/
theorem pix25 (b : Fin 8) (h w : Fin 1024) :
    idx_main_v0 (idx_main_v24 (idx_main_v25 (ix3 b h w))) = ix4 b (1 : Fin 3) h w := by
  have hb := b.isLt; have hh := h.isLt; have hw := w.isLt
  funext a; refine Fin.ext ?_
  match a with
  | ⟨0, _⟩ => show ((b.val * 1024 + h.val) * 1024 + w.val) / 1048576 = b.val; omega
  | ⟨1, _⟩ => rfl
  | ⟨2, _⟩ => show ((b.val * 1024 + h.val) * 1024 + w.val) / 1024 % 1024 = h.val; omega
  | ⟨3, _⟩ => show ((b.val * 1024 + h.val) * 1024 + w.val) / 1 % 1024 = w.val; omega

theorem v25_at (b : Fin 8) (h w : Fin 1024) :
    val_main_v25 (F := Ideal) img (ix3 b h w) = cellUp (img (ix4 b (1 : Fin 3) h w)) := by
  rw [val_main_v25_apply, val_main_v24_apply, v9_eq, pix25]

/-- The z upper cells are at most 32 everywhere. -/
theorem v27_le (j : S8x1024x1024.Idx) : (val_main_v27 (F := Ideal) img j).toNat ≤ 32 := by
  rw [val_main_v27_apply, val_main_v26_apply]
  exact v9_le img _

/-- Pixel (b, h, w) of that array reads the image at (b, 2, h, w). -/
theorem pix27 (b : Fin 8) (h w : Fin 1024) :
    idx_main_v0 (idx_main_v26 (idx_main_v27 (ix3 b h w))) = ix4 b (2 : Fin 3) h w := by
  have hb := b.isLt; have hh := h.isLt; have hw := w.isLt
  funext a; refine Fin.ext ?_
  match a with
  | ⟨0, _⟩ => show ((b.val * 1024 + h.val) * 1024 + w.val) / 1048576 = b.val; omega
  | ⟨1, _⟩ => rfl
  | ⟨2, _⟩ => show ((b.val * 1024 + h.val) * 1024 + w.val) / 1024 % 1024 = h.val; omega
  | ⟨3, _⟩ => show ((b.val * 1024 + h.val) * 1024 + w.val) / 1 % 1024 = w.val; omega

theorem v27_at (b : Fin 8) (h w : Fin 1024) :
    val_main_v27 (F := Ideal) img (ix3 b h w) = cellUp (img (ix4 b (2 : Fin 3) h w)) := by
  rw [val_main_v27_apply, val_main_v26_apply, v9_eq, pix27]

/-! ## The three fractional parts, as the interpolation reads them: broadcast along the channel axis -/

/-- The x slice of the fractional parts at (b, h, w, 0) reads the image at (b, 0, h, w). -/
theorem fpix12 (b : Fin 8) (h w : Fin 1024) :
    idx_main_v0 (idx_main_v12 (ix4 b h w (0 : Fin 1))) = ix4 b (0 : Fin 3) h w := by
  funext a; refine Fin.ext ?_
  match a with
  | ⟨0, _⟩ => rfl
  | ⟨1, _⟩ => rfl
  | ⟨2, _⟩ => rfl
  | ⟨3, _⟩ => rfl

theorem v12_at (b : Fin 8) (h w : Fin 1024) :
    val_main_v12 (F := Ideal) img (ix4 b h w (0 : Fin 1)) = frac (img (ix4 b (0 : Fin 3) h w)) := by
  rw [val_main_v12_apply, v11_eq, fpix12]

/-- The y slice of the fractional parts at (b, h, w, 0) reads the image at (b, 1, h, w). -/
theorem fpix13 (b : Fin 8) (h w : Fin 1024) :
    idx_main_v0 (idx_main_v13 (ix4 b h w (0 : Fin 1))) = ix4 b (1 : Fin 3) h w := by
  funext a; refine Fin.ext ?_
  match a with
  | ⟨0, _⟩ => rfl
  | ⟨1, _⟩ => rfl
  | ⟨2, _⟩ => rfl
  | ⟨3, _⟩ => rfl

theorem v13_at (b : Fin 8) (h w : Fin 1024) :
    val_main_v13 (F := Ideal) img (ix4 b h w (0 : Fin 1)) = frac (img (ix4 b (1 : Fin 3) h w)) := by
  rw [val_main_v13_apply, v11_eq, fpix13]

/-- The z slice of the fractional parts at (b, h, w, 0) reads the image at (b, 2, h, w). -/
theorem fpix14 (b : Fin 8) (h w : Fin 1024) :
    idx_main_v0 (idx_main_v14 (ix4 b h w (0 : Fin 1))) = ix4 b (2 : Fin 3) h w := by
  funext a; refine Fin.ext ?_
  match a with
  | ⟨0, _⟩ => rfl
  | ⟨1, _⟩ => rfl
  | ⟨2, _⟩ => rfl
  | ⟨3, _⟩ => rfl

theorem v14_at (b : Fin 8) (h w : Fin 1024) :
    val_main_v14 (F := Ideal) img (ix4 b h w (0 : Fin 1)) = frac (img (ix4 b (2 : Fin 3) h w)) := by
  rw [val_main_v14_apply, v11_eq, fpix14]

/-- A [8, 1024, 1024, 1] array broadcast along the channel axis reads, at (b, h, w, ch), its entry (b, h, w, 0). -/
theorem bpix (b : Fin 8) (h w : Fin 1024) (ch : Fin 3) : idx_main_v102 (ix4 b h w ch) = ix4 b h w (0 : Fin 1) := by
  funext a; refine Fin.ext ?_
  match a with
  | ⟨0, _⟩ => rfl
  | ⟨1, _⟩ => rfl
  | ⟨2, _⟩ => rfl
  | ⟨3, _⟩ => rfl

/-- The result's index (b, ch, h, w) reads the interpolation at (b, h, w, ch). -/
theorem tpix (b : Fin 8) (ch : Fin 3) (h w : Fin 1024) : idx_main_v149 (ix4 b ch h w) = ix4 b h w ch := by
  funext a; refine Fin.ext ?_
  match a with
  | ⟨0, _⟩ => rfl
  | ⟨1, _⟩ => rfl
  | ⟨2, _⟩ => rfl
  | ⟨3, _⟩ => rfl

/-! ## The fourteen interpolation weights at (b, h, w, ch) -/

theorem v102_at (b : Fin 8) (h w : Fin 1024) (ch : Fin 3) :
    val_main_v102 (F := Ideal) img (ix4 b h w ch) = wOne - frac (img (ix4 b (0 : Fin 3) h w)) := by
  rw [val_main_v102_apply, show idx_main_v102 (ix4 b h w ch) = ix4 b h w (0 : Fin 1) from bpix b h w ch,
    val_main_v101_apply, val_main_v100_apply, val_main_cst_19_apply, v12_at]
  rfl

theorem v109_at (b : Fin 8) (h w : Fin 1024) (ch : Fin 3) :
    val_main_v109 (F := Ideal) img (ix4 b h w ch) = wOne - frac (img (ix4 b (0 : Fin 3) h w)) := by
  rw [val_main_v109_apply, show idx_main_v109 (ix4 b h w ch) = ix4 b h w (0 : Fin 1) from bpix b h w ch,
    val_main_v108_apply, val_main_v107_apply, val_main_cst_20_apply, v12_at]
  rfl

theorem v116_at (b : Fin 8) (h w : Fin 1024) (ch : Fin 3) :
    val_main_v116 (F := Ideal) img (ix4 b h w ch) = wOne - frac (img (ix4 b (0 : Fin 3) h w)) := by
  rw [val_main_v116_apply, show idx_main_v116 (ix4 b h w ch) = ix4 b h w (0 : Fin 1) from bpix b h w ch,
    val_main_v115_apply, val_main_v114_apply, val_main_cst_21_apply, v12_at]
  rfl

theorem v123_at (b : Fin 8) (h w : Fin 1024) (ch : Fin 3) :
    val_main_v123 (F := Ideal) img (ix4 b h w ch) = wOne - frac (img (ix4 b (0 : Fin 3) h w)) := by
  rw [val_main_v123_apply, show idx_main_v123 (ix4 b h w ch) = ix4 b h w (0 : Fin 1) from bpix b h w ch,
    val_main_v122_apply, val_main_v121_apply, val_main_cst_22_apply, v12_at]
  rfl

theorem v130_at (b : Fin 8) (h w : Fin 1024) (ch : Fin 3) :
    val_main_v130 (F := Ideal) img (ix4 b h w ch) = wOne - frac (img (ix4 b (1 : Fin 3) h w)) := by
  rw [val_main_v130_apply, show idx_main_v130 (ix4 b h w ch) = ix4 b h w (0 : Fin 1) from bpix b h w ch,
    val_main_v129_apply, val_main_v128_apply, val_main_cst_23_apply, v13_at]
  rfl

theorem v137_at (b : Fin 8) (h w : Fin 1024) (ch : Fin 3) :
    val_main_v137 (F := Ideal) img (ix4 b h w ch) = wOne - frac (img (ix4 b (1 : Fin 3) h w)) := by
  rw [val_main_v137_apply, show idx_main_v137 (ix4 b h w ch) = ix4 b h w (0 : Fin 1) from bpix b h w ch,
    val_main_v136_apply, val_main_v135_apply, val_main_cst_24_apply, v13_at]
  rfl

theorem v144_at (b : Fin 8) (h w : Fin 1024) (ch : Fin 3) :
    val_main_v144 (F := Ideal) img (ix4 b h w ch) = wOne - frac (img (ix4 b (2 : Fin 3) h w)) := by
  rw [val_main_v144_apply, show idx_main_v144 (ix4 b h w ch) = ix4 b h w (0 : Fin 1) from bpix b h w ch,
    val_main_v143_apply, val_main_v142_apply, val_main_cst_25_apply, v14_at]
  rfl

theorem v104_at (b : Fin 8) (h w : Fin 1024) (ch : Fin 3) :
    val_main_v104 (F := Ideal) img (ix4 b h w ch) = frac (img (ix4 b (0 : Fin 3) h w)) := by
  rw [val_main_v104_apply, show idx_main_v104 (ix4 b h w ch) = ix4 b h w (0 : Fin 1) from bpix b h w ch, v12_at]

theorem v111_at (b : Fin 8) (h w : Fin 1024) (ch : Fin 3) :
    val_main_v111 (F := Ideal) img (ix4 b h w ch) = frac (img (ix4 b (0 : Fin 3) h w)) := by
  rw [val_main_v111_apply, show idx_main_v111 (ix4 b h w ch) = ix4 b h w (0 : Fin 1) from bpix b h w ch, v12_at]

theorem v118_at (b : Fin 8) (h w : Fin 1024) (ch : Fin 3) :
    val_main_v118 (F := Ideal) img (ix4 b h w ch) = frac (img (ix4 b (0 : Fin 3) h w)) := by
  rw [val_main_v118_apply, show idx_main_v118 (ix4 b h w ch) = ix4 b h w (0 : Fin 1) from bpix b h w ch, v12_at]

theorem v125_at (b : Fin 8) (h w : Fin 1024) (ch : Fin 3) :
    val_main_v125 (F := Ideal) img (ix4 b h w ch) = frac (img (ix4 b (0 : Fin 3) h w)) := by
  rw [val_main_v125_apply, show idx_main_v125 (ix4 b h w ch) = ix4 b h w (0 : Fin 1) from bpix b h w ch, v12_at]

theorem v132_at (b : Fin 8) (h w : Fin 1024) (ch : Fin 3) :
    val_main_v132 (F := Ideal) img (ix4 b h w ch) = frac (img (ix4 b (1 : Fin 3) h w)) := by
  rw [val_main_v132_apply, show idx_main_v132 (ix4 b h w ch) = ix4 b h w (0 : Fin 1) from bpix b h w ch, v13_at]

theorem v139_at (b : Fin 8) (h w : Fin 1024) (ch : Fin 3) :
    val_main_v139 (F := Ideal) img (ix4 b h w ch) = frac (img (ix4 b (1 : Fin 3) h w)) := by
  rw [val_main_v139_apply, show idx_main_v139 (ix4 b h w ch) = ix4 b h w (0 : Fin 1) from bpix b h w ch, v13_at]

theorem v146_at (b : Fin 8) (h w : Fin 1024) (ch : Fin 3) :
    val_main_v146 (F := Ideal) img (ix4 b h w ch) = frac (img (ix4 b (2 : Fin 3) h w)) := by
  rw [val_main_v146_apply, show idx_main_v146 (ix4 b h w ch) = ix4 b h w (0 : Fin 1) from bpix b h w ch, v14_at]

end Cert.Lut.Ref

end
-- ==== Proof.RefValueTake.lean ====
/-
  Taking rows of the flat table, read at an index.

  The reference gathers a corner of a pixel's cell from the table laid out flat as [8, 35937, 3]: the row
  index of grid lines (a, b, c) is (a * 33 + b) * 33 + c, a 32-bit word. With a, b, c at most 32 this word is at
  most 35936 and non-negative as a signed integer, so the take's negative-index wrap leaves it alone, its
  in-bounds mask holds at every position, the fill value is never selected, and the gather's clamp is the
  identity: the result at (batch, pixel, channel) is the flat table at (batch, that row, channel).

  Everything here is stated over VARIABLES (a flat table `lf`, three arrays of grid lines `a b c`), once; the
  eight corners instantiate it.
-/
import proofs.«156492_j2448131359063_2_alg».proof.Proof.Gen.ReferenceIdeal
import Idealize.ShloMosaic.Lib.ValueIdx
import Idealize.ShloMosaic.PureOps.Reduce
import Idealize.ShloMosaic.Lib.Pipeline.Value

noncomputable section

namespace Cert.Lut.Ref

open Cert.ReferenceIdeal Cert.ReferenceIdeal.Gen Idealize.ShloMosaic Idealize.ShloMosaic.ValueIdx

/-! ## Words: the flat row index and the three comparisons of the take -/

/-- The flat table index of three grid lines, in 32-bit words. -/
def flat (a b c : BitVec 32) : BitVec 32 := IntOp.addi (IntOp.muli (IntOp.addi (IntOp.muli a 33#32) b) 33#32) c

/-- With every grid line at most 32 the arithmetic does not wrap. -/
theorem flat_toNat (a b c : BitVec 32) (ha : a.toNat ≤ 32) (hb : b.toNat ≤ 32) (hc : c.toNat ≤ 32) :
    (flat a b c).toNat = (a.toNat * 33 + b.toNat) * 33 + c.toNat := by
  unfold flat IntOp.addi IntOp.muli
  rw [BitVec.toNat_add, BitVec.toNat_mul, BitVec.toNat_add, BitVec.toNat_mul]
  simp only [BitVec.toNat_ofNat]
  omega

/-- A word below 2³¹ read signed is its natural number. -/
theorem toInt_of_small (n : BitVec 32) (h : n.toNat < 2147483648) : n.toInt = (n.toNat : Int) := by
  rw [BitVec.toInt_eq_toNat_cond, if_pos (by omega)]

/-- Such a word is not negative … -/
theorem cmpi_slt_zero (n : BitVec 32) (h : n.toNat < 2147483648) : IntOp.cmpi .slt n 0#32 = 0#1 := by
  have h1 := toInt_of_small n h
  show BitVec.ofBool (n.slt 0#32) = 0#1
  have : n.slt 0#32 = false := by
    unfold BitVec.slt
    rw [h1]
    simp
  rw [this]; rfl

/-- … it is at least zero … -/
theorem cmpi_sge_zero (n : BitVec 32) (h : n.toNat < 2147483648) : IntOp.cmpi .sge n 0#32 = 1#1 := by
  have h1 := toInt_of_small n h
  show BitVec.ofBool ((0#32).sle n) = 1#1
  have : (0#32).sle n = true := by
    unfold BitVec.sle
    rw [h1]
    simp
  rw [this]; rfl

/-- … and a word at most 35936 is at most the last row. -/
theorem cmpi_sle_max (n : BitVec 32) (h : n.toNat ≤ 35936) : IntOp.cmpi .sle n 35936#32 = 1#1 := by
  have h1 := toInt_of_small n (by omega)
  show BitVec.ofBool (n.sle 35936#32) = 1#1
  have : n.sle 35936#32 = true := by
    unfold BitVec.sle
    rw [h1, toInt_of_small 35936#32 (by decide)]
    simp only [BitVec.toNat_ofNat]
    simp
    omega
  rw [this]; rfl

/-! ## The gather at an index -/

/-- The take's dimension numbers: batch axis 0 paired with the indices' axis 0, the row axis 1 indexed and collapsed,
    the channel axis 2 an offset axis of slice size 3. -/
abbrev gd : GatherDims S8x35937x3 S8x1048576x1 S8x1048576x3 := gather_S8x35937x3_S8x1048576x1_S8x1048576x3_2_1_0_0_1_2_113

/-- THE GATHER READ AT (batch, position, channel): the table at the same batch and channel, at the row the start
    index names, read signed and clamped into [0, 35936]. On each operand axis the index is the clamped start
    plus the batching coordinate plus the offset coordinate, and two of the three vanish. -/
theorem gather_at {α : Type} (lf : S8x35937x3.Idx → α) (idx : IVec S8x1048576x1 32) (b : Fin 8) (p : Fin 1048576)
    (c : Fin 3) :
    Host.gather gd lf idx (ix3 b p c)
      = lf (ix3 b ⟨min (idx (ix3 b p (0 : Fin 1))).toInt.toNat 35936, by omega⟩ c) := by
  unfold Host.gather
  congr 1
  funext a
  refine Fin.ext ?_
  match a with
  | ⟨0, h0⟩ =>
    show gd.start (ix3 b p c) idx ⟨0, h0⟩ + gd.batchCoord (ix3 b p c) ⟨0, h0⟩ + gd.offCoord (ix3 b p c) ⟨0, h0⟩ = b.val
    rw [GatherDims.start_batching _ _ _ _ (show (⟨0, h0⟩ : Fin S8x35937x3.rank) ∈ gd.operandBatchingDims from List.mem_singleton.mpr rfl),
      GatherDims.offCoord_eq_zero _ _ _ (fun h => ((GatherDims.mem_sKept _ _).mp h).2 (show (⟨0, h0⟩ : Fin S8x35937x3.rank) ∈ gd.operandBatchingDims from List.mem_singleton.mpr rfl))]
    simp only [Nat.zero_add, Nat.add_zero]
    unfold GatherDims.batchCoord
    rw [dif_pos (show (⟨0, h0⟩ : Fin S8x35937x3.rank) ∈ gd.operandBatchingDims from List.mem_singleton.mpr rfl)]
    rfl
  | ⟨1, h1⟩ =>
    show gd.start (ix3 b p c) idx ⟨1, h1⟩ + gd.batchCoord (ix3 b p c) ⟨1, h1⟩ + gd.offCoord (ix3 b p c) ⟨1, h1⟩ = min (idx (ix3 b p (0 : Fin 1))).toInt.toNat 35936
    rw [GatherDims.batchCoord_eq_zero _ _ _ (show (⟨1, by decide⟩ : Fin S8x35937x3.rank) ∉ gd.operandBatchingDims by decide),
      GatherDims.offCoord_eq_zero _ _ _ (fun h => ((GatherDims.mem_sKept _ _).mp h).1 (show (⟨1, h1⟩ : Fin S8x35937x3.rank) ∈ gd.collapsedSliceDims from List.mem_singleton.mpr rfl))]
    simp only [Nat.add_zero]
    unfold GatherDims.start
    rw [dif_pos (show (⟨1, h1⟩ : Fin S8x35937x3.rank) ∈ gd.startIndexMap from List.mem_singleton.mpr rfl)]
    have hsi : gd.siIdx (ix3 b p c) ⟨List.idxOf (⟨1, h1⟩ : Fin S8x35937x3.rank) gd.startIndexMap,
        List.idxOf_lt_length_iff.2 (List.mem_singleton.mpr rfl)⟩ = ix3 b p (0 : Fin 1) := by
      funext e; refine Fin.ext ?_
      match e with
      | ⟨0, _⟩ => rfl
      | ⟨1, _⟩ => rfl
      | ⟨2, _⟩ => rfl
    rw [hsi]
    rfl
  | ⟨2, h2⟩ =>
    show gd.start (ix3 b p c) idx ⟨2, h2⟩ + gd.batchCoord (ix3 b p c) ⟨2, h2⟩ + gd.offCoord (ix3 b p c) ⟨2, h2⟩ = c.val
    rw [GatherDims.batchCoord_eq_zero _ _ _ (show (⟨2, by decide⟩ : Fin S8x35937x3.rank) ∉ gd.operandBatchingDims by decide)]
    unfold GatherDims.start
    rw [dif_neg (show (⟨2, by decide⟩ : Fin S8x35937x3.rank) ∉ gd.startIndexMap by decide)]
    simp only [Nat.zero_add, Nat.add_zero]
    unfold GatherDims.offCoord
    rw [dif_pos (show (⟨2, by decide⟩ : Fin S8x35937x3.rank) ∈ gd.sKept by decide)]
    rfl

/-! ## The mask's reduction, and the take -/

/-- A left fold by `and` from 1 over words that are all 1 is 1. -/
theorem foldl_andi_one {ι : Type} (x : ι → BitVec 1) :
    ∀ l : List ι, (∀ i ∈ l, x i = 1#1) → l.foldl (fun r i => IntOp.andi r (x i)) 1#1 = 1#1
  | [], _ => rfl
  | a :: l, h => by
    rw [List.foldl_cons, h a (List.mem_cons_self ..), show IntOp.andi (1#1 : BitVec 1) 1#1 = 1#1 from by decide]
    exact foldl_andi_one x l (fun i hi => h i (List.mem_cons_of_mem _ hi))

/-- A reduce by `and` from 1 of an array of 1s is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x _ (fun i _ => hx i)

variable {F : FTy → Type} [FloatOps F]

/-- The start indices after the negative-index wrap: `n + 35937` where `n < 0`, else `n`. -/
def takeWrap (n : (⟨S8x1048576x1, .i32⟩ : BufTy).Contents (Elt F)) : (⟨S8x1048576x1, .i32⟩ : BufTy).Contents (Elt F) :=
  select (cmpi .slt n (broadcastInDim S8x1048576x1 ![] bcast_S_S8x1048576x1 (constantI S_ 32 0#32)))
    (addi n (broadcastInDim S8x1048576x1 ![] bcast_S_S8x1048576x1 (constantI S_ 32 35937#32))) n

/-- The in-bounds mask: `0 ≤ n' ≤ 35936`, reduced by `and` over the index vector's axis (of extent 1). -/
def takeMask (n' : (⟨S8x1048576x1, .i32⟩ : BufTy).Contents (Elt F)) : (⟨S8x1048576, .i1⟩ : BufTy).Contents (Elt F) :=
  Host.reduce IntOp.andi
    (andi (cmpi .sge n' (broadcastInDim S8x1048576x1 ![] bcast_S_S8x1048576x1 (constantI S_ 32 0#32)))
      (cmpi .sle n' (broadcastInDim S8x1048576x1 ![0, 1, 2] bcast_S1x1x1_S8x1048576x1_0_1_2
        (broadcastInDim S1x1x1 ![2] bcast_S1_S1x1x1_2 (constantI S1 32 35936#32)))))
    (constantI S_ 1 1#1) reducesTo_S8x1048576x1_S8x1048576_d2 h_S_

/-- Taking rows of the flat table along its middle axis, out-of-range rows filled: the gathered rows where the
    mask holds, the fill value elsewhere. -/
def take (lf : (⟨S8x35937x3, .f32⟩ : BufTy).Contents (Elt F)) (n : (⟨S8x1048576x1, .i32⟩ : BufTy).Contents (Elt F)) :
    (⟨S8x1048576x3, .f32⟩ : BufTy).Contents (Elt F) :=
  select (broadcastInDim S8x1048576x3 ![0, 1] bcast_S8x1048576_S8x1048576x3_0_1 (takeMask (F := F) (takeWrap (F := F) n)))
    (Host.gather gather_S8x35937x3_S8x1048576x1_S8x1048576x3_2_1_0_0_1_2_113 lf (takeWrap (F := F) n))
    (broadcastInDim S8x1048576x3 ![] bcast_S_S8x1048576x3 (constant S_ .f32 0x7FC00000#32))

/-- Indices that are all in range are not wrapped. -/
theorem takeWrap_eq (n : (⟨S8x1048576x1, .i32⟩ : BufTy).Contents (Elt F)) (hn : ∀ i, (n i).toNat ≤ 35936) :
    takeWrap (F := F) n = n := by
  funext i
  unfold takeWrap
  rw [select_apply]
  have h0 : cmpi .slt n (broadcastInDim S8x1048576x1 ![] bcast_S_S8x1048576x1 (constantI S_ 32 0#32)) i = 0#1 :=
    cmpi_slt_zero (n i) (by have := hn i; omega)
  rw [h0, select_zero]

/-- Indices that are all in range pass the mask everywhere. -/
theorem takeMask_eq (n : (⟨S8x1048576x1, .i32⟩ : BufTy).Contents (Elt F)) (hn : ∀ i, (n i).toNat ≤ 35936)
    (j : S8x1048576.Idx) : takeMask (F := F) n j = 1#1 := by
  unfold takeMask
  refine reduce_andi_one _ _ _ _ (fun i => ?_) (fun _ => rfl) j
  show IntOp.andi (IntOp.cmpi .sge (n i) 0#32) (IntOp.cmpi .sle (n i) 35936#32) = 1#1
  rw [cmpi_sge_zero (n i) (by have := hn i; omega), cmpi_sle_max (n i) (hn i)]
  decide

/-- THE TAKE READ AT AN INDEX: with every index in range, row `p` of batch `b` is the table's row `n[b, p, 0]`. -/
theorem take_apply (lf : (⟨S8x35937x3, .f32⟩ : BufTy).Contents (Elt F)) (n : (⟨S8x1048576x1, .i32⟩ : BufTy).Contents (Elt F))
    (hn : ∀ i, (n i).toNat ≤ 35936) (b : Fin 8) (p : Fin 1048576) (c : Fin 3) :
    take (F := F) lf n (ix3 b p c)
      = lf (ix3 b ⟨(n (ix3 b p (0 : Fin 1))).toNat, by have := hn (ix3 b p (0 : Fin 1)); omega⟩ c) := by
  unfold take
  rw [takeWrap_eq n hn, select_apply]
  have hm : broadcastInDim S8x1048576x3 ![0, 1] bcast_S8x1048576_S8x1048576x3_0_1 (takeMask (F := F) n) (ix3 b p c) = 1#1 :=
    takeMask_eq n hn _
  rw [hm, select_one]
  refine (gather_at lf n b p c).trans ?_
  have hk := hn (ix3 b p (0 : Fin 1))
  have e : min (n (ix3 b p (0 : Fin 1))).toInt.toNat 35936 = (n (ix3 b p (0 : Fin 1))).toNat := by
    rw [toInt_of_small _ (by omega)]
    simp only [Int.toNat_natCast]
    omega
  refine congrArg lf (funext fun a => Fin.ext ?_)
  match a with
  | ⟨0, _⟩ => rfl
  | ⟨1, _⟩ => exact e
  | ⟨2, _⟩ => rfl

/-! ## One corner -/

/-- The flat table index of every pixel from its three grid-line arrays. -/
def flatIdx (a b c : (⟨S8x1024x1024, .i32⟩ : BufTy).Contents (Elt F)) : (⟨S8x1024x1024, .i32⟩ : BufTy).Contents (Elt F) :=
  addi (muli (addi (muli a (broadcastInDim S8x1024x1024 ![] bcast_S_S8x1024x1024 (constantI S_ 32 33#32))) b)
    (broadcastInDim S8x1024x1024 ![] bcast_S_S8x1024x1024 (constantI S_ 32 33#32))) c

theorem flatIdx_apply (a b c : (⟨S8x1024x1024, .i32⟩ : BufTy).Contents (Elt F)) (j : S8x1024x1024.Idx) :
    flatIdx (F := F) a b c j = flat (a j) (b j) (c j) := rfl

/-- The same, laid out as the take's start indices `[8, 1048576, 1]`. -/
def idxArr (a b c : (⟨S8x1024x1024, .i32⟩ : BufTy).Contents (Elt F)) : (⟨S8x1048576x1, .i32⟩ : BufTy).Contents (Elt F) :=
  shapeCast _ (flatIdx (F := F) a b c) shapeCasts_S8x1024x1024_S8x1048576x1

/-- Grid lines that are all at most 32 give flat indices that are all in range. -/
theorem idxArr_le (a b c : (⟨S8x1024x1024, .i32⟩ : BufTy).Contents (Elt F)) (ha : ∀ j, (a j).toNat ≤ 32)
    (hb : ∀ j, (b j).toNat ≤ 32) (hc : ∀ j, (c j).toNat ≤ 32) (i : S8x1048576x1.Idx) :
    (idxArr (F := F) a b c i).toNat ≤ 35936 := by
  have key : ∀ j, (flatIdx (F := F) a b c j).toNat ≤ 35936 := fun j => by
    rw [flatIdx_apply, flat_toNat _ _ _ (ha j) (hb j) (hc j)]
    have := ha j; have := hb j; have := hc j; omega
  unfold idxArr shapeCast
  exact key _

/-- The start index of pixel `(h, w)` of batch `bb` is the flat index of its grid lines. -/
theorem idxArr_at (a b c : (⟨S8x1024x1024, .i32⟩ : BufTy).Contents (Elt F)) (bb : Fin 8) (h w : Fin 1024) :
    idxArr (F := F) a b c (ix3 bb (⟨h.val * 1024 + w.val, by have := h.isLt; have := w.isLt; omega⟩ : Fin 1048576) (0 : Fin 1))
      = flat (a (ix3 bb h w)) (b (ix3 bb h w)) (c (ix3 bb h w)) := by
  unfold idxArr
  refine (shapeCast_apply _ shapeCasts_S8x1024x1024_S8x1048576x1 _ (ix3 bb h w) ?_).trans (flatIdx_apply ..)
  rewrite [Shape.rowMajor_val_three, Shape.rowMajor_val_three]
  show (bb.val * 1024 + h.val) * 1024 + w.val = (bb.val * 1048576 + (h.val * 1024 + w.val)) * 1 + 0
  omega

/-- One corner: the table's rows taken at the pixels' flat indices, laid out per pixel `[8, 1024, 1024, 3]`. -/
def cornerArr (lf : (⟨S8x35937x3, .f32⟩ : BufTy).Contents (Elt F)) (a b c : (⟨S8x1024x1024, .i32⟩ : BufTy).Contents (Elt F)) :
    (⟨S8x1024x1024x3, .f32⟩ : BufTy).Contents (Elt F) :=
  shapeCast _ (take (F := F) lf (idxArr (F := F) a b c)) shapeCasts_S8x1048576x3_S8x1024x1024x3

/-- THE CORNER AT A PIXEL AND A CHANNEL: the flat table at row `(a · 33 + b) · 33 + c` of the pixel's grid lines. -/
theorem cornerArr_apply (lf : (⟨S8x35937x3, .f32⟩ : BufTy).Contents (Elt F))
    (a b c : (⟨S8x1024x1024, .i32⟩ : BufTy).Contents (Elt F)) (ha : ∀ j, (a j).toNat ≤ 32)
    (hb : ∀ j, (b j).toNat ≤ 32) (hc : ∀ j, (c j).toNat ≤ 32) (bb : Fin 8) (h w : Fin 1024) (ch : Fin 3) :
    cornerArr (F := F) lf a b c (ix4 bb h w ch)
      = lf (ix3 bb (⟨((a (ix3 bb h w)).toNat * 33 + (b (ix3 bb h w)).toNat) * 33 + (c (ix3 bb h w)).toNat, by
          have := ha (ix3 bb h w); have := hb (ix3 bb h w); have := hc (ix3 bb h w); omega⟩ : Fin 35937) ch) := by
  unfold cornerArr
  refine (shapeCast_apply _ shapeCasts_S8x1048576x3_S8x1024x1024x3 (ix4 bb h w ch)
    (ix3 bb (⟨h.val * 1024 + w.val, by have := h.isLt; have := w.isLt; omega⟩ : Fin 1048576) ch) ?_).trans ?_
  · rewrite [Shape.rowMajor_val_three, Shape.rowMajor_val_four]
    show (bb.val * 1048576 + (h.val * 1024 + w.val)) * 3 + ch.val = ((bb.val * 1024 + h.val) * 1024 + w.val) * 3 + ch.val
    omega
  · rw [take_apply lf _ (idxArr_le a b c ha hb hc)]
    refine congrArg lf (funext fun e => Fin.ext ?_)
    match e with
    | ⟨0, _⟩ => rfl
    | ⟨1, _⟩ =>
      show (idxArr (F := F) a b c (ix3 bb (⟨h.val * 1024 + w.val, _⟩ : Fin 1048576) (0 : Fin 1))).toNat = _
      rw [idxArr_at, flat_toNat _ _ _ (ha _) (hb _) (hc _)]
    | ⟨2, _⟩ => rfl

end Cert.Lut.Ref

end
-- ==== Proof.RefValueCorners.lean ====
/-
  The eight corners, read at an index.

  Each corner array is the flat table taken at the pixels' flat indices (a * 33 + b) * 33 + c, for the eight
  choices of cell or upper cell along x, y and z. The flat table is the 5-axis table reshaped, so its row
  (a * 33 + b) * 33 + c of batch `bb` and channel `ch` is the table's entry (bb, a, b, c, ch): the specification's
  `lutAt` of the three grid lines, which are at most 32.
-/
import proofs.«156492_j2448131359063_2_alg».proof.Proof.RefValueTake
import proofs.«156492_j2448131359063_2_alg».proof.Proof.RefValueCoord

noncomputable section

namespace Cert.Lut.Ref

open Cert.ReferenceIdeal Cert.ReferenceIdeal.Gen Cert.ReferenceIdeal.Read Idealize.ShloMosaic Idealize.ShloMosaic.ValueIdx

variable (img : (⟨S8x3x1024x1024, .f32⟩ : BufTy).Contents (Elt Ideal)) (lut : (⟨S8x33x33x33x3, .f32⟩ : BufTy).Contents (Elt Ideal))

/-- The flat table's row (A * 33 + B) * 33 + C is the table's entry (A, B, C). -/
theorem table_at (bb : Fin 8) (ch : Fin 3) (A B C : Nat) (hA : A ≤ 32) (hB : B ≤ 32) (hC : C ≤ 32) :
    val_main_v15 (F := Ideal) lut (ix3 bb (⟨(A * 33 + B) * 33 + C, by omega⟩ : Fin 35937) ch)
      = lut (ix5 bb (⟨A, by omega⟩ : Fin 33) (⟨B, by omega⟩ : Fin 33) (⟨C, by omega⟩ : Fin 33) ch) := by
  rw [val_main_v15_apply]
  have hb := bb.isLt; have hch := ch.isLt
  refine congrArg lut (funext fun a => Fin.ext ?_)
  match a with
  | ⟨0, _⟩ => show ((bb.val * 35937 + ((A * 33 + B) * 33 + C)) * 3 + ch.val) / 107811 = bb.val; omega
  | ⟨1, _⟩ => show ((bb.val * 35937 + ((A * 33 + B) * 33 + C)) * 3 + ch.val) / 3267 % 33 = A; omega
  | ⟨2, _⟩ => show ((bb.val * 35937 + ((A * 33 + B) * 33 + C)) * 3 + ch.val) / 99 % 33 = B; omega
  | ⟨3, _⟩ => show ((bb.val * 35937 + ((A * 33 + B) * 33 + C)) * 3 + ch.val) / 3 % 33 = C; omega
  | ⟨4, _⟩ => show ((bb.val * 35937 + ((A * 33 + B) * 33 + C)) * 3 + ch.val) % 3 = ch.val; omega

/-- A corner of the reshaped table at a pixel and a channel is the specification's table entry at the pixel's three
    grid lines. -/
theorem corner_lut (a b c : (⟨S8x1024x1024, .i32⟩ : BufTy).Contents (Elt Ideal)) (ha : ∀ j, (a j).toNat ≤ 32)
    (hb : ∀ j, (b j).toNat ≤ 32) (hc : ∀ j, (c j).toNat ≤ 32) (bb : Fin 8) (h w : Fin 1024) (ch : Fin 3) :
    cornerArr (F := Ideal) (val_main_v15 (F := Ideal) lut) a b c (ix4 bb h w ch)
      = lutAt (fun i j k => lut (ix5 bb i j k ch)) (a (ix3 bb h w)) (b (ix3 bb h w)) (c (ix3 bb h w)) := by
  have h1 := ha (ix3 bb h w); have h2 := hb (ix3 bb h w); have h3 := hc (ix3 bb h w)
  rw [cornerArr_apply _ a b c ha hb hc, table_at lut bb ch _ _ _ h1 h2 h3]
  unfold lutAt
  have hlt : (a (ix3 bb h w)).toNat < 33 ∧ (b (ix3 bb h w)).toNat < 33 ∧ (c (ix3 bb h w)).toNat < 33 :=
    ⟨by omega, by omega, by omega⟩
  rw [dif_pos hlt]

/-- Corner 000: cell along x, cell along y, cell along z. -/
theorem v36_eq : val_main_v36 (F := Ideal) img lut
    = cornerArr (F := Ideal) (val_main_v15 (F := Ideal) lut) (val_main_v17 (F := Ideal) img) (val_main_v19 (F := Ideal) img)
        (val_main_v21 (F := Ideal) img) := rfl

theorem v36_at (b : Fin 8) (h w : Fin 1024) (ch : Fin 3) :
    val_main_v36 (F := Ideal) img lut (ix4 b h w ch)
      = lutAt (fun i j k => lut (ix5 b i j k ch)) (cell (img (ix4 b (0 : Fin 3) h w))) (cell (img (ix4 b (1 : Fin 3) h w)))
          (cell (img (ix4 b (2 : Fin 3) h w))) := by
  rw [v36_eq, corner_lut lut _ _ _ (v17_le img) (v19_le img) (v21_le img), v17_at, v19_at, v21_at]

/-- Corner 100: upper cell along x, cell along y, cell along z. -/
theorem v45_eq : val_main_v45 (F := Ideal) img lut
    = cornerArr (F := Ideal) (val_main_v15 (F := Ideal) lut) (val_main_v23 (F := Ideal) img) (val_main_v19 (F := Ideal) img)
        (val_main_v21 (F := Ideal) img) := rfl

theorem v45_at (b : Fin 8) (h w : Fin 1024) (ch : Fin 3) :
    val_main_v45 (F := Ideal) img lut (ix4 b h w ch)
      = lutAt (fun i j k => lut (ix5 b i j k ch)) (cellUp (img (ix4 b (0 : Fin 3) h w))) (cell (img (ix4 b (1 : Fin 3) h w)))
          (cell (img (ix4 b (2 : Fin 3) h w))) := by
  rw [v45_eq, corner_lut lut _ _ _ (v23_le img) (v19_le img) (v21_le img), v23_at, v19_at, v21_at]

/-- Corner 010: cell along x, upper cell along y, cell along z. -/
theorem v54_eq : val_main_v54 (F := Ideal) img lut
    = cornerArr (F := Ideal) (val_main_v15 (F := Ideal) lut) (val_main_v17 (F := Ideal) img) (val_main_v25 (F := Ideal) img)
        (val_main_v21 (F := Ideal) img) := rfl

theorem v54_at (b : Fin 8) (h w : Fin 1024) (ch : Fin 3) :
    val_main_v54 (F := Ideal) img lut (ix4 b h w ch)
      = lutAt (fun i j k => lut (ix5 b i j k ch)) (cell (img (ix4 b (0 : Fin 3) h w))) (cellUp (img (ix4 b (1 : Fin 3) h w)))
          (cell (img (ix4 b (2 : Fin 3) h w))) := by
  rw [v54_eq, corner_lut lut _ _ _ (v17_le img) (v25_le img) (v21_le img), v17_at, v25_at, v21_at]

/-- Corner 110: upper cell along x, upper cell along y, cell along z. -/
theorem v63_eq : val_main_v63 (F := Ideal) img lut
    = cornerArr (F := Ideal) (val_main_v15 (F := Ideal) lut) (val_main_v23 (F := Ideal) img) (val_main_v25 (F := Ideal) img)
        (val_main_v21 (F := Ideal) img) := rfl

theorem v63_at (b : Fin 8) (h w : Fin 1024) (ch : Fin 3) :
    val_main_v63 (F := Ideal) img lut (ix4 b h w ch)
      = lutAt (fun i j k => lut (ix5 b i j k ch)) (cellUp (img (ix4 b (0 : Fin 3) h w))) (cellUp (img (ix4 b (1 : Fin 3) h w)))
          (cell (img (ix4 b (2 : Fin 3) h w))) := by
  rw [v63_eq, corner_lut lut _ _ _ (v23_le img) (v25_le img) (v21_le img), v23_at, v25_at, v21_at]

/-- Corner 001: cell along x, cell along y, upper cell along z. -/
theorem v72_eq : val_main_v72 (F := Ideal) img lut
    = cornerArr (F := Ideal) (val_main_v15 (F := Ideal) lut) (val_main_v17 (F := Ideal) img) (val_main_v19 (F := Ideal) img)
        (val_main_v27 (F := Ideal) img) := rfl

theorem v72_at (b : Fin 8) (h w : Fin 1024) (ch : Fin 3) :
    val_main_v72 (F := Ideal) img lut (ix4 b h w ch)
      = lutAt (fun i j k => lut (ix5 b i j k ch)) (cell (img (ix4 b (0 : Fin 3) h w))) (cell (img (ix4 b (1 : Fin 3) h w)))
          (cellUp (img (ix4 b (2 : Fin 3) h w))) := by
  rw [v72_eq, corner_lut lut _ _ _ (v17_le img) (v19_le img) (v27_le img), v17_at, v19_at, v27_at]

/-- Corner 101: upper cell along x, cell along y, upper cell along z. -/
theorem v81_eq : val_main_v81 (F := Ideal) img lut
    = cornerArr (F := Ideal) (val_main_v15 (F := Ideal) lut) (val_main_v23 (F := Ideal) img) (val_main_v19 (F := Ideal) img)
        (val_main_v27 (F := Ideal) img) := rfl

theorem v81_at (b : Fin 8) (h w : Fin 1024) (ch : Fin 3) :
    val_main_v81 (F := Ideal) img lut (ix4 b h w ch)
      = lutAt (fun i j k => lut (ix5 b i j k ch)) (cellUp (img (ix4 b (0 : Fin 3) h w))) (cell (img (ix4 b (1 : Fin 3) h w)))
          (cellUp (img (ix4 b (2 : Fin 3) h w))) := by
  rw [v81_eq, corner_lut lut _ _ _ (v23_le img) (v19_le img) (v27_le img), v23_at, v19_at, v27_at]

/-- Corner 011: cell along x, upper cell along y, upper cell along z. -/
theorem v90_eq : val_main_v90 (F := Ideal) img lut
    = cornerArr (F := Ideal) (val_main_v15 (F := Ideal) lut) (val_main_v17 (F := Ideal) img) (val_main_v25 (F := Ideal) img)
        (val_main_v27 (F := Ideal) img) := rfl

theorem v90_at (b : Fin 8) (h w : Fin 1024) (ch : Fin 3) :
    val_main_v90 (F := Ideal) img lut (ix4 b h w ch)
      = lutAt (fun i j k => lut (ix5 b i j k ch)) (cell (img (ix4 b (0 : Fin 3) h w))) (cellUp (img (ix4 b (1 : Fin 3) h w)))
          (cellUp (img (ix4 b (2 : Fin 3) h w))) := by
  rw [v90_eq, corner_lut lut _ _ _ (v17_le img) (v25_le img) (v27_le img), v17_at, v25_at, v27_at]

/-- Corner 111: upper cell along x, upper cell along y, upper cell along z. -/
theorem v99_eq : val_main_v99 (F := Ideal) img lut
    = cornerArr (F := Ideal) (val_main_v15 (F := Ideal) lut) (val_main_v23 (F := Ideal) img) (val_main_v25 (F := Ideal) img)
        (val_main_v27 (F := Ideal) img) := rfl

theorem v99_at (b : Fin 8) (h w : Fin 1024) (ch : Fin 3) :
    val_main_v99 (F := Ideal) img lut (ix4 b h w ch)
      = lutAt (fun i j k => lut (ix5 b i j k ch)) (cellUp (img (ix4 b (0 : Fin 3) h w))) (cellUp (img (ix4 b (1 : Fin 3) h w)))
          (cellUp (img (ix4 b (2 : Fin 3) h w))) := by
  rw [v99_eq, corner_lut lut _ _ _ (v23_le img) (v25_le img) (v27_le img), v23_at, v25_at, v27_at]

end Cert.Lut.Ref

end
-- ==== Proof.RefValue.lean ====
/-
  The reference's result read at an index: the eight-corner interpolation of the specification.

  At (b, h, w, ch) the eight corner arrays are the table entries at the cell's corners and the fourteen weight arrays
  are the fractional parts and their complements to one; the reference combines them along x, then y, then z exactly as
  the specification's `refVal` is written, and the last operation transposes (b, h, w, ch) back to (b, ch, h, w).
-/
import proofs.«156492_j2448131359063_2_alg».proof.Proof.RefRead
import proofs.«156492_j2448131359063_2_alg».proof.Proof.Spec
import proofs.«156492_j2448131359063_2_alg».proof.Proof.Coord
import proofs.«156492_j2448131359063_2_alg».proof.Proof.RefValueCoord
import proofs.«156492_j2448131359063_2_alg».proof.Proof.RefValueCorners

noncomputable section

namespace Cert.Lut.Ref

open Idealize.ShloMosaic Idealize.ShloMosaic.ValueIdx

open Cert.ReferenceIdeal.Read in
/-- The interpolation before the final transpose, at (b, h, w, ch). -/
theorem v148_at (img : (⟨Cert.ReferenceIdeal.S8x3x1024x1024, .f32⟩ : BufTy).Contents (Elt Ideal))
    (lut : (⟨Cert.ReferenceIdeal.S8x33x33x33x3, .f32⟩ : BufTy).Contents (Elt Ideal)) (b : Fin 8) (ch : Fin 3) (h w : Fin 1024) :
    val_main_v148 (F := Ideal) img lut (ix4 b h w ch) = Cert.Lut.specAt img lut b ch h w := by
  rw [val_main_v148_apply, val_main_v145_apply, val_main_v147_apply, val_main_v134_apply, val_main_v141_apply,
    val_main_v131_apply, val_main_v133_apply, val_main_v138_apply, val_main_v140_apply,
    val_main_v106_apply, val_main_v120_apply, val_main_v113_apply, val_main_v127_apply,
    val_main_v103_apply, val_main_v105_apply, val_main_v117_apply, val_main_v119_apply,
    val_main_v110_apply, val_main_v112_apply, val_main_v124_apply, val_main_v126_apply,
    v36_at, v45_at, v54_at, v63_at, v72_at, v81_at, v90_at, v99_at,
    v102_at, v104_at, v109_at, v111_at, v116_at, v118_at, v123_at, v125_at,
    v130_at, v132_at, v137_at, v139_at, v144_at, v146_at]
  rfl

theorem val_apply (img : (⟨Cert.ReferenceIdeal.S8x3x1024x1024, .f32⟩ : BufTy).Contents (Elt Ideal))
    (lut : (⟨Cert.ReferenceIdeal.S8x33x33x33x3, .f32⟩ : BufTy).Contents (Elt Ideal)) (b : Fin 8) (ch : Fin 3) (h w : Fin 1024) :
    Cert.ReferenceIdeal.Read.val_main_v149 (F := Ideal) img lut (ix4 b ch h w) = Cert.Lut.specAt img lut b ch h w := by
  rw [Cert.ReferenceIdeal.Read.val_main_v149_apply, tpix]
  exact v148_at img lut b ch h w

end Cert.Lut.Ref

end
-- ==== Proof.Finite.lean ====
/-
  What the precondition gives: every entry of the table is a real number.

  The precondition is the conjunction of two "all entries have absolute value below +infinity" tests, one per
  argument. An extended real whose absolute value max(x, -x) is below +infinity is neither infinity.
-/
import proofs.«156492_j2448131359063_2_alg».proof.Pre_finite_inputs
import Idealize.ShloMosaic.PureOps.Ideal
import Idealize.ShloMosaic.Lib.ReduceAll
import Idealize.ShloMosaic.Lib.ValueIdx

noncomputable section

namespace Cert.Lut

open Idealize.ShloMosaic

instance : Subsingleton Cert.Pre_finite_inputs.S_.Idx := ⟨fun a b => funext fun d => d.elim0⟩

/-- The float word of +infinity denotes the top element. -/
theorem ofBits_inf : Ideal.ofBits .f32 0x7F800000#32 = (⊤ : EReal) := by
  simp [Ideal.ofBits, Ideal.ieee]

/-- An extended real with |x| < +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- Under the precondition every table entry is a real number. -/
theorem lut_real [Cert.Pre_finite_inputs.Facts] (img : FVec Ideal Cert.Pre_finite_inputs.S8x3x1024x1024 .f32)
    (lut : FVec Ideal Cert.Pre_finite_inputs.S8x33x33x33x3 .f32)
    (h : Cert.Pre_finite_inputs.fn (F := Ideal) img lut = fun _ => 1#1) (i : Cert.Pre_finite_inputs.S8x33x33x33x3.Idx) :
    ∃ r : ℝ, lut i = (r : EReal) := by
  have h0 := congrFun h ValueIdx.ix0
  dsimp only [Cert.Pre_finite_inputs.fn] at h0
  have h1 := (IntOp.andi_eq_one.1 h0).2
  have h2 := Host.reduce_andi_all _ _ _ _ _ h1 i
  have h3 : Ideal.cmp .olt (max (lut i) (-(lut i))) (Ideal.ofBits .f32 0x7F800000#32) = 1#1 := h2
  have h4 : max (lut i) (-(lut i)) < Ideal.ofBits .f32 0x7F800000#32 := by
    by_contra hn
    have h5 : Ideal.cmp .olt (max (lut i) (-(lut i))) (Ideal.ofBits .f32 0x7F800000#32) = 0#1 := by
      simp only [Ideal.cmp, hn, decide_false, BitVec.ofBool_false]
      rfl
    rw [h5] at h3
    exact absurd h3 (by decide)
  rw [ofBits_inf] at h4
  exact real_of_abs_lt_top _ h4

end Cert.Lut

end
-- ==== Proof.KernelBlocks.lean ====
/-
  The kernel's windows read at an index.

  Point (b, tile) of the 8 x 512 grid stages rows 0..2 of batch b of the flattened image at lanes
  tile * 2048 .. tile * 2048 + 2047, the whole [99, 1089] table matrix of batch b, and writes back the same
  [1, 3, 2048] block of the flattened result. The flattened image at (b, a, p) is the image at (b, a, p / 1024, p % 1024);
  the table matrix at (b, r, kk) is the table at (b, r % 33, kk / 33, kk % 33, r / 33). The output blocks tile the result:
  index (b, a, p) lies in the block of point (b, p / 2048).
-/
import proofs.«156492_j2448131359063_2_alg».proof.Proof.Gen.KernelIdeal.Frame
import Idealize.ShloMosaic.Lib.Pipeline.Value
import Idealize.ShloMosaic.Lib.ValueIdx
import Idealize.ShloMosaic.Lib.StableHlo.Run

noncomputable section
namespace Cert.Lut.KBlocks
open Cert.KernelIdeal Cert.KernelIdeal.Gen Idealize.ShloMosaic Idealize.ShloMosaic.TcCoe Idealize.SL.Sem Idealize.ShloMosaic.ValueIdx
open Idealize.ShloMosaic.Pipeline (Dat)

/-- The flattened image at (b, a, p) is the image at (b, a, p / 1024, p % 1024). -/
theorem v0_at (img : FVec Ideal S8x3x1024x1024 .f32) (b : Fin 8) (a : Fin 3) (p : Fin 1048576) :
    shapeCast S8x3x1048576 img shapeCasts_S8x3x1024x1024_S8x3x1048576 (ix3 b a p)
      = img (ix4 b a ⟨p.val / 1024, by omega⟩ ⟨p.val % 1024, by omega⟩) :=
  shapeCast_apply img shapeCasts_S8x3x1024x1024_S8x3x1048576 (ix3 b a p) (ix4 b a ⟨p.val / 1024, by omega⟩ ⟨p.val % 1024, by omega⟩)
    (by rewrite [Shape.rowMajor_val_three, Shape.rowMajor_val_four]
        show ((b.val * 3 + a.val) * 1024 + p.val / 1024) * 1024 + p.val % 1024 = (b.val * 3 + a.val) * 1048576 + p.val
        omega)

/-- The table as the kernel's matrix: row r, column kk of batch b is the table entry (r % 33, kk / 33, kk % 33) of channel r / 33. -/
theorem v3_at (lut : FVec Ideal S8x33x33x33x3 .f32) (b : Fin 8) (r : Fin 99) (kk : Fin 1089) :
    truncf (F := Ideal) .bf16 (shapeCast S8x99x1089 (transpose S8x3x33x33x33 [0, 4, 1, 2, 3] lut transposes_S8x33x33x33x3_S8x3x33x33x33_0_4_1_2_3 : FVec Ideal S8x3x33x33x33 .f32) shapeCasts_S8x3x33x33x33_S8x99x1089 : FVec Ideal S8x99x1089 .f32) bitsLt_bf16_f32 (ix3 b r kk)
      = lut (ix5 b ⟨r.val % 33, by omega⟩ ⟨kk.val / 33, by omega⟩ ⟨kk.val % 33, by omega⟩ ⟨r.val / 33, by omega⟩) := by
  show shapeCast S8x99x1089 (transpose S8x3x33x33x33 [0, 4, 1, 2, 3] lut transposes_S8x33x33x33x3_S8x3x33x33x33_0_4_1_2_3) shapeCasts_S8x3x33x33x33_S8x99x1089 (ix3 b r kk) = _
  refine (shapeCast_apply _ shapeCasts_S8x3x33x33x33_S8x99x1089 (ix3 b r kk)
    (ix5 b (⟨r.val / 33, by omega⟩ : Fin 3) (⟨r.val % 33, by omega⟩ : Fin 33) (⟨kk.val / 33, by omega⟩ : Fin 33) (⟨kk.val % 33, by omega⟩ : Fin 33)) ?_).trans ?_
  · rewrite [Shape.rowMajor_val_five, Shape.rowMajor_val_three]
    show (((b.val * 3 + r.val / 33) * 33 + r.val % 33) * 33 + kk.val / 33) * 33 + kk.val % 33 = (b.val * 99 + r.val) * 1089 + kk.val
    omega
  · exact transpose_apply [0, 4, 1, 2, 3] lut transposes_S8x33x33x33x3_S8x3x33x33x33_0_4_1_2_3 _ _ (fun bb => match bb with
      | ⟨0, _⟩ => rfl
      | ⟨1, _⟩ => rfl
      | ⟨2, _⟩ => rfl
      | ⟨3, _⟩ => rfl
      | ⟨4, _⟩ => rfl)

/-- The index maps, as plain coordinate triples. -/
theorem tr0 (i : grid0.Coords) : cc0_transform_0 i = ![(i 0).val, 0, (i 1).val] := by
  have h0 : (i 0).val < 8 := (i 0).isLt
  have h1 : (i 1).val < 512 := (i 1).isLt
  unfold cc0_transform_0
  simp only [BitVec.toNat_ofNat]
  rw [Nat.mod_eq_of_lt (by omega : (i 0).val < 2 ^ 32), Nat.mod_eq_of_lt (by omega : (i 1).val < 2 ^ 32)]

theorem tr1 (i : grid0.Coords) : cc0_transform_1 i = ![(i 0).val, 0, 0] := by
  have h0 : (i 0).val < 8 := (i 0).isLt
  unfold cc0_transform_1
  simp only [BitVec.toNat_ofNat]
  rw [Nat.mod_eq_of_lt (by omega : (i 0).val < 2 ^ 32)]

theorem tr2 (i : grid0.Coords) : cc0_transform_2 i = ![(i 0).val, 0, (i 1).val] := by
  have h0 : (i 0).val < 8 := (i 0).isLt
  have h1 : (i 1).val < 512 := (i 1).isLt
  unfold cc0_transform_2
  simp only [BitVec.toNat_ofNat]
  rw [Nat.mod_eq_of_lt (by omega : (i 0).val < 2 ^ 32), Nat.mod_eq_of_lt (by omega : (i 1).val < 2 ^ 32)]

variable (m : (ℓ : Loc nD τ sig) → Buf (Elt Ideal) ℓ)

/-- Window 0's block at a point, read at an index: the flat image at (batch, row, tile * 2048 + lane). -/
theorem iblk0_apply (c : Dev nD) (t : Fin cfg0.N) (y : ((cfg0.win 0).xblock (cfg0.grid.coords t)).Idx) :
    iblk m c 0 t y = V m c main_v0 (ix3 (⟨(grid0.coords t 0).val, (grid0.coords t 0).isLt⟩ : Fin 8) (⟨(y 1).val, (y 1).isLt⟩ : Fin 3)
      (⟨(grid0.coords t 1).val * 2048 + (y 2).val, by have h1 : (grid0.coords t 1).val < 512 := (grid0.coords t 1).isLt; have h2 : (y 2).val < 2048 := (y 2).isLt; omega⟩ : Fin 1048576)) := by
  show V m c main_v0 (((cfg0.win 0).blk t).view.emb y) = _
  refine congrArg (V m c main_v0) (funext fun a => Fin.ext ?_)
  have e : win0_0.index t = ![(grid0.coords t 0).val, 0, (grid0.coords t 1).val] := tr0 (grid0.coords t)
  have hy0 : (y 0).val < 1 := (y 0).isLt
  match a with
  | ⟨0, _⟩ => show win0_0.index t (0 : Fin 3) * 1 + 1 * (y 0).val = (grid0.coords t 0).val; rw [e]; show (grid0.coords t 0).val * 1 + 1 * (y 0).val = _; omega
  | ⟨1, _⟩ => show win0_0.index t (1 : Fin 3) * 3 + 1 * (y 1).val = (y 1).val; rw [e]; show 0 * 3 + 1 * (y 1).val = _; omega
  | ⟨2, _⟩ => show win0_0.index t (2 : Fin 3) * 2048 + 1 * (y 2).val = (grid0.coords t 1).val * 2048 + (y 2).val; rw [e]; show (grid0.coords t 1).val * 2048 + 1 * (y 2).val = _; omega

/-- The flattened image as the region finds it. -/
theorem V_v0 (c : Dev nD) : (V m c main_v0 : S8x3x1048576.Idx → EReal)
    = shapeCast S8x3x1048576 (m ((c : Thread nD τ).loc main_arg0)) shapeCasts_S8x3x1024x1024_S8x3x1048576 := by
  show StableHlo.after hostOps0 (fun b => m (c, b)) (Proc.devRef .tc main_v0) = _
  after_results
  rfl

/-- The table matrix as the region finds it. -/
theorem V_v3 (c : Dev nD) : (V m c main_v3 : S8x99x1089.Idx → EReal)
    = truncf (F := Ideal) .bf16 (shapeCast S8x99x1089 (transpose S8x3x33x33x33 [0, 4, 1, 2, 3] (m ((c : Thread nD τ).loc main_arg1) : FVec Ideal S8x33x33x33x3 .f32) transposes_S8x33x33x33x3_S8x3x33x33x33_0_4_1_2_3 : FVec Ideal S8x3x33x33x33 .f32) shapeCasts_S8x3x33x33x33_S8x99x1089 : FVec Ideal S8x99x1089 .f32) bitsLt_bf16_f32 := by
  show StableHlo.after hostOps0 (fun b => m (c, b)) (Proc.devRef .tc main_v3) = _
  after_results
  rfl

/-- Window 1's block at a point, read at an index: the table matrix of the point's batch. -/
theorem iblk1_apply (c : Dev nD) (t : Fin cfg0.N) (y : ((cfg0.win 1).xblock (cfg0.grid.coords t)).Idx) :
    iblk m c 1 t y = V m c main_v3 (ix3 (⟨(grid0.coords t 0).val, (grid0.coords t 0).isLt⟩ : Fin 8) (⟨(y 1).val, (y 1).isLt⟩ : Fin 99)
      (⟨(y 2).val, (y 2).isLt⟩ : Fin 1089)) := by
  show V m c main_v3 (((cfg0.win 1).blk t).view.emb y) = _
  refine congrArg (V m c main_v3) (funext fun a => Fin.ext ?_)
  have e : win0_1.index t = ![(grid0.coords t 0).val, 0, 0] := tr1 (grid0.coords t)
  have hy0 : (y 0).val < 1 := (y 0).isLt
  match a with
  | ⟨0, _⟩ => show win0_1.index t (0 : Fin 3) * 1 + 1 * (y 0).val = (grid0.coords t 0).val; rw [e]; show (grid0.coords t 0).val * 1 + 1 * (y 0).val = _; omega
  | ⟨1, _⟩ => show win0_1.index t (1 : Fin 3) * 99 + 1 * (y 1).val = (y 1).val; rw [e]; show 0 * 99 + 1 * (y 1).val = _; omega
  | ⟨2, _⟩ => show win0_1.index t (2 : Fin 3) * 1089 + 1 * (y 2).val = (y 2).val; rw [e]; show 0 * 1089 + 1 * (y 2).val = _; omega

/-- Where an element of the output block of a point sits in the flattened result. -/
theorem emb2 (t : Fin cfg0.N) (y : ((cfg0.win 2).xblock (cfg0.grid.coords t)).Idx) :
    ((cfg0.win 2).blk t).view.emb y = ix3 (⟨(grid0.coords t 0).val, (grid0.coords t 0).isLt⟩ : Fin 8) (⟨(y 1).val, (y 1).isLt⟩ : Fin 3)
      (⟨(grid0.coords t 1).val * 2048 + (y 2).val, by have h1 : (grid0.coords t 1).val < 512 := (grid0.coords t 1).isLt; have h2 : (y 2).val < 2048 := (y 2).isLt; omega⟩ : Fin 1048576) := by
  refine funext fun a => Fin.ext ?_
  have e : win0_2.index t = ![(grid0.coords t 0).val, 0, (grid0.coords t 1).val] := tr2 (grid0.coords t)
  have hy0 : (y 0).val < 1 := (y 0).isLt
  match a with
  | ⟨0, _⟩ => show win0_2.index t (0 : Fin 3) * 1 + 1 * (y 0).val = (grid0.coords t 0).val; rw [e]; show (grid0.coords t 0).val * 1 + 1 * (y 0).val = _; omega
  | ⟨1, _⟩ => show win0_2.index t (1 : Fin 3) * 3 + 1 * (y 1).val = (y 1).val; rw [e]; show 0 * 3 + 1 * (y 1).val = _; omega
  | ⟨2, _⟩ => show win0_2.index t (2 : Fin 3) * 2048 + 1 * (y 2).val = (grid0.coords t 1).val * 2048 + (y 2).val; rw [e]; show (grid0.coords t 1).val * 2048 + 1 * (y 2).val = _; omega

/-- An index of the flattened result is in a point's output block iff each coordinate is in the block's range. -/
theorem mem_blk2 (t : Fin cfg0.N) (i : S8x3x1048576.Idx) :
    i ∈ ((cfg0.win 2).blk t).view.set ↔ ∀ a : Fin 3, win0_2.index t a * S1x3x2048.size a ≤ (i a).val ∧ (i a).val < win0_2.index t a * S1x3x2048.size a + S1x3x2048.size a := by
  show i ∈ ((View.whole main_v4).slice (win0_2.rect t)).set ↔ _
  rw [View.set_slice_whole, Rect.mem_set_unit]
  exact Iff.rfl

end Cert.Lut.KBlocks
end
-- ==== Proof.KernelPayloadLemmas.lean ====
/-
  Small readings at an index used by the kernel body's stored value: the coordinate computation of one colour
  value (grid coordinate, cell, upper cell, fractional part), a hat row, the lane sum over the 33 grid lines, the
  [99,1089] by [1089,2048] product, and the layout steps between them.
-/
import proofs.«156492_j2448131359063_2_alg».proof.Proof.Gen.KernelIdeal.Frame
import proofs.«156492_j2448131359063_2_alg».proof.Proof.Spec
import Idealize.ShloMosaic.Lib.ValueLayout
import Idealize.ShloMosaic.PureOps.Ideal.Laws

noncomputable section

namespace Cert.Lut.Kernel

open Idealize.ShloMosaic Idealize.ShloMosaic.ValueIdx
open Cert.KernelIdeal Cert.KernelIdeal.Gen

/-! ## Layout steps -/

/-- A [1,1,n] block viewed as a vector reads (0,0,t) at t. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An [a,b] vector viewed [a,1,b] reads (i,0,j) at (i,j). -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A [33,1,2048] vector broadcast to [33,33,2048] reads, at (a,c,t), its (a,0,t). -/
theorem broadcastTo_a1b_acb_apply {α : Type} (v : S33x1x2048.Idx → α) (h : S33x1x2048.Broadcasts S33x33x2048)
    (a c : Fin 33) (t : Fin 2048) : broadcastTo S33x33x2048 v h (ix3 a c t) = v (ix3 a (0 : Fin 1) t) := by
  refine broadcastTo_apply v h (ix3 a c t) (ix3 a (0 : Fin 1) t) fun ax => ?_
  match ax with
  | ⟨0, _⟩ => rfl
  | ⟨1, _⟩ => rfl
  | ⟨2, _⟩ => rfl

/-- A [1,33,2048] vector broadcast to [33,33,2048] reads, at (a,c,t), its (0,c,t). -/
theorem broadcastTo_1cb_acb_apply {α : Type} (v : S1x33x2048.Idx → α) (h : S1x33x2048.Broadcasts S33x33x2048)
    (a c : Fin 33) (t : Fin 2048) : broadcastTo S33x33x2048 v h (ix3 a c t) = v (ix3 (0 : Fin 1) c t) := by
  refine broadcastTo_apply v h (ix3 a c t) (ix3 (0 : Fin 1) c t) fun ax => ?_
  match ax with
  | ⟨0, _⟩ => rfl
  | ⟨1, _⟩ => rfl
  | ⟨2, _⟩ => rfl

/-- A [33,33,2048] vector viewed [1089,2048] reads (kk/33, kk%33, t) at (kk, t). -/
theorem shapeCast_outer_apply {α : Type} (x : S33x33x2048.Idx → α) (h : S33x33x2048.ShapeCasts S1089x2048)
    (kk : Fin 1089) (t : Fin 2048) :
    shapeCast S1089x2048 x h (ix2 kk t)
      = x (ix3 (⟨kk.val / 33, by omega⟩ : Fin 33) (⟨kk.val % 33, by omega⟩ : Fin 33) t) :=
  shapeCast_apply x h _ _ (by
    rw [Shape.rowMajor_val_three, Shape.rowMajor_val_two]
    show (kk.val / 33 * 33 + kk.val % 33) * 2048 + t.val = kk.val * 2048 + t.val
    omega)

/-- The iota along the 33 grid lines reads the grid line. -/
theorem iota0_apply (h : S33x2048.Iotas .tc 32 [0]) (i : Fin 33) (t : Fin 2048) :
    iota .tc S33x2048 32 [0] h (ix2 i t) = BitVec.ofNat 32 i.val :=
  iota_single_apply .tc S33x2048 32 0 h (ix2 i t)

/-! ## The lane sum and the matrix product -/

/-- A lane sum over the 33 rows of a [33,2048] vector, read at lane t. -/
theorem lane_sum (X : FVec Ideal S33x2048 .f32) (h : S33x2048.Reduces [0] S2048) (hφ : FKind.Formats .f32)
    (hacc : (0x00000000#32 : BitVec 32) = 0x00000000#32) (t : Fin 2048) :
    multiReduction .add [0] S2048 X 0x00000000#32 h hφ hacc (ix1 t) = ∑ i : Fin 33, X (ix2 i t) := by
  refine (Ideal.multiReduction_add_single X 0x00000000#32 h hφ hacc (ix1 t)).trans ?_
  refine Finset.sum_congr rfl fun k _ => congrArg X ?_
  funext c; apply Fin.ext
  match c with
  | ⟨0, _⟩ => rfl
  | ⟨1, _⟩ => rfl

abbrev dotD : DotDims S99x1089 S1089x2048 S99x2048 := dot_S99x1089_S1089x2048_S99x2048_1_0_0_1_n_n

/-- The [99,1089] by [1089,2048] product into a zero accumulator, read at (r, t): the sum over the contracted
    coordinate of the products of the entries. -/
theorem matmul_row (A : FVec Ideal S99x1089 .bf16) (B : FVec Ideal S1089x2048 .bf16) (r : Fin 99) (t : Fin 2048) :
    matmul dotD none A B (constant (F := Ideal) S99x2048 .f32 0x00000000#32) (ix2 r t)
      = ∑ kk : Fin 1089, A (ix2 r kk) * B (ix2 kk t) := by
  show FloatOps.matmul dotD none A B _ (ix2 r t) = _
  rw [Ideal.matmul_constant_zero_apply, ← Equiv.sum_comp (contrEquiv1 dotD 1089 rfl rfl).symm]
  refine Finset.sum_congr rfl fun c _ => ?_
  have c2 := contrEquiv1_symm_val dotD 1089 rfl rfl c
  have l2 : dotD.lhsIdx (ix2 r t) ((contrEquiv1 dotD 1089 rfl rfl).symm c) = ix2 r c := by
    funext ax; apply Fin.ext
    match ax with
    | ⟨0, _⟩ => simp [DotDims.lhsIdx, dotD, dot_S99x1089_S1089x2048_S99x2048_1_0_0_1_n_n]; rfl
    | ⟨1, _⟩ => simp [DotDims.lhsIdx, dotD, dot_S99x1089_S1089x2048_S99x2048_1_0_0_1_n_n]; exact c2
  have r2 : dotD.rhsIdx (ix2 r t) ((contrEquiv1 dotD 1089 rfl rfl).symm c) = ix2 c t := by
    funext ax; apply Fin.ext
    match ax with
    | ⟨0, _⟩ => simp [DotDims.rhsIdx, dotD, dot_S99x1089_S1089x2048_S99x2048_1_0_0_1_n_n]; exact c2
    | ⟨1, _⟩ => simp [DotDims.rhsIdx, dotD, dot_S99x1089_S1089x2048_S99x2048_1_0_0_1_n_n]; rfl
  rw [l2, r2]

/-! ## The coordinate computation of one colour value -/

/-- The hat weight of grid line i from a cell, an upper cell and a fractional part. -/
def hatW (i c cu : BitVec 32) (f : EReal) : EReal :=
  Scalar.select (IntOp.cmpi .eq i c) (Cert.Lut.wOne - f) Cert.Lut.wZero
    + Scalar.select (IntOp.cmpi .eq i cu) f Cert.Lut.wZero

theorem hat_eq_hatW (i : BitVec 32) (u : EReal) :
    Cert.Lut.hat i u = hatW i (Cert.Lut.cell u) (Cert.Lut.cellUp u) (Cert.Lut.frac u) := rfl

theorem pay2_apply (v0 : Vec Ideal S1x1x2048 .f32) (t : Fin 2048) :
    k0_pay2 (F := Ideal) v0 (ix1 t) = Cert.Lut.gridc (v0 (ix3 (0 : Fin 1) (0 : Fin 1) t)) := by
  unfold k0_pay2 Cert.Lut.gridc
  rw [minimumf_apply, maximumf_apply, mulf_apply, shapeCast_11a_a_apply]
  rfl

theorem pay3_apply (v0 : Vec Ideal S1x1x2048 .f32) (t : Fin 2048) :
    k0_pay3 (F := Ideal) v0 (ix1 t) = Cert.Lut.cell (v0 (ix3 (0 : Fin 1) (0 : Fin 1) t)) := by
  unfold k0_pay3 Cert.Lut.cell
  rw [← pay2_apply]
  rfl

theorem pay4_apply (v0 : Vec Ideal S1x1x2048 .f32) (t : Fin 2048) :
    k0_pay4 (F := Ideal) v0 (ix1 t) = Cert.Lut.cellUp (v0 (ix3 (0 : Fin 1) (0 : Fin 1) t)) := by
  unfold k0_pay4 Cert.Lut.cellUp
  rw [← pay3_apply]
  rfl

theorem pay5_apply (v0 : Vec Ideal S1x1x2048 .f32) (t : Fin 2048) :
    k0_pay5 (F := Ideal) v0 (ix1 t) = Cert.Lut.frac (v0 (ix3 (0 : Fin 1) (0 : Fin 1) t)) := by
  unfold k0_pay5 Cert.Lut.frac
  rw [← pay3_apply, ← pay2_apply]
  rfl

theorem pay6_apply (v2 : Vec Ideal S1x1x2048 .f32) (t : Fin 2048) :
    k0_pay6 (F := Ideal) v2 (ix1 t) = Cert.Lut.gridc (v2 (ix3 (0 : Fin 1) (0 : Fin 1) t)) := by
  unfold k0_pay6 Cert.Lut.gridc
  rw [minimumf_apply, maximumf_apply, mulf_apply, shapeCast_11a_a_apply]
  rfl

theorem pay7_apply (v2 : Vec Ideal S1x1x2048 .f32) (t : Fin 2048) :
    k0_pay7 (F := Ideal) v2 (ix1 t) = Cert.Lut.cell (v2 (ix3 (0 : Fin 1) (0 : Fin 1) t)) := by
  unfold k0_pay7 Cert.Lut.cell
  rw [← pay6_apply]
  rfl

theorem pay8_apply (v2 : Vec Ideal S1x1x2048 .f32) (t : Fin 2048) :
    k0_pay8 (F := Ideal) v2 (ix1 t) = Cert.Lut.cellUp (v2 (ix3 (0 : Fin 1) (0 : Fin 1) t)) := by
  unfold k0_pay8 Cert.Lut.cellUp
  rw [← pay7_apply]
  rfl

theorem pay9_apply (v2 : Vec Ideal S1x1x2048 .f32) (t : Fin 2048) :
    k0_pay9 (F := Ideal) v2 (ix1 t) = Cert.Lut.frac (v2 (ix3 (0 : Fin 1) (0 : Fin 1) t)) := by
  unfold k0_pay9 Cert.Lut.frac
  rw [← pay7_apply, ← pay6_apply]
  rfl

/-- The third colour value's grid coordinate: the scaling is one payload, the clip another. -/
theorem pay11_apply (v4 : Vec Ideal S1x1x2048 .f32) (t : Fin 2048) :
    k0_pay11 (F := Ideal) (k0_pay10 v4) (Scalar.ofBits .f32 0x00000000#32) (Scalar.ofBits .f32 0x41FFFFFF#32) (ix1 t)
      = Cert.Lut.gridc (v4 (ix3 (0 : Fin 1) (0 : Fin 1) t)) := by
  unfold k0_pay11 k0_pay10 Cert.Lut.gridc
  rw [minimumf_apply, maximumf_apply, mulf_apply, shapeCast_11a_a_apply]
  rfl

theorem pay12_apply (v4 : Vec Ideal S1x1x2048 .f32) (t : Fin 2048) :
    k0_pay12 (F := Ideal) (k0_pay10 v4) (Scalar.ofBits .f32 0x00000000#32) (Scalar.ofBits .f32 0x41FFFFFF#32) (ix1 t)
      = Cert.Lut.cell (v4 (ix3 (0 : Fin 1) (0 : Fin 1) t)) := by
  unfold k0_pay12 Cert.Lut.cell
  rw [← pay11_apply]
  rfl

theorem pay15_apply (v4 : Vec Ideal S1x1x2048 .f32) (u : Fin 1) (t : Fin 2048) :
    k0_pay15 (F := Ideal) (k0_pay10 v4) (Scalar.ofBits .f32 0x00000000#32) (Scalar.ofBits .f32 0x41FFFFFF#32) (ix2 u t)
      = Cert.Lut.cell (v4 (ix3 (0 : Fin 1) (0 : Fin 1) t)) := by
  unfold k0_pay15
  rw [shapeCast_a_1a_apply, pay12_apply]

theorem pay16_apply (v4 : Vec Ideal S1x1x2048 .f32) (u : Fin 1) (t : Fin 2048) :
    k0_pay16 (F := Ideal) (k0_pay10 v4) (Scalar.ofBits .f32 0x00000000#32) (Scalar.ofBits .f32 0x41FFFFFF#32) (ix2 u t)
      = Cert.Lut.cellUp (v4 (ix3 (0 : Fin 1) (0 : Fin 1) t)) := by
  unfold k0_pay16 Cert.Lut.cellUp
  rw [shapeCast_a_1a_apply, ← pay12_apply]
  rfl

theorem pay17_apply (v4 : Vec Ideal S1x1x2048 .f32) (u : Fin 1) (t : Fin 2048) :
    k0_pay17 (F := Ideal) (k0_pay10 v4) (Scalar.ofBits .f32 0x00000000#32) (Scalar.ofBits .f32 0x41FFFFFF#32) (ix2 u t)
      = Cert.Lut.frac (v4 (ix3 (0 : Fin 1) (0 : Fin 1) t)) := by
  unfold k0_pay17 Cert.Lut.frac
  rw [shapeCast_a_1a_apply, ← pay12_apply, ← pay11_apply]
  rfl

/-! ## A hat row -/

theorem pay13_apply (v13 v17 : IVec S2048 32) (v19 : FVec Ideal S2048 .f32) (i : Fin 33) (t : Fin 2048) :
    k0_pay13 (F := Ideal) v13 v17 v19 (ix2 i t)
      = hatW (BitVec.ofNat 32 i.val) (v13 (ix1 t)) (v17 (ix1 t)) (v19 (ix1 t)) := by
  unfold k0_pay13 hatW
  rw [addf_apply, select_apply, select_apply, shapeCast_self, shapeCast_self]
  simp only [cmpi, broadcastTo_1b_ab_apply, shapeCast_a_1a_apply, subf_apply, broadcast_apply]
  rw [iota0_apply]
  rfl

theorem pay14_apply (v27 v31 : IVec S2048 32) (v33 : FVec Ideal S2048 .f32) (i : Fin 33) (t : Fin 2048) :
    k0_pay14 (F := Ideal) v27 v31 v33 (ix2 i t)
      = hatW (BitVec.ofNat 32 i.val) (v27 (ix1 t)) (v31 (ix1 t)) (v33 (ix1 t)) := by
  unfold k0_pay14 hatW
  rw [addf_apply, select_apply, select_apply, shapeCast_self, shapeCast_self]
  simp only [cmpi, broadcastTo_1b_ab_apply, shapeCast_a_1a_apply, subf_apply, broadcast_apply]
  rw [iota0_apply]
  rfl

/-! ## The loaded rows -/

/-- The three colour rows of the input block, read at a pixel. -/
theorem ld_row0 (x0 : Vec Ideal S1x3x2048 .f32) (t : Fin 2048) :
    View.ld x0 r0_0 (ix3 (0 : Fin 1) (0 : Fin 1) t) = x0 (ix3 (0 : Fin 1) (0 : Fin 3) t) :=
  congrArg x0 (funext fun a => Fin.ext (by
    match a with
    | ⟨0, _⟩ => rfl
    | ⟨1, _⟩ => rfl
    | ⟨2, _⟩ => show 0 + 1 * t.val = t.val; omega))

theorem ld_row1 (x0 : Vec Ideal S1x3x2048 .f32) (t : Fin 2048) :
    View.ld x0 r0_1 (ix3 (0 : Fin 1) (0 : Fin 1) t) = x0 (ix3 (0 : Fin 1) (1 : Fin 3) t) :=
  congrArg x0 (funext fun a => Fin.ext (by
    match a with
    | ⟨0, _⟩ => rfl
    | ⟨1, _⟩ => rfl
    | ⟨2, _⟩ => show 0 + 1 * t.val = t.val; omega))

theorem ld_row2 (x0 : Vec Ideal S1x3x2048 .f32) (t : Fin 2048) :
    View.ld x0 r0_2 (ix3 (0 : Fin 1) (0 : Fin 1) t) = x0 (ix3 (0 : Fin 1) (2 : Fin 3) t) :=
  congrArg x0 (funext fun a => Fin.ext (by
    match a with
    | ⟨0, _⟩ => rfl
    | ⟨1, _⟩ => rfl
    | ⟨2, _⟩ => show 0 + 1 * t.val = t.val; omega))

end Cert.Lut.Kernel

end
-- ==== Proof.KernelPayload.lean ====
/-
  The kernel body's stored block read at an index: entry (channel, pixel) of the output block is the contraction of
  the table block against the three hat vectors of the pixel's colour values.
-/
import proofs.«156492_j2448131359063_2_alg».proof.Proof.Gen.KernelIdeal.Frame
import proofs.«156492_j2448131359063_2_alg».proof.Proof.Spec
import proofs.«156492_j2448131359063_2_alg».proof.Proof.KernelPayloadLemmas

noncomputable section

namespace Cert.Lut.Kernel

open Idealize.ShloMosaic Idealize.ShloMosaic.ValueIdx
open Cert.KernelIdeal Cert.KernelIdeal.Gen

/-- One of the three output rows: the lane sum of the x hat row against 33 consecutive rows of the product. -/
def rowAt (Wx : FVec Ideal S33x2048 .f32) (m : FVec Ideal S99x2048 .f32) (o : Nat) (h : S99x2048.Slices ![o, 0] S33x2048) :
    FVec Ideal S1x2048 .f32 :=
  shapeCast S1x2048 (multiReduction .add [0] S2048 (mulf Wx (extractStridedSlice S33x2048 ![o, 0] m h)) 0x00000000#32
    reduces_S33x2048_S2048 (.inl rfl) rfl) shapeCasts_S2048_S1x2048

theorem rowAt_apply (Wx : FVec Ideal S33x2048 .f32) (m : FVec Ideal S99x2048 .f32) (o : Nat) (h : S99x2048.Slices ![o, 0] S33x2048)
    (u : Fin 1) (t : Fin 2048) :
    rowAt Wx m o h (ix2 u t)
      = ∑ i : Fin 33, Wx (ix2 i t) * m (ix2 (⟨o + i.val, Nat.lt_of_lt_of_le (Nat.add_lt_add_left i.isLt o) (h.2 0)⟩ : Fin 99) t) := by
  unfold rowAt
  rw [shapeCast_a_1a_apply, lane_sum]
  refine Finset.sum_congr rfl fun i _ => ?_
  rw [mulf_apply, slice2_axis0_eq]

/-- The three rows stacked: row ch reads rows ch * 33 + i of the product. -/
theorem rows_apply (Wx : FVec Ideal S33x2048 .f32) (m : FVec Ideal S99x2048 .f32) (ch : Fin 3) (t : Fin 2048) :
    concatenate S3x2048 0 [⟨S1x2048, rowAt Wx m 0 slices_S99x2048_o0_0_S33x2048⟩,
        ⟨S1x2048, rowAt Wx m 33 slices_S99x2048_o33_0_S33x2048⟩, ⟨S1x2048, rowAt Wx m 66 slices_S99x2048_o66_0_S33x2048⟩]
        concatenates_S1x2048_S1x2048_S1x2048_S3x2048_d0 (ix2 ch t)
      = ∑ i : Fin 33, Wx (ix2 i t) * m (ix2 (⟨ch.val * 33 + i.val, by omega⟩ : Fin 99) t) := by
  match ch with
  | ⟨0, _⟩ =>
    refine Eq.trans (concatenate_apply_piece (0 : Fin 2) _ _ (ix2 (⟨0, by omega⟩ : Fin 3) t) 0 (by simp) S1x2048 _ rfl rfl 0 rfl
      (ix2 (0 : Fin 1) t) (fun b hb => ?_) rfl) ?_
    · match b with
      | ⟨0, _⟩ => exact absurd rfl hb
      | ⟨1, _⟩ => rfl
    · rw [rowAt_apply]
      exact Finset.sum_congr rfl fun i _ => congrArg (fun r : Fin 99 => Wx (ix2 i t) * m (ix2 r t)) (Fin.ext (by show 0 + i.val = 0 * 33 + i.val; omega))
  | ⟨1, _⟩ =>
    refine Eq.trans (concatenate_apply_piece (0 : Fin 2) _ _ (ix2 (⟨1, by omega⟩ : Fin 3) t) 1 (by simp) S1x2048 _ rfl rfl 1 rfl
      (ix2 (0 : Fin 1) t) (fun b hb => ?_) rfl) ?_
    · match b with
      | ⟨0, _⟩ => exact absurd rfl hb
      | ⟨1, _⟩ => rfl
    · rw [rowAt_apply]
      exact Finset.sum_congr rfl fun i _ => congrArg (fun r : Fin 99 => Wx (ix2 i t) * m (ix2 r t)) (Fin.ext (by show 33 + i.val = 1 * 33 + i.val; omega))
  | ⟨2, _⟩ =>
    refine Eq.trans (concatenate_apply_piece (0 : Fin 2) _ _ (ix2 (⟨2, by omega⟩ : Fin 3) t) 2 (by simp) S1x2048 _ rfl rfl 2 rfl
      (ix2 (0 : Fin 1) t) (fun b hb => ?_) rfl) ?_
    · match b with
      | ⟨0, _⟩ => exact absurd rfl hb
      | ⟨1, _⟩ => rfl
    · rw [rowAt_apply]
      exact Finset.sum_congr rfl fun i _ => congrArg (fun r : Fin 99 => Wx (ix2 i t) * m (ix2 r t)) (Fin.ext (by show 66 + i.val = 2 * 33 + i.val; omega))

/-- The z hat row as the body computes it from the cell, upper cell and fractional part rows. -/
theorem wz_apply (v48 : IVec S33x2048 32) (v85 v86 : IVec S1x2048 32) (v87 : FVec Ideal S1x2048 .f32) (k : Fin 33) (t : Fin 2048) :
    addf (select (cmpi .eq v48 (broadcastTo S33x2048 v85 broadcasts_S1x2048_S33x2048))
          (broadcastTo S33x2048 (shapeCast S1x2048 (subf (broadcast S1x2048 (Scalar.ofBits .f32 0x3F800000#32 : Ideal .f32)) v87)
            shapeCasts_S1x2048_S1x2048) broadcasts_S1x2048_S33x2048)
          (broadcast S33x2048 (Scalar.ofBits .f32 0x00000000#32 : Ideal .f32)))
        (select (cmpi .eq v48 (broadcastTo S33x2048 v86 broadcasts_S1x2048_S33x2048))
          (broadcastTo S33x2048 (shapeCast S1x2048 v87 shapeCasts_S1x2048_S1x2048) broadcasts_S1x2048_S33x2048)
          (broadcast S33x2048 (Scalar.ofBits .f32 0x00000000#32 : Ideal .f32))) (ix2 k t)
      = hatW (v48 (ix2 k t)) (v85 (ix2 (0 : Fin 1) t)) (v86 (ix2 (0 : Fin 1) t)) (v87 (ix2 (0 : Fin 1) t)) := by
  unfold hatW
  rw [addf_apply, select_apply, select_apply, shapeCast_self, shapeCast_self]
  simp only [cmpi, broadcastTo_1b_ab_apply, subf_apply, broadcast_apply]
  rfl

/-- The stored block of the body at (0, ch, t), over any hat rows for x and y and any z cell, upper cell and
    fractional part rows: the x hat row against the rows ch * 33 + i of the product of the table block with the
    outer product of the y and z hat rows. -/
theorem pay1_apply (v66 v84 : FVec Ideal S33x2048 .f32) (v85 v86 : IVec S1x2048 32) (v87 : FVec Ideal S1x2048 .f32)
    (v110 : Vec Ideal S1x99x1089 .bf16) (ch : Fin 3) (t : Fin 2048) :
    k0_pay1 (F := Ideal) (iota .tc S33x2048 32 [0] iota_S33x2048_d0_w32) v66 v84 v85 v86 v87 v110 (ix3 (0 : Fin 1) ch t)
      = ∑ i : Fin 33, v66 (ix2 i t) *
          (∑ kk : Fin 1089, v110 (ix3 (0 : Fin 1) (⟨ch.val * 33 + i.val, by omega⟩ : Fin 99) kk) *
            (v84 (ix2 (⟨kk.val / 33, by omega⟩ : Fin 33) t) *
              hatW (BitVec.ofNat 32 (kk.val % 33)) (v85 (ix2 (0 : Fin 1) t)) (v86 (ix2 (0 : Fin 1) t))
                (v87 (ix2 (0 : Fin 1) t)))) := by
  unfold k0_pay1
  rw [shapeCast_ab_1ab_apply]
  refine Eq.trans (rows_apply _ _ ch t) ?_
  refine Finset.sum_congr rfl fun i _ => congrArg (v66 (ix2 i t) * ·) ?_
  refine Eq.trans (matmul_row _ _ _ t) ?_
  refine Finset.sum_congr rfl fun kk _ => ?_
  rw [shapeCast_1ab_ab_apply, truncf_apply, shapeCast_outer_apply, mulf_apply, broadcastTo_a1b_acb_apply,
    broadcastTo_1cb_acb_apply, shapeCast_ab_a1b_apply, shapeCast_ab_1ab_apply, wz_apply, iota0_apply]

/-- The offsets of the whole-block rectangles are all zero. -/
theorem off3_zero : (![0, 0, 0] : Fin 3 → Nat) = fun _ => 0 := by
  funext a
  match a with
  | ⟨0, _⟩ => rfl
  | ⟨1, _⟩ => rfl
  | ⟨2, _⟩ => rfl

theorem out_apply (x0 : Vec Ideal Cert.KernelIdeal.S1x3x2048 .f32) (x1 : Vec Ideal Cert.KernelIdeal.S1x99x1089 .bf16) (ch : Fin 3) (t : Fin 2048) :
    Cert.KernelIdeal.Gen.out0_2 (F := Ideal) x0 x1 (ix3 (0 : Fin 1) ch t)
      = Cert.Lut.kernelVal (x0 (ix3 (0 : Fin 1) (0 : Fin 3) t)) (x0 (ix3 (0 : Fin 1) (1 : Fin 3) t)) (x0 (ix3 (0 : Fin 1) (2 : Fin 3) t))
          (fun r kk => x1 (ix3 (0 : Fin 1) r kk)) ch := by
  unfold Cert.KernelIdeal.Gen.out0_2
  rw [View.canon_unit_zero off3_zero]
  refine Eq.trans (pay1_apply _ _ _ _ _ _ ch t) ?_
  unfold Cert.Lut.kernelVal
  refine Finset.sum_congr rfl fun i _ => ?_
  rw [pay13_apply, pay3_apply, pay4_apply, pay5_apply, ld_row0, ← hat_eq_hatW]
  refine congrArg _ (Finset.sum_congr rfl fun kk _ => ?_)
  rw [pay14_apply, pay7_apply, pay8_apply, pay9_apply, ld_row1, ← hat_eq_hatW, pay15_apply, pay16_apply, pay17_apply,
    ld_row2, ← hat_eq_hatW, View.ld_unit_zero off3_zero]

end Cert.Lut.Kernel

end
-- ==== Proof.KernelValue.lean ====
/-
  The kernel's result array.

  At every grid point the body leaves, in the output block, the specification's value for each of the block's
  pixels: the stored contraction (read at an index) applied to the point's image rows and table matrix, joined to
  the eight-corner interpolation by the law for a finite table. The blocks tile the flattened result, so after the
  run the flattened result is the specification read at (b, ch, p / 1024, p % 1024).
-/
import proofs.«156492_j2448131359063_2_alg».proof.Proof.KernelBlocks
import proofs.«156492_j2448131359063_2_alg».proof.Proof.KernelPayload
import proofs.«156492_j2448131359063_2_alg».proof.Proof.Coord

noncomputable section

namespace Cert.Lut.KValue

open Cert.KernelIdeal Cert.KernelIdeal.Gen Idealize.ShloMosaic Idealize.ShloMosaic.TcCoe Idealize.SL.Sem Idealize.ShloMosaic.ValueIdx
open Idealize.ShloMosaic.Pipeline (Dat)
open Cert.Lut Cert.Lut.KBlocks

/-- The flattened result: entry (b, ch, p) is the specification at (b, ch, p / 1024, p % 1024). -/
def flatSpec (img : FVec Ideal S8x3x1024x1024 .f32) (lut : FVec Ideal S8x33x33x33x3 .f32) : S8x3x1048576.Idx → EReal :=
  fun j => specAt img lut ⟨(j 0).val, (j 0).isLt⟩ ⟨(j 1).val, (j 1).isLt⟩
    ⟨(j 2).val / 1024, by have h : (j 2).val < 1048576 := (j 2).isLt; omega⟩ ⟨(j 2).val % 1024, by omega⟩

/-- One pixel of one point, over variables: from the point's image rows `x0` and table matrix `x1`, read where the
    windows put them, the stored value is the specification at the pixel. -/
theorem point_eq (x0 : Vec Ideal S1x3x2048 .f32) (x1 : Vec Ideal S1x99x1089 .bf16)
    (img : FVec Ideal S8x3x1024x1024 .f32) (lut : FVec Ideal S8x33x33x33x3 .f32)
    (hlut : ∀ i, ∃ r : ℝ, lut i = (r : EReal)) (b : Fin 8) (tile : Fin 512)
    (h0 : ∀ (a : Fin 3) (tt : Fin 2048), x0 (ix3 (0 : Fin 1) a tt)
      = img (ix4 b a ⟨(tile.val * 2048 + tt.val) / 1024, by omega⟩ ⟨(tile.val * 2048 + tt.val) % 1024, by omega⟩))
    (h1 : ∀ (r : Fin 99) (kk : Fin 1089), x1 (ix3 (0 : Fin 1) r kk)
      = lut (ix5 b ⟨r.val % 33, by omega⟩ ⟨kk.val / 33, by omega⟩ ⟨kk.val % 33, by omega⟩ ⟨r.val / 33, by omega⟩))
    (ch : Fin 3) (tt : Fin 2048) :
    out0_2 (F := Ideal) x0 x1 (ix3 (0 : Fin 1) ch tt)
      = specAt img lut b ch ⟨(tile.val * 2048 + tt.val) / 1024, by omega⟩ ⟨(tile.val * 2048 + tt.val) % 1024, by omega⟩ := by
  rw [Cert.Lut.Kernel.out_apply, h0 0 tt, h0 1 tt, h0 2 tt]
  unfold specAt
  refine kernelVal_eq_refVal _ _ _ (fun i j k => lut (ix5 b i j k ch)) (fun i j k => hlut _) (fun r kk => x1 (ix3 (0 : Fin 1) r kk)) ch
    (fun i kk => ?_)
  show x1 (ix3 (0 : Fin 1) ⟨ch.val * 33 + i.val, _⟩ kk) = lut (ix5 b i ⟨kk.val / 33, _⟩ ⟨kk.val % 33, _⟩ ch)
  rw [h1]
  have e1 : (⟨(ch.val * 33 + i.val) % 33, by omega⟩ : Fin 33) = i := Fin.ext (by show (ch.val * 33 + i.val) % 33 = i.val; omega)
  have e2 : (⟨(ch.val * 33 + i.val) / 33, by omega⟩ : Fin 3) = ch := Fin.ext (by show (ch.val * 33 + i.val) / 33 = ch.val; omega)
  show lut (ix5 b ⟨(ch.val * 33 + i.val) % 33, _⟩ ⟨kk.val / 33, _⟩ ⟨kk.val % 33, _⟩ ⟨(ch.val * 33 + i.val) / 33, _⟩) = _
  rw [e1, e2]

variable (m : (ℓ : Loc nD τ sig) → Buf (Elt Ideal) ℓ)

/-- WHAT POINT `t` WRITES BACK is block `t` of the flattened specification of the argument arrays. -/
theorem flushed_eq (c : Dev nD)
    (hlut : ∀ i, ∃ r : ℝ, (m ((c : Thread nD τ).loc main_arg1) : FVec Ideal S8x33x33x33x3 .f32) i = (r : EReal)) (t : Fin cfg0.N) :
    (dats m 0 c).flushed 2 t = ((cfg0.win 2).blk t).view.read (Elt Ideal)
      (flatSpec (m ((c : Thread nD τ).loc main_arg0)) (m ((c : Thread nD τ).loc main_arg1))) := by
  show (cfg0.win 2).cut (grid0.coords t) ((dats m 0 c).after 2 t) = _
  rw [after0_2]
  funext y
  show out0_2 (iblk m c 0 t) (iblk m c 1 t) y
    = flatSpec (m ((c : Thread nD τ).loc main_arg0)) (m ((c : Thread nD τ).loc main_arg1)) (((cfg0.win 2).blk t).view.emb y)
  rw [emb2]
  obtain ⟨ch, tt, rfl⟩ : ∃ (ch : Fin 3) (tt : Fin 2048), y = ix3 (0 : Fin 1) ch tt :=
    ⟨⟨(y 1).val, (y 1).isLt⟩, ⟨(y 2).val, (y 2).isLt⟩, funext fun a => Fin.ext (by
      have hy0 : (y 0).val < 1 := (y 0).isLt
      match a with
      | ⟨0, _⟩ => show (y 0).val = 0; omega
      | ⟨1, _⟩ => rfl
      | ⟨2, _⟩ => rfl)⟩
  exact point_eq (iblk m c 0 t) (iblk m c 1 t) (m ((c : Thread nD τ).loc main_arg0)) (m ((c : Thread nD τ).loc main_arg1)) hlut
    ⟨(grid0.coords t 0).val, (grid0.coords t 0).isLt⟩ ⟨(grid0.coords t 1).val, (grid0.coords t 1).isLt⟩
    (fun a tt' => (iblk0_apply m c t (ix3 (0 : Fin 1) a tt')).trans ((congrFun (V_v0 m c) _).trans (v0_at _ _ _ _)))
    (fun r kk => (iblk1_apply m c t (ix3 (0 : Fin 1) r kk)).trans ((congrFun (V_v3 m c) _).trans (v3_at _ _ _ _)))
    ch tt

/-- The two grid coordinates of a point. -/
theorem coords0 (t : Fin cfg0.N) : (grid0.coords t 0).val = t.val / 512 % 8 := rfl
theorem coords1 (t : Fin cfg0.N) : (grid0.coords t 1).val = t.val % 512 := by
  show t.val / 1 % 512 = _
  rw [Nat.div_one]

/-- THE COVER: index (b, a, p) of the flattened result lies in the output block of point (b, p / 2048). -/
theorem cover (i : S8x3x1048576.Idx) : ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 1048576 := (i 2).isLt
  have hN : cfg0.N = 4096 := N_0
  let t : Fin cfg0.N := ⟨(i 0).val * 512 + (i 2).val / 2048, by rw [hN]; omega⟩
  refine ⟨t, flush0_2 t, ?_⟩
  rw [mem_blk2]
  have e : win0_2.index t = ![(grid0.coords t 0).val, 0, (grid0.coords t 1).val] := tr2 (grid0.coords t)
  have c0 : (grid0.coords t 0).val = (i 0).val := by
    rw [coords0]; show ((i 0).val * 512 + (i 2).val / 2048) / 512 % 8 = (i 0).val; omega
  have c1 : (grid0.coords t 1).val = (i 2).val / 2048 := by
    rw [coords1]; show ((i 0).val * 512 + (i 2).val / 2048) % 512 = (i 2).val / 2048; omega
  intro a
  rw [e]
  match a with
  | ⟨0, _⟩ => show (grid0.coords t 0).val * 1 ≤ (i 0).val ∧ (i 0).val < (grid0.coords t 0).val * 1 + 1; omega
  | ⟨1, _⟩ => show 0 * 3 ≤ (i 1).val ∧ (i 1).val < 0 * 3 + 3; omega
  | ⟨2, _⟩ => show (grid0.coords t 1).val * 2048 ≤ (i 2).val ∧ (i 2).val < (grid0.coords t 1).val * 2048 + 2048; omega

/-- THE ARRAY after the run: the flattened specification of the argument arrays. -/
theorem final (c : Dev nD)
    (hlut : ∀ i, ∃ r : ℝ, (m ((c : Thread nD τ).loc main_arg1) : FVec Ideal S8x33x33x33x3 .f32) i = (r : EReal)) :
    (dats m 0 c).arrAt 2 cfg0.N = flatSpec (m ((c : Thread nD τ).loc main_arg0)) (m ((c : Thread nD τ).loc main_arg1)) :=
  (dats m 0 c).arrAt_eq_of_cover 2 _ (fun t _ => flushed_eq m c hlut t) cover

end Cert.Lut.KValue

end
-- ==== Proof.KernelRun.lean ====
/-
  The kernel's run with its result named: every weakly fair execution ends with the result array at the
  specification of the argument arrays (for a finite table), and the arguments unchanged.

  After the region the program reshapes the flattened result [8, 3, 1048576] to [8, 3, 1024, 1024]: entry
  (b, ch, h, w) is the flattened entry (b, ch, h * 1024 + w), whose specification is read at (b, ch, h, w).
-/
import proofs.«156492_j2448131359063_2_alg».proof.Proof.KernelValue

noncomputable section

namespace Cert.Lut.KRun

open Cert.KernelIdeal Cert.KernelIdeal.Gen Idealize.ShloMosaic Idealize.ShloMosaic.TcCoe Idealize.SL.Sem Idealize.ShloMosaic.ValueIdx
open Idealize.ShloMosaic.Pipeline (Dat)
open Cert.Lut Cert.Lut.KBlocks Cert.Lut.KValue

/-- The reshape of the flattened specification is the specification. -/
theorem unflatten (img : FVec Ideal S8x3x1024x1024 .f32) (lut : FVec Ideal S8x33x33x33x3 .f32) :
    shapeCast S8x3x1024x1024 (flatSpec img lut) shapeCasts_S8x3x1048576_S8x3x1024x1024 = specOut img lut := by
  funext j
  have h0 : (j 0).val < 8 := (j 0).isLt
  have h1 : (j 1).val < 3 := (j 1).isLt
  have h2 : (j 2).val < 1024 := (j 2).isLt
  have h3 : (j 3).val < 1024 := (j 3).isLt
  refine (shapeCast_apply (flatSpec img lut) shapeCasts_S8x3x1048576_S8x3x1024x1024 j
    (ix3 (⟨(j 0).val, h0⟩ : Fin 8) (⟨(j 1).val, h1⟩ : Fin 3) (⟨(j 2).val * 1024 + (j 3).val, by omega⟩ : Fin 1048576)) ?_).trans ?_
  · rewrite [Shape.rowMajor_val_three, Shape.rowMajor_val_four]
    show ((j 0).val * 3 + (j 1).val) * 1048576 + ((j 2).val * 1024 + (j 3).val) = (((j 0).val * 3 + (j 1).val) * 1024 + (j 2).val) * 1024 + (j 3).val
    omega
  · show specAt img lut ⟨(j 0).val, _⟩ ⟨(j 1).val, _⟩ ⟨((j 2).val * 1024 + (j 3).val) / 1024, _⟩ ⟨((j 2).val * 1024 + (j 3).val) % 1024, _⟩
      = specAt img lut ⟨(j 0).val, _⟩ ⟨(j 1).val, _⟩ ⟨(j 2).val, _⟩ ⟨(j 3).val, _⟩
    have e2 : (⟨((j 2).val * 1024 + (j 3).val) / 1024, by omega⟩ : Fin 1024) = ⟨(j 2).val, h2⟩ := Fin.ext (by show ((j 2).val * 1024 + (j 3).val) / 1024 = (j 2).val; omega)
    have e3 : (⟨((j 2).val * 1024 + (j 3).val) % 1024, by omega⟩ : Fin 1024) = ⟨(j 3).val, h3⟩ := Fin.ext (by show ((j 2).val * 1024 + (j 3).val) % 1024 = (j 3).val; omega)
    rw [e2, e3]

variable (m : (ℓ : Loc nD τ sig) → Buf (Elt Ideal) ℓ) (ρ : Dev nD → PrngReg)

/-- The result buffer after the lines that follow the region. -/
theorem tail_eq (c : Dev nD)
    (hlut : ∀ i, ∃ r : ℝ, (m ((c : Thread nD τ).loc main_arg1) : FVec Ideal S8x33x33x33x3 .f32) i = (r : EReal)) :
    (Pipeline.afterTail₀ cfgs (dats m) 0 (V0 m) [hostOps1] c main_v5 : S8x3x1024x1024.Idx → EReal)
      = specOut (m ((c : Thread nD τ).loc main_arg0)) (m ((c : Thread nD τ).loc main_arg1)) := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v4)
      = flatSpec (m ((c : Thread nD τ).loc main_arg0)) (m ((c : Thread nD τ).loc main_arg1)) :=
    (Pipeline.withArrays_arr spec0 launch0.win.arr_inj c _ _ 2).trans (final m c hlut)
  rw [hA]
  exact unflatten _ _

/-- THE RUN, READ: for a finite table, every weakly fair execution of the idealized kernel program terminates with its
    result array at the specification of its argument arrays, and the arguments unchanged. -/
theorem run
    (hlut : ∀ (c : Dev nD) i, ∃ r : ℝ, (m ((c : Thread nD τ).loc main_arg1) : FVec Ideal S8x33x33x33x3 .f32) i = (r : EReal)) :
    θ_run defs (onTc (τ := τ) (main (F := Ideal))) ⟨m, fun _ => 0, ρ⟩ fun r => ∀ c : Dev nD,
      r.2.mem ((c.tc : Thread nD τ).loc main_v5) = specOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c (hlut c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Lut.KRun

end
-- ==== Proof.lean ====
/-
  The certificate: a per-batch trilinear 3D-LUT lookup on an RGB image, the kernel against its jnp reference,
  equal over the extended reals for finite inputs.

  Both programs scale a pixel's three colour values to grid space, clip, and split into an integer cell and a
  fractional part. The reference gathers the eight table entries at the cell's corners and interpolates linearly
  along x, then y, then z. The kernel instead builds, per colour value, a length-33 "hat" vector with the two
  interpolation weights at the cell and the next grid line, multiplies the table (as a [99, 1089] matrix) by the outer
  product of the y and z hats in one matrix product, and sums each channel's 33 rows against the x hat. For a finite
  table the two are the same real number by distributivity (Proof/Coord.lean); format changes are the identity over
  the extended reals. The frames of the two kernel programs are the generated ones; the reference's frame is its run
  (read window by window, Proof/RefBridge.lean) with the result dropped; no operation of the kernel was rewritten when it was idealized, so nothing is owed for that.
-/
import proofs.«156492_j2448131359063_2_alg».proof.Defs
import proofs.«156492_j2448131359063_2_alg».proof.Proof.Gen.Kernel
import proofs.«156492_j2448131359063_2_alg».proof.Proof.Gen.Kernel.Skeleton
import proofs.«156492_j2448131359063_2_alg».proof.Proof.Gen.Kernel.Launch
import proofs.«156492_j2448131359063_2_alg».proof.Proof.Gen.Kernel.Points
import proofs.«156492_j2448131359063_2_alg».proof.Proof.Gen.Kernel.Frame
import proofs.«156492_j2448131359063_2_alg».proof.Proof.Gen.KernelIdeal
import proofs.«156492_j2448131359063_2_alg».proof.Proof.Gen.KernelIdeal.Skeleton
import proofs.«156492_j2448131359063_2_alg».proof.Proof.Gen.KernelIdeal.Launch
import proofs.«156492_j2448131359063_2_alg».proof.Proof.Gen.KernelIdeal.Points
import proofs.«156492_j2448131359063_2_alg».proof.Proof.Gen.KernelIdeal.Frame
import proofs.«156492_j2448131359063_2_alg».proof.Proof.Gen.ReferenceIdeal
import proofs.«156492_j2448131359063_2_alg».proof.Proof.Gen.Pre_finite_inputs
import proofs.«156492_j2448131359063_2_alg».proof.Proof.RefRun
import proofs.«156492_j2448131359063_2_alg».proof.Proof.RefRead
import proofs.«156492_j2448131359063_2_alg».proof.Proof.RefBridge
import proofs.«156492_j2448131359063_2_alg».proof.Proof.RefValue
import proofs.«156492_j2448131359063_2_alg».proof.Proof.Finite
import proofs.«156492_j2448131359063_2_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.ValueIdx

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Bridge.run (F := Ideal) m ρ)

/-- The reference's result array is the specification of its arguments. -/
theorem ref_result (img : (⟨Cert.ReferenceIdeal.S8x3x1024x1024, .f32⟩ : BufTy).Contents (Elt Ideal))
    (lut : (⟨Cert.ReferenceIdeal.S8x33x33x33x3, .f32⟩ : BufTy).Contents (Elt Ideal)) :
    Cert.ReferenceIdeal.Read.val_main_v149 (F := Ideal) img lut = Cert.Lut.specOut img lut := by
  funext j
  rw [eq_ix4 j]
  exact (Cert.Lut.Ref.val_apply img lut (j 0) (j 1) (j 2) (j 3)).trans (Cert.Lut.specOut_ix4 img lut (j 0) (j 1) (j 2) (j 3)).symm

/-- Both idealized programs end with the specification of the (agreeing) arguments in their result arrays. -/
theorem algebraic : Cert.algebraic_KernelIdeal_ReferenceIdeal := by
  intro m ρ m' ρ' hpre hagree
  refine ⟨fun c => Cert.Lut.specOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Lut.KRun.run m ρ (fun c => Cert.Lut.lut_real _ _ (hpre c)), ?_⟩
  refine (θ_run Cert.ReferenceIdeal.defs _ _).mono (fun _ h c => ⟨(h c).1.trans ?_, (h c).2⟩)
    (Cert.ReferenceIdeal.Bridge.run (F := Ideal) m' ρ')
  rw [(hagree c).1, (hagree c).2]
  exact ref_result _ _

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
